-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096x1 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S4096x2048x2 : Shape := ⟨3, ![4096, 2048, 2]⟩
abbrev S4096x2048x1 : Shape := ⟨3, ![4096, 2048, 1]⟩
abbrev S4096x1024x4 : Shape := ⟨3, ![4096, 1024, 4]⟩
abbrev S4096x1024x2 : Shape := ⟨3, ![4096, 1024, 2]⟩
abbrev S4096x512x8 : Shape := ⟨3, ![4096, 512, 8]⟩
abbrev S4096x512x4 : Shape := ⟨3, ![4096, 512, 4]⟩
abbrev S4096x256x16 : Shape := ⟨3, ![4096, 256, 16]⟩
abbrev S4096x256x8 : Shape := ⟨3, ![4096, 256, 8]⟩
abbrev S4096x128x32 : Shape := ⟨3, ![4096, 128, 32]⟩
abbrev S4096x128x16 : Shape := ⟨3, ![4096, 128, 16]⟩
abbrev S4096x64x64 : Shape := ⟨3, ![4096, 64, 64]⟩
abbrev S4096x64x32 : Shape := ⟨3, ![4096, 64, 32]⟩
abbrev S4096x32x128 : Shape := ⟨3, ![4096, 32, 128]⟩
abbrev S4096x32x64 : Shape := ⟨3, ![4096, 32, 64]⟩
abbrev S4096x16x256 : Shape := ⟨3, ![4096, 16, 256]⟩
abbrev S4096x16x128 : Shape := ⟨3, ![4096, 16, 128]⟩
abbrev S4096x8x512 : Shape := ⟨3, ![4096, 8, 512]⟩
abbrev S4096x8x256 : Shape := ⟨3, ![4096, 8, 256]⟩
abbrev S4096x4x1024 : Shape := ⟨3, ![4096, 4, 1024]⟩
abbrev S4096x4x512 : Shape := ⟨3, ![4096, 4, 512]⟩
abbrev S4096x2x2048 : Shape := ⟨3, ![4096, 2, 2048]⟩
abbrev S4096x2x1024 : Shape := ⟨3, ![4096, 2, 1024]⟩
abbrev S4096x1x4096 : Shape := ⟨3, ![4096, 1, 4096]⟩
abbrev S4096x1x2048 : Shape := ⟨3, ![4096, 1, 2048]⟩
abbrev S_ : Shape := ⟨0, ![]⟩
abbrev S1x4096 : Shape := ⟨2, ![1, 4096]⟩
abbrev S2048x4096 : Shape := ⟨2, ![2048, 4096]⟩
abbrev S512x4096 : Shape := ⟨2, ![512, 4096]⟩
abbrev S1x512 : Shape := ⟨2, ![1, 512]⟩
abbrev S2048x512 : Shape := ⟨2, ![2048, 512]⟩

abbrev nBuf : Space → Nat
  | .hbm => 98
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x2048x2, .f32⟩
  | .hbm, ⟨8, _⟩ => ⟨S4096x2048x1, .f32⟩
  | .hbm, ⟨9, _⟩ => ⟨S4096x2048x1, .f32⟩
  | .hbm, ⟨10, _⟩ => ⟨S4096x2048x1, .f32⟩
  | .hbm, ⟨11, _⟩ => ⟨S4096x2048x1, .f32⟩
  | .hbm, ⟨12, _⟩ => ⟨S4096x2048x2, .f32⟩
  | .hbm, ⟨13, _⟩ => ⟨S4096x4096, .f32⟩
  | .hbm, ⟨14, _⟩ => ⟨S4096x1024x4, .f32⟩
  | .hbm, ⟨15, _⟩ => ⟨S4096x1024x2, .f32⟩
  | .hbm, ⟨16, _⟩ => ⟨S4096x1024x2, .f32⟩
  | .hbm, ⟨17, _⟩ => ⟨S4096x1024x2, .f32⟩
  | .hbm, ⟨18, _⟩ => ⟨S4096x1024x2, .f32⟩
  | .hbm, ⟨19, _⟩ => ⟨S4096x1024x4, .f32⟩
  | .hbm, ⟨20, _⟩ => ⟨S4096x4096, .f32⟩
  | .hbm, ⟨21, _⟩ => ⟨S4096x512x8, .f32⟩
  | .hbm, ⟨22, _⟩ => ⟨S4096x512x4, .f32⟩
  | .hbm, ⟨23, _⟩ => ⟨S4096x512x4, .f32⟩
  | .hbm, ⟨24, _⟩ => ⟨S4096x512x4, .f32⟩
  | .hbm, ⟨25, _⟩ => ⟨S4096x512x4, .f32⟩
  | .hbm, ⟨26, _⟩ => ⟨S4096x512x8, .f32⟩
  | .hbm, ⟨27, _⟩ => ⟨S4096x4096, .f32⟩
  | .hbm, ⟨28, _⟩ => ⟨S4096x256x16, .f32⟩
  | .hbm, ⟨29, _⟩ => ⟨S4096x256x8, .f32⟩
  | .hbm, ⟨30, _⟩ => ⟨S4096x256x8, .f32⟩
  | .hbm, ⟨31, _⟩ => ⟨S4096x256x8, .f32⟩
  | .hbm, ⟨32, _⟩ => ⟨S4096x256x8, .f32⟩
  | .hbm, ⟨33, _⟩ => ⟨S4096x256x16, .f32⟩
  | .hbm, ⟨34, _⟩ => ⟨S4096x4096, .f32⟩
  | .hbm, ⟨35, _⟩ => ⟨S4096x128x32, .f32⟩
  | .hbm, ⟨36, _⟩ => ⟨S4096x128x16, .f32⟩
  | .hbm, ⟨37, _⟩ => ⟨S4096x128x16, .f32⟩
  | .hbm, ⟨38, _⟩ => ⟨S4096x128x16, .f32⟩
  | .hbm, ⟨39, _⟩ => ⟨S4096x128x16, .f32⟩
  | .hbm, ⟨40, _⟩ => ⟨S4096x128x32, .f32⟩
  | .hbm, ⟨41, _⟩ => ⟨S4096x4096, .f32⟩
  | .hbm, ⟨42, _⟩ => ⟨S4096x64x64, .f32⟩
  | .hbm, ⟨43, _⟩ => ⟨S4096x64x32, .f32⟩
  | .hbm, ⟨44, _⟩ => ⟨S4096x64x32, .f32⟩
  | .hbm, ⟨45, _⟩ => ⟨S4096x64x32, .f32⟩
  | .hbm, ⟨46, _⟩ => ⟨S4096x64x32, .f32⟩
  | .hbm, ⟨47, _⟩ => ⟨S4096x64x64, .f32⟩
  | .hbm, ⟨48, _⟩ => ⟨S4096x4096, .f32⟩
  | .hbm, ⟨49, _⟩ => ⟨S4096x32x128, .f32⟩
  | .hbm, ⟨50, _⟩ => ⟨S4096x32x64, .f32⟩
  | .hbm, ⟨51, _⟩ => ⟨S4096x32x64, .f32⟩
  | .hbm, ⟨52, _⟩ => ⟨S4096x32x64, .f32⟩
  | .hbm, ⟨53, _⟩ => ⟨S4096x32x64, .f32⟩
  | .hbm, ⟨54, _⟩ => ⟨S4096x32x128, .f32⟩
  | .hbm, ⟨55, _⟩ => ⟨S4096x4096, .f32⟩
  | .hbm, ⟨56, _⟩ => ⟨S4096x16x256, .f32⟩
  | .hbm, ⟨57, _⟩ => ⟨S4096x16x128, .f32⟩
  | .hbm, ⟨58, _⟩ => ⟨S4096x16x128, .f32⟩
  | .hbm, ⟨59, _⟩ => ⟨S4096x16x128, .f32⟩
  | .hbm, ⟨60, _⟩ => ⟨S4096x16x128, .f32⟩
  | .hbm, ⟨61, _⟩ => ⟨S4096x16x256, .f32⟩
  | .hbm, ⟨62, _⟩ => ⟨S4096x4096, .f32⟩
  | .hbm, ⟨63, _⟩ => ⟨S4096x8x512, .f32⟩
  | .hbm, ⟨64, _⟩ => ⟨S4096x8x256, .f32⟩
  | .hbm, ⟨65, _⟩ => ⟨S4096x8x256, .f32⟩
  | .hbm, ⟨66, _⟩ => ⟨S4096x8x256, .f32⟩
  | .hbm, ⟨67, _⟩ => ⟨S4096x8x256, .f32⟩
  | .hbm, ⟨68, _⟩ => ⟨S4096x8x512, .f32⟩
  | .hbm, ⟨69, _⟩ => ⟨S4096x4096, .f32⟩
  | .hbm, ⟨70, _⟩ => ⟨S4096x4x1024, .f32⟩
  | .hbm, ⟨71, _⟩ => ⟨S4096x4x512, .f32⟩
  | .hbm, ⟨72, _⟩ => ⟨S4096x4x512, .f32⟩
  | .hbm, ⟨73, _⟩ => ⟨S4096x4x512, .f32⟩
  | .hbm, ⟨74, _⟩ => ⟨S4096x4x512, .f32⟩
  | .hbm, ⟨75, _⟩ => ⟨S4096x4x1024, .f32⟩
  | .hbm, ⟨76, _⟩ => ⟨S4096x4096, .f32⟩
  | .hbm, ⟨77, _⟩ => ⟨S4096x2x2048, .f32⟩
  | .hbm, ⟨78, _⟩ => ⟨S4096x2x1024, .f32⟩
  | .hbm, ⟨79, _⟩ => ⟨S4096x2x1024, .f32⟩
  | .hbm, ⟨80, _⟩ => ⟨S4096x2x1024, .f32⟩
  | .hbm, ⟨81, _⟩ => ⟨S4096x2x1024, .f32⟩
  | .hbm, ⟨82, _⟩ => ⟨S4096x2x2048, .f32⟩
  | .hbm, ⟨83, _⟩ => ⟨S4096x4096, .f32⟩
  | .hbm, ⟨84, _⟩ => ⟨S4096x1x4096, .f32⟩
  | .hbm, ⟨85, _⟩ => ⟨S4096x1x2048, .f32⟩
  | .hbm, ⟨86, _⟩ => ⟨S4096x1x2048, .f32⟩
  | .hbm, ⟨87, _⟩ => ⟨S4096x1x2048, .f32⟩
  | .hbm, ⟨88, _⟩ => ⟨S4096x1x2048, .f32⟩
  | .hbm, ⟨89, _⟩ => ⟨S4096x1x4096, .f32⟩
  | .hbm, ⟨90, _⟩ => ⟨S4096x4096, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S4096x4096, .bf16⟩
  | .hbm, ⟨95, _⟩ => ⟨S8192x4096, .bf16⟩
  | .hbm, ⟨96, _⟩ => ⟨S1x4096, .f32⟩
  | .hbm, ⟨97, _⟩ => ⟨S8192x4096, .f32⟩
  | .local _ .vmem, ⟨0, _⟩ => ⟨S2048x4096, .bf16⟩
  | .local _ .vmem, ⟨1, _⟩ => ⟨S2048x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_cst : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S4096x1_S4096x4096_0_1 : S4096x1.BroadcastsInDim S4096x4096 (![0, 1] : Fin 2 → Fin S4096x4096.rank)
  shapeCasts_S4096x4096_S4096x2048x2 : S4096x4096.ShapeCasts S4096x2048x2
  slices_S4096x2048x2_S4096x2048x1_0_0_0 : S4096x2048x2.Slices ![0, 0, 0] S4096x2048x1
  slices_S4096x2048x2_S4096x2048x1_0_0_1 : S4096x2048x2.Slices ![0, 0, 1] S4096x2048x1
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x1024x4 : S4096x4096.ShapeCasts S4096x1024x4
  slices_S4096x1024x4_S4096x1024x2_0_0_0 : S4096x1024x4.Slices ![0, 0, 0] S4096x1024x2
  slices_S4096x1024x4_S4096x1024x2_0_0_2 : S4096x1024x4.Slices ![0, 0, 2] S4096x1024x2
  concatenates_S4096x1024x2_S4096x1024x2_S4096x1024x4_d2 : Shape.Concatenates [S4096x1024x2, S4096x1024x2] S4096x1024x4 2
  shapeCasts_S4096x1024x4_S4096x4096 : S4096x1024x4.ShapeCasts S4096x4096
  shapeCasts_S4096x4096_S4096x512x8 : S4096x4096.ShapeCasts S4096x512x8
  slices_S4096x512x8_S4096x512x4_0_0_0 : S4096x512x8.Slices ![0, 0, 0] S4096x512x4
  slices_S4096x512x8_S4096x512x4_0_0_4 : S4096x512x8.Slices ![0, 0, 4] S4096x512x4
  concatenates_S4096x512x4_S4096x512x4_S4096x512x8_d2 : Shape.Concatenates [S4096x512x4, S4096x512x4] S4096x512x8 2
  shapeCasts_S4096x512x8_S4096x4096 : S4096x512x8.ShapeCasts S4096x4096
  shapeCasts_S4096x4096_S4096x256x16 : S4096x4096.ShapeCasts S4096x256x16
  slices_S4096x256x16_S4096x256x8_0_0_0 : S4096x256x16.Slices ![0, 0, 0] S4096x256x8
  slices_S4096x256x16_S4096x256x8_0_0_8 : S4096x256x16.Slices ![0, 0, 8] S4096x256x8
  concatenates_S4096x256x8_S4096x256x8_S4096x256x16_d2 : Shape.Concatenates [S4096x256x8, S4096x256x8] S4096x256x16 2
  shapeCasts_S4096x256x16_S4096x4096 : S4096x256x16.ShapeCasts S4096x4096
  shapeCasts_S4096x4096_S4096x128x32 : S4096x4096.ShapeCasts S4096x128x32
  slices_S4096x128x32_S4096x128x16_0_0_0 : S4096x128x32.Slices ![0, 0, 0] S4096x128x16
  slices_S4096x128x32_S4096x128x16_0_0_16 : S4096x128x32.Slices ![0, 0, 16] S4096x128x16
  concatenates_S4096x128x16_S4096x128x16_S4096x128x32_d2 : Shape.Concatenates [S4096x128x16, S4096x128x16] S4096x128x32 2
  shapeCasts_S4096x128x32_S4096x4096 : S4096x128x32.ShapeCasts S4096x4096
  shapeCasts_S4096x4096_S4096x64x64 : S4096x4096.ShapeCasts S4096x64x64
  slices_S4096x64x64_S4096x64x32_0_0_0 : S4096x64x64.Slices ![0, 0, 0] S4096x64x32
  slices_S4096x64x64_S4096x64x32_0_0_32 : S4096x64x64.Slices ![0, 0, 32] S4096x64x32
  concatenates_S4096x64x32_S4096x64x32_S4096x64x64_d2 : Shape.Concatenates [S4096x64x32, S4096x64x32] S4096x64x64 2
  shapeCasts_S4096x64x64_S4096x4096 : S4096x64x64.ShapeCasts S4096x4096
  shapeCasts_S4096x4096_S4096x32x128 : S4096x4096.ShapeCasts S4096x32x128
  slices_S4096x32x128_S4096x32x64_0_0_0 : S4096x32x128.Slices ![0, 0, 0] S4096x32x64
  slices_S4096x32x128_S4096x32x64_0_0_64 : S4096x32x128.Slices ![0, 0, 64] S4096x32x64
  concatenates_S4096x32x64_S4096x32x64_S4096x32x128_d2 : Shape.Concatenates [S4096x32x64, S4096x32x64] S4096x32x128 2
  shapeCasts_S4096x32x128_S4096x4096 : S4096x32x128.ShapeCasts S4096x4096
  shapeCasts_S4096x4096_S4096x16x256 : S4096x4096.ShapeCasts S4096x16x256
  slices_S4096x16x256_S4096x16x128_0_0_0 : S4096x16x256.Slices ![0, 0, 0] S4096x16x128
  slices_S4096x16x256_S4096x16x128_0_0_128 : S4096x16x256.Slices ![0, 0, 128] S4096x16x128
  concatenates_S4096x16x128_S4096x16x128_S4096x16x256_d2 : Shape.Concatenates [S4096x16x128, S4096x16x128] S4096x16x256 2
  shapeCasts_S4096x16x256_S4096x4096 : S4096x16x256.ShapeCasts S4096x4096
  shapeCasts_S4096x4096_S4096x8x512 : S4096x4096.ShapeCasts S4096x8x512
  slices_S4096x8x512_S4096x8x256_0_0_0 : S4096x8x512.Slices ![0, 0, 0] S4096x8x256
  slices_S4096x8x512_S4096x8x256_0_0_256 : S4096x8x512.Slices ![0, 0, 256] S4096x8x256
  concatenates_S4096x8x256_S4096x8x256_S4096x8x512_d2 : Shape.Concatenates [S4096x8x256, S4096x8x256] S4096x8x512 2
  shapeCasts_S4096x8x512_S4096x4096 : S4096x8x512.ShapeCasts S4096x4096
  shapeCasts_S4096x4096_S4096x4x1024 : S4096x4096.ShapeCasts S4096x4x1024
  slices_S4096x4x1024_S4096x4x512_0_0_0 : S4096x4x1024.Slices ![0, 0, 0] S4096x4x512
  slices_S4096x4x1024_S4096x4x512_0_0_512 : S4096x4x1024.Slices ![0, 0, 512] S4096x4x512
  concatenates_S4096x4x512_S4096x4x512_S4096x4x1024_d2 : Shape.Concatenates [S4096x4x512, S4096x4x512] S4096x4x1024 2
  shapeCasts_S4096x4x1024_S4096x4096 : S4096x4x1024.ShapeCasts S4096x4096
  shapeCasts_S4096x4096_S4096x2x2048 : S4096x4096.ShapeCasts S4096x2x2048
  slices_S4096x2x2048_S4096x2x1024_0_0_0 : S4096x2x2048.Slices ![0, 0, 0] S4096x2x1024
  slices_S4096x2x2048_S4096x2x1024_0_0_1024 : S4096x2x2048.Slices ![0, 0, 1024] S4096x2x1024
  concatenates_S4096x2x1024_S4096x2x1024_S4096x2x2048_d2 : Shape.Concatenates [S4096x2x1024, S4096x2x1024] S4096x2x2048 2
  shapeCasts_S4096x2x2048_S4096x4096 : S4096x2x2048.ShapeCasts S4096x4096
  shapeCasts_S4096x4096_S4096x1x4096 : S4096x4096.ShapeCasts S4096x1x4096
  slices_S4096x1x4096_S4096x1x2048_0_0_0 : S4096x1x4096.Slices ![0, 0, 0] S4096x1x2048
  slices_S4096x1x4096_S4096x1x2048_0_0_2048 : S4096x1x4096.Slices ![0, 0, 2048] S4096x1x2048
  concatenates_S4096x1x2048_S4096x1x2048_S4096x1x4096_d2 : Shape.Concatenates [S4096x1x2048, S4096x1x2048] S4096x1x4096 2
  shapeCasts_S4096x1x4096_S4096x4096 : S4096x1x4096.ShapeCasts S4096x4096
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x4096_S512x4096_S2048x512_1_1_0_0_n_n_wf : DotDims.WF S2048x4096 S512x4096 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x4096.size a
  hwx0_3 : ∀ i : grid0.Coords, EltTy.bits .f32 = 32 ∨ (Rect.block (s := S8192x4096) S2048x512.size (cc0_transform_3 i) (hinb0_3 i)).WholeWords (EltTy.packing .f32)

variable [Facts₀]

def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf

abbrev win0_0 : Pipeline.Window sig grid0 :=
  Pipeline.Window.ofSpec (Memref.whole main_v90) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v89) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v91) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v92) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S8192x2048x2 : Shape := ⟨3, ![8192, 2048, 2]⟩
abbrev S8192x2048x1 : Shape := ⟨3, ![8192, 2048, 1]⟩
abbrev S8192x1024x4 : Shape := ⟨3, ![8192, 1024, 4]⟩
abbrev S8192x1024x2 : Shape := ⟨3, ![8192, 1024, 2]⟩
abbrev S8192x512x8 : Shape := ⟨3, ![8192, 512, 8]⟩
abbrev S8192x512x4 : Shape := ⟨3, ![8192, 512, 4]⟩
abbrev S8192x256x16 : Shape := ⟨3, ![8192, 256, 16]⟩
abbrev S8192x256x8 : Shape := ⟨3, ![8192, 256, 8]⟩
abbrev S8192x128x32 : Shape := ⟨3, ![8192, 128, 32]⟩
abbrev S8192x128x16 : Shape := ⟨3, ![8192, 128, 16]⟩
abbrev S8192x64x64 : Shape := ⟨3, ![8192, 64, 64]⟩
abbrev S8192x64x32 : Shape := ⟨3, ![8192, 64, 32]⟩
abbrev S8192x32x128 : Shape := ⟨3, ![8192, 32, 128]⟩
abbrev S8192x32x64 : Shape := ⟨3, ![8192, 32, 64]⟩
abbrev S8192x16x256 : Shape := ⟨3, ![8192, 16, 256]⟩
abbrev S8192x16x128 : Shape := ⟨3, ![8192, 16, 128]⟩
abbrev S8192x8x512 : Shape := ⟨3, ![8192, 8, 512]⟩
abbrev S8192x8x256 : Shape := ⟨3, ![8192, 8, 256]⟩
abbrev S8192x4x1024 : Shape := ⟨3, ![8192, 4, 1024]⟩
abbrev S8192x4x512 : Shape := ⟨3, ![8192, 4, 512]⟩
abbrev S8192x2x2048 : Shape := ⟨3, ![8192, 2, 2048]⟩
abbrev S8192x2x1024 : Shape := ⟨3, ![8192, 2, 1024]⟩
abbrev S8192x1x4096 : Shape := ⟨3, ![8192, 1, 4096]⟩
abbrev S8192x1x2048 : Shape := ⟨3, ![8192, 1, 2048]⟩
abbrev S_ : Shape := ⟨0, ![]⟩
abbrev S1x4096 : Shape := ⟨2, ![1, 4096]⟩

abbrev nBuf : Space → Nat
  | .hbm => 99
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S8192x2048x2, .f32⟩
  | .hbm, ⟨5, _⟩ => ⟨S8192x2048x1, .f32⟩
  | .hbm, ⟨6, _⟩ => ⟨S8192x2048x1, .f32⟩
  | .hbm, ⟨7, _⟩ => ⟨S8192x2048x1, .f32⟩
  | .hbm, ⟨8, _⟩ => ⟨S8192x2048x1, .f32⟩
  | .hbm, ⟨9, _⟩ => ⟨S8192x2048x2, .f32⟩
  | .hbm, ⟨10, _⟩ => ⟨S8192x4096, .f32⟩
  | .hbm, ⟨11, _⟩ => ⟨S8192x1024x4, .f32⟩
  | .hbm, ⟨12, _⟩ => ⟨S8192x1024x2, .f32⟩
  | .hbm, ⟨13, _⟩ => ⟨S8192x1024x2, .f32⟩
  | .hbm, ⟨14, _⟩ => ⟨S8192x1024x2, .f32⟩
  | .hbm, ⟨15, _⟩ => ⟨S8192x1024x2, .f32⟩
  | .hbm, ⟨16, _⟩ => ⟨S8192x1024x4, .f32⟩
  | .hbm, ⟨17, _⟩ => ⟨S8192x4096, .f32⟩
  | .hbm, ⟨18, _⟩ => ⟨S8192x512x8, .f32⟩
  | .hbm, ⟨19, _⟩ => ⟨S8192x512x4, .f32⟩
  | .hbm, ⟨20, _⟩ => ⟨S8192x512x4, .f32⟩
  | .hbm, ⟨21, _⟩ => ⟨S8192x512x4, .f32⟩
  | .hbm, ⟨22, _⟩ => ⟨S8192x512x4, .f32⟩
  | .hbm, ⟨23, _⟩ => ⟨S8192x512x8, .f32⟩
  | .hbm, ⟨24, _⟩ => ⟨S8192x4096, .f32⟩
  | .hbm, ⟨25, _⟩ => ⟨S8192x256x16, .f32⟩
  | .hbm, ⟨26, _⟩ => ⟨S8192x256x8, .f32⟩
  | .hbm, ⟨27, _⟩ => ⟨S8192x256x8, .f32⟩
  | .hbm, ⟨28, _⟩ => ⟨S8192x256x8, .f32⟩
  | .hbm, ⟨29, _⟩ => ⟨S8192x256x8, .f32⟩
  | .hbm, ⟨30, _⟩ => ⟨S8192x256x16, .f32⟩
  | .hbm, ⟨31, _⟩ => ⟨S8192x4096, .f32⟩
  | .hbm, ⟨32, _⟩ => ⟨S8192x128x32, .f32⟩
  | .hbm, ⟨33, _⟩ => ⟨S8192x128x16, .f32⟩
  | .hbm, ⟨34, _⟩ => ⟨S8192x128x16, .f32⟩
  | .hbm, ⟨35, _⟩ => ⟨S8192x128x16, .f32⟩
  | .hbm, ⟨36, _⟩ => ⟨S8192x128x16, .f32⟩
  | .hbm, ⟨37, _⟩ => ⟨S8192x128x32, .f32⟩
  | .hbm, ⟨38, _⟩ => ⟨S8192x4096, .f32⟩
  | .hbm, ⟨39, _⟩ => ⟨S8192x64x64, .f32⟩
  | .hbm, ⟨40, _⟩ => ⟨S8192x64x32, .f32⟩
  | .hbm, ⟨41, _⟩ => ⟨S8192x64x32, .f32⟩
  | .hbm, ⟨42, _⟩ => ⟨S8192x64x32, .f32⟩
  | .hbm, ⟨43, _⟩ => ⟨S8192x64x32, .f32⟩
  | .hbm, ⟨44, _⟩ => ⟨S8192x64x64, .f32⟩
  | .hbm, ⟨45, _⟩ => ⟨S8192x4096, .f32⟩
  | .hbm, ⟨46, _⟩ => ⟨S8192x32x128, .f32⟩
  | .hbm, ⟨47, _⟩ => ⟨S8192x32x64, .f32⟩
  | .hbm, ⟨48, _⟩ => ⟨S8192x32x64, .f32⟩
  | .hbm, ⟨49, _⟩ => ⟨S8192x32x64, .f32⟩
  | .hbm, ⟨50, _⟩ => ⟨S8192x32x64, .f32⟩
  | .hbm, ⟨51, _⟩ => ⟨S8192x32x128, .f32⟩
  | .hbm, ⟨52, _⟩ => ⟨S8192x4096, .f32⟩
  | .hbm, ⟨53, _⟩ => ⟨S8192x16x256, .f32⟩
  | .hbm, ⟨54, _⟩ => ⟨S8192x16x128, .f32⟩
  | .hbm, ⟨55, _⟩ => ⟨S8192x16x128, .f32⟩
  | .hbm, ⟨56, _⟩ => ⟨S8192x16x128, .f32⟩
  | .hbm, ⟨57, _⟩ => ⟨S8192x16x128, .f32⟩
  | .hbm, ⟨58, _⟩ => ⟨S8192x16x256, .f32⟩
  | .hbm, ⟨59, _⟩ => ⟨S8192x4096, .f32⟩
  | .hbm, ⟨60, _⟩ => ⟨S8192x8x512, .f32⟩
  | .hbm, ⟨61, _⟩ => ⟨S8192x8x256, .f32⟩
  | .hbm, ⟨62, _⟩ => ⟨S8192x8x256, .f32⟩
  | .hbm, ⟨63, _⟩ => ⟨S8192x8x256, .f32⟩
  | .hbm, ⟨64, _⟩ => ⟨S8192x8x256, .f32⟩
  | .hbm, ⟨65, _⟩ => ⟨S8192x8x512, .f32⟩
  | .hbm, ⟨66, _⟩ => ⟨S8192x4096, .f32⟩
  | .hbm, ⟨67, _⟩ => ⟨S8192x4x1024, .f32⟩
  | .hbm, ⟨68, _⟩ => ⟨S8192x4x512, .f32⟩
  | .hbm, ⟨69, _⟩ => ⟨S8192x4x512, .f32⟩
  | .hbm, ⟨70, _⟩ => ⟨S8192x4x512, .f32⟩
  | .hbm, ⟨71, _⟩ => ⟨S8192x4x512, .f32⟩
  | .hbm, ⟨72, _⟩ => ⟨S8192x4x1024, .f32⟩
  | .hbm, ⟨73, _⟩ => ⟨S8192x4096, .f32⟩
  | .hbm, ⟨74, _⟩ => ⟨S8192x2x2048, .f32⟩
  | .hbm, ⟨75, _⟩ => ⟨S8192x2x1024, .f32⟩
  | .hbm, ⟨76, _⟩ => ⟨S8192x2x1024, .f32⟩
  | .hbm, ⟨77, _⟩ => ⟨S8192x2x1024, .f32⟩
  | .hbm, ⟨78, _⟩ => ⟨S8192x2x1024, .f32⟩
  | .hbm, ⟨79, _⟩ => ⟨S8192x2x2048, .f32⟩
  | .hbm, ⟨80, _⟩ => ⟨S8192x4096, .f32⟩
  | .hbm, ⟨81, _⟩ => ⟨S8192x1x4096, .f32⟩
  | .hbm, ⟨82, _⟩ => ⟨S8192x1x2048, .f32⟩
  | .hbm, ⟨83, _⟩ => ⟨S8192x1x2048, .f32⟩
  | .hbm, ⟨84, _⟩ => ⟨S8192x1x2048, .f32⟩
  | .hbm, ⟨85, _⟩ => ⟨S8192x1x2048, .f32⟩
  | .hbm, ⟨86, _⟩ => ⟨S8192x1x4096, .f32⟩
  | .hbm, ⟨87, _⟩ => ⟨S8192x4096, .f32⟩
  | .hbm, ⟨88, _⟩ => ⟨S_, .f32⟩
  | .hbm, ⟨89, _⟩ => ⟨S8192x4096, .f32⟩
  | .hbm, ⟨90, _⟩ => ⟨S8192x4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S8192x4096, .f32⟩
  | .hbm, ⟨96, _⟩ => ⟨S1x4096, .f32⟩
  | .hbm, ⟨97, _⟩ => ⟨S8192x4096, .f32⟩
  | .hbm, ⟨98, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_cst : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩

abbrev nD : Nat := 1
abbrev τ : Topo := Topo.v7x

variable {F : FTy → Type} [FloatOps F]

class Facts₀ : Prop where
  shapeCasts_S8192x4096_S8192x2048x2 : S8192x4096.ShapeCasts S8192x2048x2
  slices_S8192x2048x2_S8192x2048x1_0_0_0 : S8192x2048x2.Slices ![0, 0, 0] S8192x2048x1
  slices_S8192x2048x2_S8192x2048x1_0_0_1 : S8192x2048x2.Slices ![0, 0, 1] S8192x2048x1
  concatenates_S8192x2048x1_S8192x2048x1_S8192x2048x2_d2 : Shape.Concatenates [S8192x2048x1, S8192x2048x1] S8192x2048x2 2
  shapeCasts_S8192x2048x2_S8192x4096 : S8192x2048x2.ShapeCasts S8192x4096
  shapeCasts_S8192x4096_S8192x1024x4 : S8192x4096.ShapeCasts S8192x1024x4
  slices_S8192x1024x4_S8192x1024x2_0_0_0 : S8192x1024x4.Slices ![0, 0, 0] S8192x1024x2
  slices_S8192x1024x4_S8192x1024x2_0_0_2 : S8192x1024x4.Slices ![0, 0, 2] S8192x1024x2
  concatenates_S8192x1024x2_S8192x1024x2_S8192x1024x4_d2 : Shape.Concatenates [S8192x1024x2, S8192x1024x2] S8192x1024x4 2
  shapeCasts_S8192x1024x4_S8192x4096 : S8192x1024x4.ShapeCasts S8192x4096
  shapeCasts_S8192x4096_S8192x512x8 : S8192x4096.ShapeCasts S8192x512x8
  slices_S8192x512x8_S8192x512x4_0_0_0 : S8192x512x8.Slices ![0, 0, 0] S8192x512x4
  slices_S8192x512x8_S8192x512x4_0_0_4 : S8192x512x8.Slices ![0, 0, 4] S8192x512x4
  concatenates_S8192x512x4_S8192x512x4_S8192x512x8_d2 : Shape.Concatenates [S8192x512x4, S8192x512x4] S8192x512x8 2
  shapeCasts_S8192x512x8_S8192x4096 : S8192x512x8.ShapeCasts S8192x4096
  shapeCasts_S8192x4096_S8192x256x16 : S8192x4096.ShapeCasts S8192x256x16
  slices_S8192x256x16_S8192x256x8_0_0_0 : S8192x256x16.Slices ![0, 0, 0] S8192x256x8
  slices_S8192x256x16_S8192x256x8_0_0_8 : S8192x256x16.Slices ![0, 0, 8] S8192x256x8
  concatenates_S8192x256x8_S8192x256x8_S8192x256x16_d2 : Shape.Concatenates [S8192x256x8, S8192x256x8] S8192x256x16 2
  shapeCasts_S8192x256x16_S8192x4096 : S8192x256x16.ShapeCasts S8192x4096
  shapeCasts_S8192x4096_S8192x128x32 : S8192x4096.ShapeCasts S8192x128x32
  slices_S8192x128x32_S8192x128x16_0_0_0 : S8192x128x32.Slices ![0, 0, 0] S8192x128x16
  slices_S8192x128x32_S8192x128x16_0_0_16 : S8192x128x32.Slices ![0, 0, 16] S8192x128x16
  concatenates_S8192x128x16_S8192x128x16_S8192x128x32_d2 : Shape.Concatenates [S8192x128x16, S8192x128x16] S8192x128x32 2
  shapeCasts_S8192x128x32_S8192x4096 : S8192x128x32.ShapeCasts S8192x4096
  shapeCasts_S8192x4096_S8192x64x64 : S8192x4096.ShapeCasts S8192x64x64
  slices_S8192x64x64_S8192x64x32_0_0_0 : S8192x64x64.Slices ![0, 0, 0] S8192x64x32
  slices_S8192x64x64_S8192x64x32_0_0_32 : S8192x64x64.Slices ![0, 0, 32] S8192x64x32
  concatenates_S8192x64x32_S8192x64x32_S8192x64x64_d2 : Shape.Concatenates [S8192x64x32, S8192x64x32] S8192x64x64 2
  shapeCasts_S8192x64x64_S8192x4096 : S8192x64x64.ShapeCasts S8192x4096
  shapeCasts_S8192x4096_S8192x32x128 : S8192x4096.ShapeCasts S8192x32x128
  slices_S8192x32x128_S8192x32x64_0_0_0 : S8192x32x128.Slices ![0, 0, 0] S8192x32x64
  slices_S8192x32x128_S8192x32x64_0_0_64 : S8192x32x128.Slices ![0, 0, 64] S8192x32x64
  concatenates_S8192x32x64_S8192x32x64_S8192x32x128_d2 : Shape.Concatenates [S8192x32x64, S8192x32x64] S8192x32x128 2
  shapeCasts_S8192x32x128_S8192x4096 : S8192x32x128.ShapeCasts S8192x4096
  shapeCasts_S8192x4096_S8192x16x256 : S8192x4096.ShapeCasts S8192x16x256
  slices_S8192x16x256_S8192x16x128_0_0_0 : S8192x16x256.Slices ![0, 0, 0] S8192x16x128
  slices_S8192x16x256_S8192x16x128_0_0_128 : S8192x16x256.Slices ![0, 0, 128] S8192x16x128
  concatenates_S8192x16x128_S8192x16x128_S8192x16x256_d2 : Shape.Concatenates [S8192x16x128, S8192x16x128] S8192x16x256 2
  shapeCasts_S8192x16x256_S8192x4096 : S8192x16x256.ShapeCasts S8192x4096
  shapeCasts_S8192x4096_S8192x8x512 : S8192x4096.ShapeCasts S8192x8x512
  slices_S8192x8x512_S8192x8x256_0_0_0 : S8192x8x512.Slices ![0, 0, 0] S8192x8x256
  slices_S8192x8x512_S8192x8x256_0_0_256 : S8192x8x512.Slices ![0, 0, 256] S8192x8x256
  concatenates_S8192x8x256_S8192x8x256_S8192x8x512_d2 : Shape.Concatenates [S8192x8x256, S8192x8x256] S8192x8x512 2
  shapeCasts_S8192x8x512_S8192x4096 : S8192x8x512.ShapeCasts S8192x4096
  shapeCasts_S8192x4096_S8192x4x1024 : S8192x4096.ShapeCasts S8192x4x1024
  slices_S8192x4x1024_S8192x4x512_0_0_0 : S8192x4x1024.Slices ![0, 0, 0] S8192x4x512
  slices_S8192x4x1024_S8192x4x512_0_0_512 : S8192x4x1024.Slices ![0, 0, 512] S8192x4x512
  concatenates_S8192x4x512_S8192x4x512_S8192x4x1024_d2 : Shape.Concatenates [S8192x4x512, S8192x4x512] S8192x4x1024 2
  shapeCasts_S8192x4x1024_S8192x4096 : S8192x4x1024.ShapeCasts S8192x4096
  shapeCasts_S8192x4096_S8192x2x2048 : S8192x4096.ShapeCasts S8192x2x2048
  slices_S8192x2x2048_S8192x2x1024_0_0_0 : S8192x2x2048.Slices ![0, 0, 0] S8192x2x1024
  slices_S8192x2x2048_S8192x2x1024_0_0_1024 : S8192x2x2048.Slices ![0, 0, 1024] S8192x2x1024
  concatenates_S8192x2x1024_S8192x2x1024_S8192x2x2048_d2 : Shape.Concatenates [S8192x2x1024, S8192x2x1024] S8192x2x2048 2
  shapeCasts_S8192x2x2048_S8192x4096 : S8192x2x2048.ShapeCasts S8192x4096
  shapeCasts_S8192x4096_S8192x1x4096 : S8192x4096.ShapeCasts S8192x1x4096
  slices_S8192x1x4096_S8192x1x2048_0_0_0 : S8192x1x4096.Slices ![0, 0, 0] S8192x1x2048
  slices_S8192x1x4096_S8192x1x2048_0_0_2048 : S8192x1x4096.Slices ![0, 0, 2048] S8192x1x2048
  concatenates_S8192x1x2048_S8192x1x2048_S8192x1x4096_d2 : Shape.Concatenates [S8192x1x2048, S8192x1x2048] S8192x1x4096 2
  shapeCasts_S8192x1x4096_S8192x4096 : S8192x1x4096.ShapeCasts S8192x4096
  bcast_S_S8192x4096 : S_.BroadcastsInDim S8192x4096 (![] : Fin 0 → Fin S8192x4096.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.FiniteInputs.lean ====
/-
  From the printed finiteness predicate to "every float entry is a real number".

  The predicate tests each of the three float arrays the same way: |x| < +inf at every index (the
  absolute value is max x (-x) on the extended reals, +inf is the word 0x7F800000 read as an f32
  pattern), the answers folded by "and" over all axes from the constant true, and the three folds
  joined by "and". Where the result is the word 1, every fold is 1, so every comparison is 1, so
  max x (-x) < ⊤ at every entry x; an extended real with that property is neither ⊤ nor ⊥, hence
  the image of a real number.
-/
import proofs.«123800_j88441966559314_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

/-- The rank-0 shape has exactly one index. -/
instance subsingleton_idx : Subsingleton S_.Idx := ⟨fun a b => funext fun d => d.elim0⟩

/-- The f32 pattern 0x7F800000 (sign 0, exponent all ones, significand 0) denotes +∞. -/
theorem inf_bits : Ideal.ofBits .f32 0x7F800000#32 = (⊤ : EReal) := by
  simp [Ideal.ofBits, Ideal.ieee]

/-- An extended real whose absolute value max x (-x) lies strictly below ⊤ is a real number:
    at ⊤ the maximum is ⊤, at ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element test: where "|x| < +inf" compares to the word 1, x is a real number. -/
theorem real_of_cmp (x : EReal)
    (h : Ideal.cmp .olt (max x (-x)) (Ideal.ofBits .f32 0x7F800000#32) = 1#1) : ∃ r : ℝ, x = (r : EReal) := by
  rw [inf_bits] at h
  refine real_of_abs_lt_top x ?_
  by_contra hn
  simp [Ideal.cmp, hn] at h

/-- One array's test, at any shape: where the fold by "and" over all axes of the comparisons
    |a i| < +inf is the word 1, every entry of a is a real number. -/
theorem reals_of_all {s : Shape} {axes : List (Fin s.rank)} (a : FVec Ideal s .f32)
    (hb : S_.BroadcastsInDim s (![] : Fin 0 → Fin s.rank)) (hred : s.ReducesTo axes S_) (hpos : 0 < S_.numel)
    (h : Host.reduce IntOp.andi
        (cmpf .olt (Host.absf a) (broadcastInDim s ![] hb (constant (F := Ideal) S_ .f32 0x7F800000#32)))
        (constantI S_ 1 1#1) hred hpos ValueIdx.ix0 = 1#1) :
    ∀ i, ∃ r : ℝ, a i = (r : EReal) := by
  intro i
  have e := Host.reduce_andi_all _ _ hred hpos ValueIdx.ix0 h i
  exact real_of_cmp (a i) e

/-- Where the printed finiteness predicate is all ones, every entry of the three float arrays is a real number. -/
theorem reals_of_pre [Cert.Pre_finite_inputs.Facts]
    (a0 : FVec Ideal S8192x4096 .f32) (a1 : IVec S4096x4096 32) (a2 : FVec Ideal S4096x1 .f32) (a3 : FVec Ideal S4096 .f32)
    (h : Cert.Pre_finite_inputs.fn (F := Ideal) a0 a1 a2 a3 = (fun _ => 1#1)) :
    (∀ i, ∃ r : ℝ, a0 i = (r : EReal)) ∧ (∀ i, ∃ r : ℝ, a2 i = (r : EReal)) ∧ (∀ i, ∃ r : ℝ, a3 i = (r : EReal)) := by
  have h0 := congrFun h ValueIdx.ix0
  dsimp only [Cert.Pre_finite_inputs.fn] at h0
  obtain ⟨h01, h3⟩ := IntOp.andi_eq_one.1 h0
  obtain ⟨h1, h2⟩ := IntOp.andi_eq_one.1 h01
  exact ⟨reals_of_all a0 _ _ _ h1, reals_of_all a2 _ _ _ h2, reals_of_all a3 _ _ _ h3⟩

end Cert.FiniteInputs

end
-- ==== Proof.KernelBlocks.lean ====
/-
  From the blocks of the one output window to the whole array. The pipelined block product leaves in the result array,
  index by index, row `t` of the left operand against row `o` of the right operand, summed over the 4096 contraction
  positions, plus the bias at `o`: each grid point (i, j) writes the 2048 × 512 block (i, j) of that one function of the
  three staged arrays, and the 4 × 8 blocks tile the 8192 × 4096 array.
-/
import proofs.«123800_j88441966559314_2_alg».proof.Proof.Gen.KernelIdeal.Value
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The array the run leaves -/

/-- One entry of the product-plus-bias array: row t of x against row o of w, plus the bias at o. -/
def entry (x : S8192x4096.Idx → EReal) (w : S4096x4096.Idx → EReal) (b : S1x4096.Idx → EReal) (t : Fin 8192) (o : Fin 4096) : EReal :=
  (∑ k : Fin 4096, x (ix2 t k) * w (ix2 o k)) + b (ix2 (0 : Fin 1) o)

/-- The whole array: entry (t, o) at index (t, o). -/
def G (x : S8192x4096.Idx → EReal) (w : S4096x4096.Idx → EReal) (b : S1x4096.Idx → EReal) : S8192x4096.Idx → EReal :=
  fun i => entry x w b (i 0) (i 1)

theorem G_apply (x : S8192x4096.Idx → EReal) (w : S4096x4096.Idx → EReal) (b : S1x4096.Idx → EReal) (t : Fin 8192) (o : Fin 4096) :
    G x w b (ix2 t o) = entry x w b t o := rfl

/-! ## The body's payload at an index

The block product contracts axis 1 of both operands and keeps axis 0 of each: at output index (p, q) and contraction
position k it reads the left block at (p, k) and the right block at (q, k). -/

/-- The left operand's row is the output's row. -/
theorem lhs_row (i : S2048x512.Idx) (r : dot_S2048x4096_S512x4096_S2048x512_1_1_0_0_n_n.contr.Idx) :
    (dot_S2048x4096_S512x4096_S2048x512_1_1_0_0_n_n.lhsIdx i r 0).val = (i 0).val := by
  unfold DotDims.lhsIdx
  rw [dif_neg (show ¬(0 : Fin S2048x4096.rank) ∈ dot_S2048x4096_S512x4096_S2048x512_1_1_0_0_n_n.lhsBatch by decide),
    dif_pos (show (0 : Fin S2048x4096.rank) ∈ dot_S2048x4096_S512x4096_S2048x512_1_1_0_0_n_n.lhsNonContracting by decide)]
  rfl

/-- The left operand's column is the contraction position. -/
theorem lhs_col (i : S2048x512.Idx) (r : dot_S2048x4096_S512x4096_S2048x512_1_1_0_0_n_n.contr.Idx) :
    (dot_S2048x4096_S512x4096_S2048x512_1_1_0_0_n_n.lhsIdx i r 1).val = (r ⟨0, by decide⟩).val :=
  dot_S2048x4096_S512x4096_S2048x512_1_1_0_0_n_n.lhsIdx_val_of_single rfl i r

/-- The right operand's row is the output's column. -/
theorem rhs_row (i : S2048x512.Idx) (r : dot_S2048x4096_S512x4096_S2048x512_1_1_0_0_n_n.contr.Idx) :
    (dot_S2048x4096_S512x4096_S2048x512_1_1_0_0_n_n.rhsIdx i r 0).val = (i 1).val := by
  unfold DotDims.rhsIdx
  rw [dif_neg (show ¬(0 : Fin S512x4096.rank) ∈ dot_S2048x4096_S512x4096_S2048x512_1_1_0_0_n_n.rhsBatch by decide),
    dif_pos (show (0 : Fin S512x4096.rank) ∈ dot_S2048x4096_S512x4096_S2048x512_1_1_0_0_n_n.rhsNonContracting by decide)]
  rfl

/-- The right operand's column is the contraction position. -/
theorem rhs_col (i : S2048x512.Idx) (r : dot_S2048x4096_S512x4096_S2048x512_1_1_0_0_n_n.contr.Idx) :
    (dot_S2048x4096_S512x4096_S2048x512_1_1_0_0_n_n.rhsIdx i r 1).val = (r ⟨0, by decide⟩).val :=
  dot_S2048x4096_S512x4096_S2048x512_1_1_0_0_n_n.rhsIdx_val_of_single rfl i r

/-- The block product into the zero accumulator, at an index: the sum over the contraction positions. -/
theorem product_apply (v1 : FVec Ideal S2048x4096 .bf16) (v3 : FVec Ideal S512x4096 .bf16) (p : Fin 2048) (q : Fin 512) :
    matmul dot_S2048x4096_S512x4096_S2048x512_1_1_0_0_n_n none v1 v3 (constant (F := Ideal) S2048x512 .f32 0x00000000#32) (ix2 p q)
      = ∑ k : Fin 4096, v1 (ix2 p k) * v3 (ix2 q k) := by
  simp only [matmul]
  rw [Ideal.matmul_constant_zero_apply,
    ← Equiv.sum_comp (ValueIdx.contrEquiv1 dot_S2048x4096_S512x4096_S2048x512_1_1_0_0_n_n 4096 rfl rfl).symm]
  refine Finset.sum_congr rfl fun k _ => ?_
  have hk := ValueIdx.contrEquiv1_symm_val dot_S2048x4096_S512x4096_S2048x512_1_1_0_0_n_n 4096 rfl rfl k
  have el : dot_S2048x4096_S512x4096_S2048x512_1_1_0_0_n_n.lhsIdx (ix2 p q) ((ValueIdx.contrEquiv1 dot_S2048x4096_S512x4096_S2048x512_1_1_0_0_n_n 4096 rfl rfl).symm k) = ix2 p k :=
    funext fun a => Fin.ext (by
      match a with
      | ⟨0, _⟩ => exact lhs_row _ _
      | ⟨1, _⟩ => exact (lhs_col _ _).trans hk)
  have er : dot_S2048x4096_S512x4096_S2048x512_1_1_0_0_n_n.rhsIdx (ix2 p q) ((ValueIdx.contrEquiv1 dot_S2048x4096_S512x4096_S2048x512_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-- The bias row broadcast down the block's rows, at an index: the row's entry in that column. -/
theorem bias_apply (v6 : FVec Ideal S1x512 .f32) (p : Fin 2048) (q : Fin 512) :
    broadcastTo S2048x512 v6 broadcasts_S1x512_S2048x512 (ix2 p q) = v6 (ix2 (0 : Fin 1) q) :=
  broadcastTo_apply v6 broadcasts_S1x512_S2048x512 (ix2 p q) (ix2 (0 : Fin 1) q) fun a => by
    match a with
    | ⟨0, _⟩ => rfl
    | ⟨1, _⟩ => rfl

/-- THE PAYLOAD AT AN INDEX: the products along the contraction axis summed, plus the bias row's entry. -/
theorem payload_apply (x0 : Vec Ideal S2048x4096 .bf16) (x1 : Vec Ideal S512x4096 .bf16) (x2 : Vec Ideal S1x512 .f32)
    (p : Fin 2048) (q : Fin 512) :
    k0_pay1 x0 x1 x2 (ix2 p q) = (∑ k : Fin 4096, x0 (ix2 p k) * x1 (ix2 q k)) + x2 (ix2 (0 : Fin 1) q) := by
  unfold k0_pay1
  rw [addf_apply, shapeCast_self, shapeCast_self, shapeCast_self, product_apply, bias_apply]

/-! ## The index maps

Point (i, j) of the 4 × 8 grid stages block (i, 0) of the left array, block (j, 0) of the right array and block (0, j)
of the bias row, and writes block (i, j) of the result: decided over the 32 points. -/

variable (m : (ℓ : Loc nD τ sig) → Buf (Elt Ideal) ℓ) (ρ : Dev nD → PrngReg)

theorem zero_offsets : (![0, 0] : Fin 2 → Nat) = fun _ => 0 := funext fun a => by fin_cases a <;> rfl

/-- Each input window's block index in terms of the output window's, and the output's ranges. -/
theorem index_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3
    ∧ win0_3.index t (1 : Fin 2) ≤ 7 :=
  (by decide +kernel : ∀ t : Fin grid0.N, _)

/-- Every block (q0, q1) of the 4 × 8 tiling is some point's. -/
theorem index_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-! ## The input blocks as reads of their arrays

An element of a block sits in the array, on each axis, at the block index times the block's extent plus its own
coordinate. -/

/-- The left block at point `t`: rows `2048 i … 2048 i + 2047` of the left array, every column. -/
theorem left_block_apply (c : Dev nD) (t : Fin cfg0.N) (p : Fin 2048) (k : Fin 4096) (r : Fin 8192)
    (hr : r.val = win0_3.index t (0 : Fin 2) * 2048 + p.val) :
    (iblk m c 0 t : Vec Ideal S2048x4096 .bf16) (ix2 p k) = (V m c main_v90 : S8192x4096.Idx → EReal) (ix2 r k) := by
  obtain ⟨e0, e1, -⟩ := index_facts t
  show V m c main_v90 (((cfg0.win 0).blk t).view.emb (ix2 p k)) = V m c main_v90 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 4096 + 1 * k.val = k.val; omega

/-- The right block at point `t`: rows `512 j … 512 j + 511` of the right array, every column. -/
theorem right_block_apply (c : Dev nD) (t : Fin cfg0.N) (q : Fin 512) (k : Fin 4096) (o : Fin 4096)
    (ho : o.val = win0_3.index t (1 : Fin 2) * 512 + q.val) :
    (iblk m c 1 t : Vec Ideal S512x4096 .bf16) (ix2 q k) = (V m c main_v89 : S4096x4096.Idx → EReal) (ix2 o k) := by
  obtain ⟨-, -, e2, e3, -⟩ := index_facts t
  show V m c main_v89 (((cfg0.win 1).blk t).view.emb (ix2 q k)) = V m c main_v89 (ix2 o k)
  refine congrArg _ (funext fun a => Fin.ext ?_)
  match a with
  | ⟨0, _⟩ => show win0_1.index t (0 : Fin 2) * 512 + 1 * q.val = o.val; omega
  | ⟨1, _⟩ => show win0_1.index t (1 : Fin 2) * 4096 + 1 * k.val = k.val; omega

/-- The bias block at point `t`: columns `512 j … 512 j + 511` of the bias row. -/
theorem bias_block_apply (c : Dev nD) (t : Fin cfg0.N) (q : Fin 512) (o : Fin 4096)
    (ho : o.val = win0_3.index t (1 : Fin 2) * 512 + q.val) :
    (iblk m c 2 t : Vec Ideal S1x512 .f32) (ix2 (0 : Fin 1) q) = (V m c main_v91 : S1x4096.Idx → EReal) (ix2 (0 : Fin 1) o) := by
  obtain ⟨-, -, -, -, e4, e5, -⟩ := index_facts t
  show V m c main_v91 (((cfg0.win 2).blk t).view.emb (ix2 (0 : Fin 1) q)) = V m c main_v91 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

/-! ## What a point writes back -/

/-- WHAT POINT `t` WRITES BACK is block `t` of the product-plus-bias array of the three staged arrays. -/
theorem flushed_eq (c : Dev nD) (t : Fin cfg0.N) :
    (dats m 0 c).flushed 3 t
      = ((cfg0.win 3).blk t).view.read (Elt Ideal) (G (V m c main_v90) (V m c main_v89) (V m c main_v91)) := by
  rw [Value.flushed3]
  unfold out0_3
  rw [View.canon_unit_zero zero_offsets]
  simp only [View.ld_unit_zero (S := S2048x4096) zero_offsets, View.ld_unit_zero (S := S512x4096) zero_offsets,
    View.ld_unit_zero (S := S1x512) zero_offsets]
  obtain ⟨-, -, -, -, -, -, b0, b1⟩ := index_facts t
  funext j
  obtain ⟨p, q, rfl⟩ : ∃ (p : Fin 2048) (q : Fin 512), j = ix2 p q := ⟨j 0, j 1, eq_ix2 j⟩
  have hp : p.val < 2048 := p.isLt
  have hq : q.val < 512 := q.isLt
  have hemb : ((cfg0.win 3).blk t).view.emb (ix2 p q)
      = ix2 (⟨win0_3.index t (0 : Fin 2) * 2048 + p.val, by omega⟩ : Fin 8192)
          (⟨win0_3.index t (1 : Fin 2) * 512 + q.val, by omega⟩ : Fin 4096) :=
    funext fun a => Fin.ext (by
      match a with
      | ⟨0, _⟩ => show win0_3.index t (0 : Fin 2) * 2048 + 1 * p.val = win0_3.index t (0 : Fin 2) * 2048 + p.val; omega
      | ⟨1, _⟩ => show win0_3.index t (1 : Fin 2) * 512 + 1 * q.val = win0_3.index t (1 : Fin 2) * 512 + q.val; omega)
  show k0_pay1 (iblk m c 0 t) (iblk m c 1 t) (iblk m c 2 t) (ix2 p q)
    = G (V m c main_v90) (V m c main_v89) (V m c main_v91) (((cfg0.win 3).blk t).view.emb (ix2 p q))
  rw [hemb, G_apply]
  refine (payload_apply _ _ _ p q).trans ?_
  unfold entry
  exact congrArg₂ (· + ·)
    (Finset.sum_congr rfl fun k _ => congrArg₂ (· * ·) (left_block_apply m c t p k _ rfl) (right_block_apply m c t q k _ rfl))
    (bias_block_apply m c t q _ rfl)

/-! ## The blocks tile the array -/

/-- An index of the array is in point `t`'s block iff each coordinate is in the block's range on its axis. -/
theorem mem_block (t : Fin cfg0.N) (i : S8192x4096.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v92).slice (win0_3.rect t)).set ↔ _
  rw [View.set_slice_whole, Rect.mem_set_unit]
  exact Iff.rfl

/-- EVERY INDEX IS COVERED: index (r, o) lies in the block of the point whose block index is (r / 2048, o / 512). -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- THE ARRAY after the run is the product-plus-bias array of the three staged arrays as the region finds them. -/
theorem final (c : Dev nD) :
    (dats m 0 c).arrAt 3 cfg0.N = G (V m c main_v90) (V m c main_v89) (V m c main_v91) :=
  (dats m 0 c).arrAt_eq_of_cover 3 (G (V m c main_v90) (V m c main_v89) (V m c main_v91))
    (fun t _ => flushed_eq m c t) cover

/-! ## The run, read -/

/-- The run re-posted: the result array at the product-plus-bias array of the staged arrays, the arguments unchanged. -/
theorem run :
    θ_run (defs (F := Ideal)) (onTc (τ := τ) (main (F := Ideal))) ⟨m, fun _ => 0, ρ⟩ fun r => ∀ c : Dev nD,
      r.2.mem ((c : Thread nD τ).loc main_v92) = G (V m c main_v90) (V m c main_v89) (V m c main_v91)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.LibWalsh.lean ====
/-
  The fast Walsh–Hadamard transform on 4096 points, as algebra over the reals.

  One butterfly stage `s` (0 ≤ s < 12) pairs every index `k` with the index `flip s k` that differs from it in bit `s`
  only, and sends `y` to `k ↦ y (flip s k) + σ_s(k) · y k` with `σ_s(k) = +1` where bit `s` of `k` is clear and `−1` where
  it is set: the lower half of each block of `2^(s+1)` gets the sum of the pair, the upper half the difference.
  Stages on different bits commute, each stage is its own adjoint for the dot product, and so the product of the
  twelve stages — the unnormalised Walsh–Hadamard matrix — is self-adjoint: `⟨a, H b⟩ = ⟨H a, b⟩`.
  The last section ties the bit description to the arithmetic one a row-major reshape sees (`k mod 2^(s+1) < 2^s`,
  `k ± 2^s`), and lifts stages to extended reals whose entries are real.
-/
import Idealize.ShloMosaic.PureOps.Ideal

noncomputable section

open scoped BigOperators

namespace Walsh

/-! ## Flipping one bit of an index -/

/-- The index that differs from `k` exactly in bit `s` (for `s ≥ 12`, outside the transform, `k` itself). -/
def flip (s : ℕ) (k : Fin 4096) : Fin 4096 :=
  if h : s < 12 then
    ⟨k.val ^^^ 2 ^ s, by
      have h1 : k.val < 2 ^ 12 := k.isLt
      have h2 : 2 ^ s < 2 ^ 12 := Nat.pow_lt_pow_right (by norm_num) h
      exact Nat.xor_lt_two_pow h1 h2⟩
  else k

theorem flip_val {s : ℕ} (hs : s < 12) (k : Fin 4096) : (flip s k).val = k.val ^^^ 2 ^ s := by
  unfold flip; rw [dif_pos hs]

/-- Flipping a bit twice gives the index back. -/
theorem flip_flip (s : ℕ) (k : Fin 4096) : flip s (flip s k) = k := by
  by_cases hs : s < 12
  · apply Fin.ext
    rw [flip_val hs, flip_val hs, Nat.xor_assoc, Nat.xor_self, Nat.xor_zero]
  · unfold flip; rw [dif_neg hs, dif_neg hs]

/-- Flips of two bits commute. -/
theorem flip_comm {s t : ℕ} (hs : s < 12) (ht : t < 12) (k : Fin 4096) : flip t (flip s k) = flip s (flip t k) := by
  apply Fin.ext
  rw [flip_val ht, flip_val hs, flip_val hs, flip_val ht, Nat.xor_assoc, Nat.xor_comm (2 ^ s) (2 ^ t), ← Nat.xor_assoc]

/-- The flip as a permutation of the indices. -/
def flipEquiv (s : ℕ) : Fin 4096 ≃ Fin 4096 where
  toFun := flip s
  invFun := flip s
  left_inv := flip_flip s
  right_inv := flip_flip s

/-- The sign a stage gives the entry itself: `−1` where bit `s` is set, `+1` where it is clear. -/
def sgn (s : ℕ) (k : Fin 4096) : ℝ := if k.val.testBit s then -1 else 1

/-- Flipping another bit does not change the sign. -/
theorem sgn_flip {s t : ℕ} (hs : s < 12) (hne : s ≠ t) (k : Fin 4096) : sgn t (flip s k) = sgn t k := by
  unfold sgn
  rw [flip_val hs, Nat.testBit_xor, Nat.testBit_two_pow]
  simp [hne]

/-! ## One stage, and the transform -/

/-- Butterfly stage `s`. -/
def bf (s : ℕ) (y : Fin 4096 → ℝ) : Fin 4096 → ℝ := fun k => y (flip s k) + sgn s k * y k

/-- Stages on different bits commute. -/
theorem bf_comm {s t : ℕ} (hs : s < 12) (ht : t < 12) (hne : s ≠ t) (y : Fin 4096 → ℝ) : bf s (bf t y) = bf t (bf s y) := by
  funext k
  unfold bf
  rw [flip_comm hs ht k, sgn_flip hs hne k, sgn_flip ht (Ne.symm hne) k]
  ring

/-- A stage is its own adjoint for the dot product. -/
theorem bf_adj (s : ℕ) (a b : Fin 4096 → ℝ) : ∑ k, a k * bf s b k = ∑ k, bf s a k * b k := by
  unfold bf
  simp only [mul_add, add_mul, Finset.sum_add_distrib]
  congr 1
  · rw [← Equiv.sum_comp (flipEquiv s) (fun k => a (flip s k) * b k)]
    refine Finset.sum_congr rfl fun k _ => ?_
    show a k * b (flip s k) = a (flip s (flip s k)) * b (flip s k)
    rw [flip_flip]
  · exact Finset.sum_congr rfl fun k _ => by ring

/-- The first `n` stages, stage 0 first. -/
def had : ℕ → (Fin 4096 → ℝ) → Fin 4096 → ℝ
  | 0, y => y
  | n + 1, y => bf n (had n y)

/-- The first `n` stages in the opposite order, stage `n − 1` first. -/
def hadR : ℕ → (Fin 4096 → ℝ) → Fin 4096 → ℝ
  | 0, y => y
  | n + 1, y => hadR n (bf n y)

/-- A higher stage commutes with the lower ones together. -/
theorem bf_had_comm (s : ℕ) (hs : s < 12) : ∀ (n : ℕ), n ≤ s → ∀ y : Fin 4096 → ℝ, bf s (had n y) = had n (bf s y)
  | 0, _, _ => rfl
  | n + 1, hn, y => by
    show bf s (bf n (had n y)) = bf n (had n (bf s y))
    rw [bf_comm hs (by omega) (by omega), bf_had_comm s hs n (by omega) y]

/-- So the order of the stages does not matter. -/
theorem hadR_eq : ∀ (n : ℕ), n ≤ 12 → ∀ y : Fin 4096 → ℝ, hadR n y = had n y
  | 0, _, _ => rfl
  | n + 1, hn, y => by
    show hadR n (bf n y) = bf n (had n y)
    rw [hadR_eq n (by omega) (bf n y), bf_had_comm n (by omega) n (le_refl n) y]

theorem had_adj_aux : ∀ (n : ℕ) (a b : Fin 4096 → ℝ), ∑ k, a k * had n b k = ∑ k, hadR n a k * b k
  | 0, _, _ => rfl
  | n + 1, a, b => by
    show ∑ k, a k * bf n (had n b) k = ∑ k, hadR n (bf n a) k * b k
    rw [bf_adj n a (had n b), had_adj_aux n (bf n a) b]

/-- THE LAW: the twelve-stage transform is self-adjoint. -/
theorem had_adj (a b : Fin 4096 → ℝ) : ∑ k, a k * had 12 b k = ∑ k, had 12 a k * b k := by
  rw [had_adj_aux 12 a b, hadR_eq 12 (le_refl 12) a]

/-- The same with the normalisation `1/64` on the transformed side. -/
theorem had_adj_div (a b : Fin 4096 → ℝ) : ∑ k, a k * (had 12 b k / 64) = ∑ k, had 12 a k / 64 * b k := by
  have h1 : ∑ k, a k * (had 12 b k / 64) = (∑ k, a k * had 12 b k) / 64 := by
    rw [Finset.sum_div]; exact Finset.sum_congr rfl fun k _ => by ring
  have h2 : ∑ k, had 12 a k / 64 * b k = (∑ k, had 12 a k * b k) / 64 := by
    rw [Finset.sum_div]; exact Finset.sum_congr rfl fun k _ => by ring
  rw [h1, h2, had_adj]

/-! ## The same stage on extended reals -/

/-- Butterfly stage `s` on extended reals, in the order the programs compute it: the sum of the pair where bit `s` is
    clear, the partner minus the entry where it is set. -/
def ebf (s : ℕ) (Y : Fin 4096 → EReal) : Fin 4096 → EReal :=
  fun k => if k.val.testBit s then Y (flip s k) - Y k else Y k + Y (flip s k)

/-- The first `n` stages on extended reals. -/
def ehad : ℕ → (Fin 4096 → EReal) → Fin 4096 → EReal
  | 0, Y => Y
  | n + 1, Y => ebf n (ehad n Y)

/-- On real entries the extended-real stage is the real one. -/
theorem ebf_coe (s : ℕ) (y : Fin 4096 → ℝ) : ebf s (fun k => (y k : EReal)) = fun k => ((bf s y k : ℝ) : EReal) := by
  funext k
  unfold ebf bf sgn
  by_cases hb : k.val.testBit s
  · rw [if_pos hb, if_pos hb, ← EReal.coe_sub]
    exact congrArg _ (by ring)
  · rw [if_neg hb, if_neg hb, ← EReal.coe_add]
    exact congrArg _ (by ring)

theorem ehad_coe : ∀ (n : ℕ) (y : Fin 4096 → ℝ), ehad n (fun k => (y k : EReal)) = fun k => ((had n y k : ℝ) : EReal)
  | 0, _ => rfl
  | n + 1, y => by
    show ebf n (ehad n fun k => (y k : EReal)) = fun k => ((bf n (had n y) k : ℝ) : EReal)
    rw [ehad_coe n y, ebf_coe]

/-- A finite sum of real numbers, taken in the extended reals, is the real sum. -/
theorem coe_sum {ι : Type*} (S : Finset ι) (f : ι → ℝ) : ∑ i ∈ S, ((f i : ℝ) : EReal) = ((∑ i ∈ S, f i : ℝ) : EReal) := by
  classical
  refine Finset.induction_on S (by simp) fun a S ha ih => ?_
  rw [Finset.sum_insert ha, Finset.sum_insert ha, ih, EReal.coe_add]

/-- THE LAW on extended reals with real entries: contracting a row `X` against the normalised transform of a row `W`
    is contracting the normalised transform of `X` against `W`. The normalisation is the quotient by the extended real
    `c = 64` (the ideal instance's division, which for a nonzero real divisor is the product with its inverse). Real
    entries are what makes the products distribute over the stages' sums. -/
theorem law (X W : Fin 4096 → EReal) (c : EReal) (hc : c = ((64 : ℝ) : EReal))
    (hX : ∀ k, ∃ r : ℝ, X k = (r : EReal)) (hW : ∀ k, ∃ r : ℝ, W k = (r : EReal)) :
    ∑ k, X k * Idealize.ShloMosaic.Ideal.div (ehad 12 W k) c = ∑ k, Idealize.ShloMosaic.Ideal.div (ehad 12 X k) c * W k := by
  choose x hx using hX
  choose w hw using hW
  obtain rfl : X = fun k => (x k : EReal) := funext hx
  obtain rfl : W = fun k => (w k : EReal) := funext hw
  subst hc
  rw [ehad_coe, ehad_coe]
  have e64 : (64 : ℝ) ≠ 0 := by norm_num
  have hl : ∀ k, ((x k : ℝ) : EReal) * Idealize.ShloMosaic.Ideal.div ((had 12 w k : ℝ) : EReal) ((64 : ℝ) : EReal)
      = ((x k * (had 12 w k / 64) : ℝ) : EReal) := fun k => by
    rw [Idealize.ShloMosaic.Ideal.div_coe e64, ← EReal.coe_mul, ← EReal.coe_mul]
    exact congrArg _ (by ring)
  have hr : ∀ k, Idealize.ShloMosaic.Ideal.div ((had 12 x k : ℝ) : EReal) ((64 : ℝ) : EReal) * ((w k : ℝ) : EReal)
      = ((had 12 x k / 64 * w k : ℝ) : EReal) := fun k => by
    rw [Idealize.ShloMosaic.Ideal.div_coe e64, ← EReal.coe_mul, ← EReal.coe_mul]
    exact congrArg _ (by ring)
  rw [Finset.sum_congr rfl fun k _ => hl k, Finset.sum_congr rfl fun k _ => hr k, coe_sum, coe_sum, had_adj_div]

/-! ## Bits against arithmetic -/

/-- For every stage and every index below 4096: either the index is in the lower half of its block of `2^(s+1)`, bit `s`
    is clear and flipping it adds `2^s`; or it is in the upper half, the bit is set and flipping it subtracts `2^s`.
    Checked over blocks of 64 indices, `k = 64·a + b`. -/
theorem flip_arith_blocks : ∀ (s : Fin 12) (a b : Fin 64),
    ((64 * a.val + b.val) % (2 ^ s.val + 2 ^ s.val) < 2 ^ s.val ∧ (64 * a.val + b.val).testBit s.val = false
        ∧ (64 * a.val + b.val) ^^^ 2 ^ s.val = (64 * a.val + b.val) + 2 ^ s.val)
    ∨ (2 ^ s.val ≤ (64 * a.val + b.val) % (2 ^ s.val + 2 ^ s.val) ∧ (64 * a.val + b.val).testBit s.val = true
        ∧ ((64 * a.val + b.val) ^^^ 2 ^ s.val) + 2 ^ s.val = 64 * a.val + b.val) := by
  decide +kernel

theorem flip_arith {s : ℕ} (hs : s < 12) (k : Fin 4096) :
    (k.val % (2 ^ s + 2 ^ s) < 2 ^ s ∧ k.val.testBit s = false ∧ (flip s k).val = k.val + 2 ^ s)
    ∨ (2 ^ s ≤ k.val % (2 ^ s + 2 ^ s) ∧ k.val.testBit s = true ∧ (flip s k).val + 2 ^ s = k.val) := by
  have hk : k.val = 64 * (k.val / 64) + k.val % 64 := by omega
  have h := flip_arith_blocks ⟨s, hs⟩ ⟨k.val / 64, by have := k.isLt; omega⟩ ⟨k.val % 64, by omega⟩
  rw [flip_val hs]
  simp only [] at h
  rw [← hk] at h
  exact h

end Walsh

end
-- ==== Proof.LibButterfly.lean ====
/-
  One butterfly stage of the fast Walsh–Hadamard transform, as the programs print it, read at an index.

  On an array of shape [R, 4096] a stage with half-width h (h2 = 2h, q·h2 = 4096) is printed as: view the array as
  [R, q, h2]; take the two slices [.., 0:h] and [.., h:h2] along the last axis; add them and subtract them; put the
  sum and the difference side by side along the last axis; view the result as [R, 4096] again. Row-major, entry
  (r, k) of the array is entry (r, k / h2, k % h2) of the view. Where k % h2 < h the result at (r, k) is therefore the
  sum Y (r, k) + Y (r, k + h); where h ≤ k % h2 it is the difference Y (r, k − h) − Y (r, k). With h = 2^s the first
  case is "bit s of k is clear" and the second "bit s of k is set", and k ± h is k with bit s flipped: the row is sent
  to butterfly stage s of itself.
-/
import proofs.«123800_j88441966559314_2_alg».proof.Proof.LibWalsh
import Idealize.ShloMosaic.Lib.Pipeline.Value
import Idealize.ShloMosaic.Lib.ValueIdx

noncomputable section

namespace Butterfly

open Idealize.ShloMosaic Idealize.ShloMosaic.ValueIdx

/-- One butterfly stage as the programs print it. -/
def stage (R q h h2 : ℕ)
    (c1 : (⟨2, ![R, 4096]⟩ : Shape).ShapeCasts ⟨3, ![R, q, h2]⟩)
    (sl0 : (⟨3, ![R, q, h2]⟩ : Shape).Slices ![0, 0, 0] ⟨3, ![R, q, h]⟩)
    (sl1 : (⟨3, ![R, q, h2]⟩ : Shape).Slices ![0, 0, h] ⟨3, ![R, q, h]⟩)
    (cc : Shape.Concatenates [(⟨3, ![R, q, h]⟩ : Shape), ⟨3, ![R, q, h]⟩] ⟨3, ![R, q, h2]⟩ 2)
    (c2 : (⟨3, ![R, q, h2]⟩ : Shape).ShapeCasts ⟨2, ![R, 4096]⟩)
    (Y : FVec Ideal ⟨2, ![R, 4096]⟩ .f32) : FVec Ideal ⟨2, ![R, 4096]⟩ .f32 :=
  shapeCast ⟨2, ![R, 4096]⟩
    (concatenate ⟨3, ![R, q, h2]⟩ 2
      [⟨⟨3, ![R, q, h]⟩, addf (extractStridedSlice ⟨3, ![R, q, h]⟩ ![0, 0, 0] (shapeCast ⟨3, ![R, q, h2]⟩ Y c1) sl0)
                               (extractStridedSlice ⟨3, ![R, q, h]⟩ ![0, 0, h] (shapeCast ⟨3, ![R, q, h2]⟩ Y c1) sl1)⟩,
       ⟨⟨3, ![R, q, h]⟩, subf (extractStridedSlice ⟨3, ![R, q, h]⟩ ![0, 0, 0] (shapeCast ⟨3, ![R, q, h2]⟩ Y c1) sl0)
                               (extractStridedSlice ⟨3, ![R, q, h]⟩ ![0, 0, h] (shapeCast ⟨3, ![R, q, h2]⟩ Y c1) sl1)⟩] cc) c2

/-- Row-major positions: entry (r, a, p) of the [R, q, h2] view and entry (r, a·h2 + p) of the [R, 4096] array sit
    at the same position, because q·h2 = 4096. -/
theorem pos_eq (R q h2 : ℕ) (hq : q * h2 = 4096) (r : Fin R) (a : Fin q) (p : Fin h2) (k : Fin 4096)
    (hk : k.val = a.val * h2 + p.val) :
    ((⟨3, ![R, q, h2]⟩ : Shape).rowMajor (ix3 r a p)).val = ((⟨2, ![R, 4096]⟩ : Shape).rowMajor (ix2 r k)).val := by
  rw [Shape.rowMajor_val_three, Shape.rowMajor_val_two]
  show (r.val * q + a.val) * h2 + p.val = r.val * 4096 + k.val
  rw [Nat.add_mul, Nat.mul_assoc, hq, hk, Nat.add_assoc]

/-- The reshaped array at (r, a, p) is the array at (r, a·h2 + p). -/
theorem read3 (R q h2 : ℕ) (hq : q * h2 = 4096) (c1 : (⟨2, ![R, 4096]⟩ : Shape).ShapeCasts ⟨3, ![R, q, h2]⟩)
    (Y : FVec Ideal ⟨2, ![R, 4096]⟩ .f32) (r : Fin R) (a : Fin q) (p : Fin h2) (k : Fin 4096)
    (hk : k.val = a.val * h2 + p.val) :
    shapeCast ⟨3, ![R, q, h2]⟩ Y c1 (ix3 r a p) = Y (ix2 r k) :=
  shapeCast_apply Y c1 (ix3 r a p) (ix2 r k) (pos_eq R q h2 hq r a p k hk).symm

/-- A slice along the last axis at offset o, read at (r, a, p), is the operand at (r, a, o + p). -/
theorem slice_read (R q h h2 o : ℕ) (x : (⟨3, ![R, q, h2]⟩ : Shape).Idx → EReal)
    (sl : (⟨3, ![R, q, h2]⟩ : Shape).Slices ![0, 0, o] ⟨3, ![R, q, h]⟩) (r : Fin R) (a : Fin q) (p : Fin h) (p' : Fin h2)
    (hp : p'.val = o + p.val) :
    extractStridedSlice ⟨3, ![R, q, h]⟩ ![0, 0, o] x sl (ix3 r a p) = x (ix3 r a p') :=
  extractStridedSlice_apply _ x sl (ix3 r a p) (ix3 r a p') fun b =>
    match b with
    | ⟨0, _⟩ => by show r.val = 0 + r.val; omega
    | ⟨1, _⟩ => by show a.val = 0 + a.val; omega
    | ⟨2, _⟩ => by show p'.val = o + p.val; exact hp

/-- Lower half of a block: where p < h, the stage at (r, a·h2 + p) is the sum of the entry and its partner h further on. -/
theorem stage_lower (R q h h2 : ℕ) (hh2 : h2 = h + h) (hq : q * h2 = 4096)
    (c1 : (⟨2, ![R, 4096]⟩ : Shape).ShapeCasts ⟨3, ![R, q, h2]⟩)
    (sl0 : (⟨3, ![R, q, h2]⟩ : Shape).Slices ![0, 0, 0] ⟨3, ![R, q, h]⟩)
    (sl1 : (⟨3, ![R, q, h2]⟩ : Shape).Slices ![0, 0, h] ⟨3, ![R, q, h]⟩)
    (cc : Shape.Concatenates [(⟨3, ![R, q, h]⟩ : Shape), ⟨3, ![R, q, h]⟩] ⟨3, ![R, q, h2]⟩ 2)
    (c2 : (⟨3, ![R, q, h2]⟩ : Shape).ShapeCasts ⟨2, ![R, 4096]⟩)
    (Y : FVec Ideal ⟨2, ![R, 4096]⟩ .f32) (r : Fin R) (a : Fin q) (p : Fin h2) (k k' : Fin 4096)
    (hk : k.val = a.val * h2 + p.val) (hp : p.val < h) (hk' : k'.val = k.val + h) :
    stage R q h h2 c1 sl0 sl1 cc c2 Y (ix2 r k) = Y (ix2 r k) + Y (ix2 r k') := by
  have hp' : p.val + h < h2 := by omega
  unfold stage
  refine (shapeCast_apply _ c2 (ix2 r k) (ix3 r a p) (pos_eq R q h2 hq r a p k hk)).trans ?_
  refine (concatenate_pair_apply_left 2 _ _ cc (ix3 r a p) rfl (ix3 r a ⟨p.val, hp⟩)
    (fun b => match b with | ⟨0, _⟩ => rfl | ⟨1, _⟩ => rfl | ⟨2, _⟩ => rfl)).trans ?_
  refine (addf_apply _ _ _).trans ?_
  refine congrArg₂ (· + ·) ?_ ?_
  · exact (slice_read R q h h2 0 _ sl0 r a ⟨p.val, hp⟩ p (by show p.val = 0 + p.val; omega)).trans
      (read3 R q h2 hq c1 Y r a p k hk)
  · exact (slice_read R q h h2 h _ sl1 r a ⟨p.val, hp⟩ ⟨p.val + h, hp'⟩ (by show p.val + h = h + p.val; omega)).trans
      (read3 R q h2 hq c1 Y r a ⟨p.val + h, hp'⟩ k' (by show k'.val = a.val * h2 + (p.val + h); omega))

/-- Upper half of a block: where h ≤ p, the stage at (r, a·h2 + p) is the partner h earlier minus the entry. -/
theorem stage_upper (R q h h2 : ℕ) (hh2 : h2 = h + h) (hq : q * h2 = 4096)
    (c1 : (⟨2, ![R, 4096]⟩ : Shape).ShapeCasts ⟨3, ![R, q, h2]⟩)
    (sl0 : (⟨3, ![R, q, h2]⟩ : Shape).Slices ![0, 0, 0] ⟨3, ![R, q, h]⟩)
    (sl1 : (⟨3, ![R, q, h2]⟩ : Shape).Slices ![0, 0, h] ⟨3, ![R, q, h]⟩)
    (cc : Shape.Concatenates [(⟨3, ![R, q, h]⟩ : Shape), ⟨3, ![R, q, h]⟩] ⟨3, ![R, q, h2]⟩ 2)
    (c2 : (⟨3, ![R, q, h2]⟩ : Shape).ShapeCasts ⟨2, ![R, 4096]⟩)
    (Y : FVec Ideal ⟨2, ![R, 4096]⟩ .f32) (r : Fin R) (a : Fin q) (p : Fin h2) (k k' : Fin 4096)
    (hk : k.val = a.val * h2 + p.val) (hp : h ≤ p.val) (hk' : k'.val + h = k.val) :
    stage R q h h2 c1 sl0 sl1 cc c2 Y (ix2 r k) = Y (ix2 r k') - Y (ix2 r k) := by
  have hpl := p.isLt
  have hp0 : p.val - h < h := by omega
  have hp1 : p.val - h < h2 := by omega
  unfold stage
  refine (shapeCast_apply _ c2 (ix2 r k) (ix3 r a p) (pos_eq R q h2 hq r a p k hk)).trans ?_
  refine (concatenate_pair_apply_right 2 _ _ cc (ix3 r a p) rfl rfl (ix3 r a ⟨p.val - h, hp0⟩)
    (fun b => match b with
      | ⟨0, _⟩ => fun _ => rfl
      | ⟨1, _⟩ => fun _ => rfl
      | ⟨2, _⟩ => fun hne => absurd rfl hne)
    (by show p.val - h + h = p.val; omega)).trans ?_
  refine (subf_apply _ _ _).trans ?_
  refine congrArg₂ (· - ·) ?_ ?_
  · exact (slice_read R q h h2 0 _ sl0 r a ⟨p.val - h, hp0⟩ ⟨p.val - h, hp1⟩ (by show p.val - h = 0 + (p.val - h); omega)).trans
      (read3 R q h2 hq c1 Y r a ⟨p.val - h, hp1⟩ k' (by show k'.val = a.val * h2 + (p.val - h); omega))
  · exact (slice_read R q h h2 h _ sl1 r a ⟨p.val - h, hp0⟩ p (by show p.val = h + (p.val - h); omega)).trans
      (read3 R q h2 hq c1 Y r a p k hk)

/-- Read row by row, the printed stage with h = 2^s is butterfly stage s of the row. -/
theorem stage_row (R q s h h2 : ℕ) (hs : s < 12) (hh : h = 2 ^ s) (hh2 : h2 = h + h) (hq : q * h2 = 4096)
    (c1 : (⟨2, ![R, 4096]⟩ : Shape).ShapeCasts ⟨3, ![R, q, h2]⟩)
    (sl0 : (⟨3, ![R, q, h2]⟩ : Shape).Slices ![0, 0, 0] ⟨3, ![R, q, h]⟩)
    (sl1 : (⟨3, ![R, q, h2]⟩ : Shape).Slices ![0, 0, h] ⟨3, ![R, q, h]⟩)
    (cc : Shape.Concatenates [(⟨3, ![R, q, h]⟩ : Shape), ⟨3, ![R, q, h]⟩] ⟨3, ![R, q, h2]⟩ 2)
    (c2 : (⟨3, ![R, q, h2]⟩ : Shape).ShapeCasts ⟨2, ![R, 4096]⟩)
    (Y : FVec Ideal ⟨2, ![R, 4096]⟩ .f32) (r : Fin R) :
    (fun k : Fin 4096 => stage R q h h2 c1 sl0 sl1 cc c2 Y (ix2 r k)) = Walsh.ebf s (fun k => Y (ix2 r k)) := by
  funext k
  -- k = a·h2 + p with a = k / h2 < q and p = k % h2 < h2
  have hpos : 0 < h2 := by
    have : 0 < 2 ^ s := Nat.pos_of_ne_zero (by positivity)
    omega
  have hdm : k.val = k.val / h2 * h2 + k.val % h2 := (Nat.div_add_mod' k.val h2).symm
  have hml : k.val % h2 < h2 := Nat.mod_lt _ hpos
  have hdl : k.val / h2 < q := by rw [Nat.div_lt_iff_lt_mul hpos, hq]; exact k.isLt
  have hmod : k.val % h2 = k.val % (2 ^ s + 2 ^ s) := by rw [hh2, hh]
  rcases Walsh.flip_arith hs k with ⟨h1, hb, hf⟩ | ⟨h1, hb, hf⟩
  · refine (stage_lower R q h h2 hh2 hq c1 sl0 sl1 cc c2 Y r ⟨k.val / h2, hdl⟩ ⟨k.val % h2, hml⟩ k (Walsh.flip s k) hdm
      (by show k.val % h2 < h; rw [hmod, hh]; exact h1) (by rw [hh]; exact hf)).trans ?_
    show _ = if k.val.testBit s then _ else _
    rw [if_neg (by rw [hb]; exact Bool.false_ne_true)]
  · refine (stage_upper R q h h2 hh2 hq c1 sl0 sl1 cc c2 Y r ⟨k.val / h2, hdl⟩ ⟨k.val % h2, hml⟩ k (Walsh.flip s k) hdm
      (by show h ≤ k.val % h2; rw [hmod, hh]; exact h1) (by rw [hh]; exact hf)).trans ?_
    show _ = if k.val.testBit s then _ else _
    rw [if_pos hb]

end Butterfly

end
-- ==== Proof.StagesKernel.lean ====
/-
  The twelve butterfly stages of the fast Walsh–Hadamard transform as KernelIdeal prints them on its [4096, 4096] array:
  stage s reshapes to [4096, 4096 / 2^(s+1), 2^(s+1)], takes the two halves of the last axis, and lays their sum and their
  difference side by side. Each is named here as one function of its input, and read row by row as butterfly stage s of
  the row; the composition of the twelve is, row by row, the twelve-stage transform.
-/
import proofs.«123800_j88441966559314_2_alg».proof.Proof.Gen.KernelIdeal
import proofs.«123800_j88441966559314_2_alg».proof.Proof.LibButterfly

noncomputable section

namespace Cert.KernelIdeal.Stages

open Cert.KernelIdeal Cert.KernelIdeal.Facts₀ Idealize.ShloMosaic Idealize.ShloMosaic.ValueIdx

/-- Stage 0 (pairs at distance 1). -/
def st0 (Y : FVec Ideal S4096x4096 .f32) : FVec Ideal S4096x4096 .f32 :=
  Butterfly.stage 4096 2048 1 2 shapeCasts_S4096x4096_S4096x2048x2 slices_S4096x2048x2_S4096x2048x1_0_0_0
    slices_S4096x2048x2_S4096x2048x1_0_0_1 concatenates_S4096x2048x1_S4096x2048x1_S4096x2048x2_d2 shapeCasts_S4096x2048x2_S4096x4096 Y
theorem st0_rows (Y : FVec Ideal S4096x4096 .f32) (r : Fin 4096) :
    (fun k : Fin 4096 => st0 Y (ix2 r k)) = Walsh.ebf 0 (fun k => Y (ix2 r k)) :=
  Butterfly.stage_row 4096 2048 0 1 2 (by norm_num) (by norm_num) rfl (by norm_num) _ _ _ _ _ Y r

/-- Stage 1 (pairs at distance 2). -/
def st1 (Y : FVec Ideal S4096x4096 .f32) : FVec Ideal S4096x4096 .f32 :=
  Butterfly.stage 4096 1024 2 4 shapeCasts_S4096x4096_S4096x1024x4 slices_S4096x1024x4_S4096x1024x2_0_0_0
    slices_S4096x1024x4_S4096x1024x2_0_0_2 concatenates_S4096x1024x2_S4096x1024x2_S4096x1024x4_d2 shapeCasts_S4096x1024x4_S4096x4096 Y
theorem st1_rows (Y : FVec Ideal S4096x4096 .f32) (r : Fin 4096) :
    (fun k : Fin 4096 => st1 Y (ix2 r k)) = Walsh.ebf 1 (fun k => Y (ix2 r k)) :=
  Butterfly.stage_row 4096 1024 1 2 4 (by norm_num) (by norm_num) rfl (by norm_num) _ _ _ _ _ Y r

/-- Stage 2 (pairs at distance 4). -/
def st2 (Y : FVec Ideal S4096x4096 .f32) : FVec Ideal S4096x4096 .f32 :=
  Butterfly.stage 4096 512 4 8 shapeCasts_S4096x4096_S4096x512x8 slices_S4096x512x8_S4096x512x4_0_0_0
    slices_S4096x512x8_S4096x512x4_0_0_4 concatenates_S4096x512x4_S4096x512x4_S4096x512x8_d2 shapeCasts_S4096x512x8_S4096x4096 Y
theorem st2_rows (Y : FVec Ideal S4096x4096 .f32) (r : Fin 4096) :
    (fun k : Fin 4096 => st2 Y (ix2 r k)) = Walsh.ebf 2 (fun k => Y (ix2 r k)) :=
  Butterfly.stage_row 4096 512 2 4 8 (by norm_num) (by norm_num) rfl (by norm_num) _ _ _ _ _ Y r

/-- Stage 3 (pairs at distance 8). -/
def st3 (Y : FVec Ideal S4096x4096 .f32) : FVec Ideal S4096x4096 .f32 :=
  Butterfly.stage 4096 256 8 16 shapeCasts_S4096x4096_S4096x256x16 slices_S4096x256x16_S4096x256x8_0_0_0
    slices_S4096x256x16_S4096x256x8_0_0_8 concatenates_S4096x256x8_S4096x256x8_S4096x256x16_d2 shapeCasts_S4096x256x16_S4096x4096 Y
theorem st3_rows (Y : FVec Ideal S4096x4096 .f32) (r : Fin 4096) :
    (fun k : Fin 4096 => st3 Y (ix2 r k)) = Walsh.ebf 3 (fun k => Y (ix2 r k)) :=
  Butterfly.stage_row 4096 256 3 8 16 (by norm_num) (by norm_num) rfl (by norm_num) _ _ _ _ _ Y r

/-- Stage 4 (pairs at distance 16). -/
def st4 (Y : FVec Ideal S4096x4096 .f32) : FVec Ideal S4096x4096 .f32 :=
  Butterfly.stage 4096 128 16 32 shapeCasts_S4096x4096_S4096x128x32 slices_S4096x128x32_S4096x128x16_0_0_0
    slices_S4096x128x32_S4096x128x16_0_0_16 concatenates_S4096x128x16_S4096x128x16_S4096x128x32_d2 shapeCasts_S4096x128x32_S4096x4096 Y
theorem st4_rows (Y : FVec Ideal S4096x4096 .f32) (r : Fin 4096) :
    (fun k : Fin 4096 => st4 Y (ix2 r k)) = Walsh.ebf 4 (fun k => Y (ix2 r k)) :=
  Butterfly.stage_row 4096 128 4 16 32 (by norm_num) (by norm_num) rfl (by norm_num) _ _ _ _ _ Y r

/-- Stage 5 (pairs at distance 32). -/
def st5 (Y : FVec Ideal S4096x4096 .f32) : FVec Ideal S4096x4096 .f32 :=
  Butterfly.stage 4096 64 32 64 shapeCasts_S4096x4096_S4096x64x64 slices_S4096x64x64_S4096x64x32_0_0_0
    slices_S4096x64x64_S4096x64x32_0_0_32 concatenates_S4096x64x32_S4096x64x32_S4096x64x64_d2 shapeCasts_S4096x64x64_S4096x4096 Y
theorem st5_rows (Y : FVec Ideal S4096x4096 .f32) (r : Fin 4096) :
    (fun k : Fin 4096 => st5 Y (ix2 r k)) = Walsh.ebf 5 (fun k => Y (ix2 r k)) :=
  Butterfly.stage_row 4096 64 5 32 64 (by norm_num) (by norm_num) rfl (by norm_num) _ _ _ _ _ Y r

/-- Stage 6 (pairs at distance 64). -/
def st6 (Y : FVec Ideal S4096x4096 .f32) : FVec Ideal S4096x4096 .f32 :=
  Butterfly.stage 4096 32 64 128 shapeCasts_S4096x4096_S4096x32x128 slices_S4096x32x128_S4096x32x64_0_0_0
    slices_S4096x32x128_S4096x32x64_0_0_64 concatenates_S4096x32x64_S4096x32x64_S4096x32x128_d2 shapeCasts_S4096x32x128_S4096x4096 Y
theorem st6_rows (Y : FVec Ideal S4096x4096 .f32) (r : Fin 4096) :
    (fun k : Fin 4096 => st6 Y (ix2 r k)) = Walsh.ebf 6 (fun k => Y (ix2 r k)) :=
  Butterfly.stage_row 4096 32 6 64 128 (by norm_num) (by norm_num) rfl (by norm_num) _ _ _ _ _ Y r

/-- Stage 7 (pairs at distance 128). -/
def st7 (Y : FVec Ideal S4096x4096 .f32) : FVec Ideal S4096x4096 .f32 :=
  Butterfly.stage 4096 16 128 256 shapeCasts_S4096x4096_S4096x16x256 slices_S4096x16x256_S4096x16x128_0_0_0
    slices_S4096x16x256_S4096x16x128_0_0_128 concatenates_S4096x16x128_S4096x16x128_S4096x16x256_d2 shapeCasts_S4096x16x256_S4096x4096 Y
theorem st7_rows (Y : FVec Ideal S4096x4096 .f32) (r : Fin 4096) :
    (fun k : Fin 4096 => st7 Y (ix2 r k)) = Walsh.ebf 7 (fun k => Y (ix2 r k)) :=
  Butterfly.stage_row 4096 16 7 128 256 (by norm_num) (by norm_num) rfl (by norm_num) _ _ _ _ _ Y r

/-- Stage 8 (pairs at distance 256). -/
def st8 (Y : FVec Ideal S4096x4096 .f32) : FVec Ideal S4096x4096 .f32 :=
  Butterfly.stage 4096 8 256 512 shapeCasts_S4096x4096_S4096x8x512 slices_S4096x8x512_S4096x8x256_0_0_0
    slices_S4096x8x512_S4096x8x256_0_0_256 concatenates_S4096x8x256_S4096x8x256_S4096x8x512_d2 shapeCasts_S4096x8x512_S4096x4096 Y
theorem st8_rows (Y : FVec Ideal S4096x4096 .f32) (r : Fin 4096) :
    (fun k : Fin 4096 => st8 Y (ix2 r k)) = Walsh.ebf 8 (fun k => Y (ix2 r k)) :=
  Butterfly.stage_row 4096 8 8 256 512 (by norm_num) (by norm_num) rfl (by norm_num) _ _ _ _ _ Y r

/-- Stage 9 (pairs at distance 512). -/
def st9 (Y : FVec Ideal S4096x4096 .f32) : FVec Ideal S4096x4096 .f32 :=
  Butterfly.stage 4096 4 512 1024 shapeCasts_S4096x4096_S4096x4x1024 slices_S4096x4x1024_S4096x4x512_0_0_0
    slices_S4096x4x1024_S4096x4x512_0_0_512 concatenates_S4096x4x512_S4096x4x512_S4096x4x1024_d2 shapeCasts_S4096x4x1024_S4096x4096 Y
theorem st9_rows (Y : FVec Ideal S4096x4096 .f32) (r : Fin 4096) :
    (fun k : Fin 4096 => st9 Y (ix2 r k)) = Walsh.ebf 9 (fun k => Y (ix2 r k)) :=
  Butterfly.stage_row 4096 4 9 512 1024 (by norm_num) (by norm_num) rfl (by norm_num) _ _ _ _ _ Y r

/-- Stage 10 (pairs at distance 1024). -/
def st10 (Y : FVec Ideal S4096x4096 .f32) : FVec Ideal S4096x4096 .f32 :=
  Butterfly.stage 4096 2 1024 2048 shapeCasts_S4096x4096_S4096x2x2048 slices_S4096x2x2048_S4096x2x1024_0_0_0
    slices_S4096x2x2048_S4096x2x1024_0_0_1024 concatenates_S4096x2x1024_S4096x2x1024_S4096x2x2048_d2 shapeCasts_S4096x2x2048_S4096x4096 Y
theorem st10_rows (Y : FVec Ideal S4096x4096 .f32) (r : Fin 4096) :
    (fun k : Fin 4096 => st10 Y (ix2 r k)) = Walsh.ebf 10 (fun k => Y (ix2 r k)) :=
  Butterfly.stage_row 4096 2 10 1024 2048 (by norm_num) (by norm_num) rfl (by norm_num) _ _ _ _ _ Y r

/-- Stage 11 (pairs at distance 2048). -/
def st11 (Y : FVec Ideal S4096x4096 .f32) : FVec Ideal S4096x4096 .f32 :=
  Butterfly.stage 4096 1 2048 4096 shapeCasts_S4096x4096_S4096x1x4096 slices_S4096x1x4096_S4096x1x2048_0_0_0
    slices_S4096x1x4096_S4096x1x2048_0_0_2048 concatenates_S4096x1x2048_S4096x1x2048_S4096x1x4096_d2 shapeCasts_S4096x1x4096_S4096x4096 Y
theorem st11_rows (Y : FVec Ideal S4096x4096 .f32) (r : Fin 4096) :
    (fun k : Fin 4096 => st11 Y (ix2 r k)) = Walsh.ebf 11 (fun k => Y (ix2 r k)) :=
  Butterfly.stage_row 4096 1 11 2048 4096 (by norm_num) (by norm_num) rfl (by norm_num) _ _ _ _ _ Y r

/-- The twelve stages, stage 0 first: the unnormalised transform of every row. -/
def transform (Y : FVec Ideal S4096x4096 .f32) : FVec Ideal S4096x4096 .f32 :=
  st11 (st10 (st9 (st8 (st7 (st6 (st5 (st4 (st3 (st2 (st1 (st0 (Y))))))))))))

/-- Row by row it is the twelve-stage transform of the row. -/
theorem transform_rows (Y : FVec Ideal S4096x4096 .f32) (r : Fin 4096) :
    (fun k : Fin 4096 => transform Y (ix2 r k)) = Walsh.ehad 12 (fun k => Y (ix2 r k)) := by
  unfold transform
  rw [st11_rows, st10_rows, st9_rows, st8_rows, st7_rows, st6_rows, st5_rows, st4_rows, st3_rows, st2_rows, st1_rows, st0_rows]
  rfl

end Cert.KernelIdeal.Stages

end
-- ==== Proof.HostChunks.lean ====
/-
  The kernel program's host operations before its region, in consecutive lists: the three that dequantise the weights,
  the seven of each butterfly stage (reshape, two slices, sum, difference, concatenation, reshape back), and the six that
  divide by 64, change the formats and lay the bias out as a row. The contents after the whole list are the contents
  after the lists one after the other; and each stage's list takes the array it reads to the stage's function of it.
-/
import proofs.«123800_j88441966559314_2_alg».proof.Proof.Gen.KernelIdeal.Launch
import proofs.«123800_j88441966559314_2_alg».proof.Proof.StagesKernel
import Idealize.ShloMosaic.Lib.StableHlo.Run

set_option maxRecDepth 4096

noncomputable section

namespace Cert.KernelIdeal.HostChunks

open Cert.KernelIdeal Cert.KernelIdeal.Gen Idealize.ShloMosaic Idealize.ShloMosaic.TcCoe Idealize.ShloMosaic.StableHlo

-- the lists are stated for any float instance, as the printed program is; the stages' equations at the ideal one
variable {F : FTy → Type} [FloatOps F]

/-- The weights dequantised: convert, broadcast the scales, multiply. -/
def pre : List (HloOp τ sig (Elt F)) :=
  [ StableHlo.unary main_arg1 main_v0 (sitofp .f32 : (⟨S4096x4096, .i32⟩ : BufTy).Contents (Elt F) → (⟨S4096x4096, .f32⟩ : BufTy).Contents (Elt F)),
    StableHlo.unary main_arg2 main_v1 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v0 main_v1 main_v2 (mulf : (⟨S4096x4096, .f32⟩ : BufTy).Contents (Elt F) → (⟨S4096x4096, .f32⟩ : BufTy).Contents (Elt F) → (⟨S4096x4096, .f32⟩ : BufTy).Contents (Elt F)) ]

/-- Butterfly stage 0 (pairs at distance 1). -/
def chunk0 : List (HloOp τ sig (Elt F)) :=
  [ StableHlo.reshape main_v2 main_v3 rfl shapeCasts_S4096x4096_S4096x2048x2,
    StableHlo.unary main_v3 main_v4 ((extractStridedSlice S4096x2048x1 ![0, 0, 0] · slices_S4096x2048x2_S4096x2048x1_0_0_0) : (⟨S4096x2048x2, .f32⟩ : BufTy).Contents (Elt F) → (⟨S4096x2048x1, .f32⟩ : BufTy).Contents (Elt F)),
    StableHlo.unary main_v3 main_v5 ((extractStridedSlice S4096x2048x1 ![0, 0, 1] · slices_S4096x2048x2_S4096x2048x1_0_0_1) : (⟨S4096x2048x2, .f32⟩ : BufTy).Contents (Elt F) → (⟨S4096x2048x1, .f32⟩ : BufTy).Contents (Elt F)),
    StableHlo.binary main_v4 main_v5 main_v6 (addf : (⟨S4096x2048x1, .f32⟩ : BufTy).Contents (Elt F) → (⟨S4096x2048x1, .f32⟩ : BufTy).Contents (Elt F) → (⟨S4096x2048x1, .f32⟩ : BufTy).Contents (Elt F)),
    StableHlo.binary main_v4 main_v5 main_v7 (subf : (⟨S4096x2048x1, .f32⟩ : BufTy).Contents (Elt F) → (⟨S4096x2048x1, .f32⟩ : BufTy).Contents (Elt F) → (⟨S4096x2048x1, .f32⟩ : BufTy).Contents (Elt F)),
    StableHlo.binary main_v6 main_v7 main_v8 ((fun a b => concatenate S4096x2048x2 2 [⟨S4096x2048x1, a⟩, ⟨S4096x2048x1, b⟩] concatenates_S4096x2048x1_S4096x2048x1_S4096x2048x2_d2) : (⟨S4096x2048x1, .f32⟩ : BufTy).Contents (Elt F) → (⟨S4096x2048x1, .f32⟩ : BufTy).Contents (Elt F) → (⟨S4096x2048x2, .f32⟩ : BufTy).Contents (Elt F)),
    StableHlo.reshape main_v8 main_v9 rfl shapeCasts_S4096x2048x2_S4096x4096 ]

/-- Butterfly stage 1 (pairs at distance 2). -/
def chunk1 : List (HloOp τ sig (Elt F)) :=
  [ StableHlo.reshape main_v9 main_v10 rfl shapeCasts_S4096x4096_S4096x1024x4,
    StableHlo.unary main_v10 main_v11 ((extractStridedSlice S4096x1024x2 ![0, 0, 0] · slices_S4096x1024x4_S4096x1024x2_0_0_0) : (⟨S4096x1024x4, .f32⟩ : BufTy).Contents (Elt F) → (⟨S4096x1024x2, .f32⟩ : BufTy).Contents (Elt F)),
    StableHlo.unary main_v10 main_v12 ((extractStridedSlice S4096x1024x2 ![0, 0, 2] · slices_S4096x1024x4_S4096x1024x2_0_0_2) : (⟨S4096x1024x4, .f32⟩ : BufTy).Contents (Elt F) → (⟨S4096x1024x2, .f32⟩ : BufTy).Contents (Elt F)),
    StableHlo.binary main_v11 main_v12 main_v13 (addf : (⟨S4096x1024x2, .f32⟩ : BufTy).Contents (Elt F) → (⟨S4096x1024x2, .f32⟩ : BufTy).Contents (Elt F) → (⟨S4096x1024x2, .f32⟩ : BufTy).Contents (Elt F)),
    StableHlo.binary main_v11 main_v12 main_v14 (subf : (⟨S4096x1024x2, .f32⟩ : BufTy).Contents (Elt F) → (⟨S4096x1024x2, .f32⟩ : BufTy).Contents (Elt F) → (⟨S4096x1024x2, .f32⟩ : BufTy).Contents (Elt F)),
    StableHlo.binary main_v13 main_v14 main_v15 ((fun a b => concatenate S4096x1024x4 2 [⟨S4096x1024x2, a⟩, ⟨S4096x1024x2, b⟩] concatenates_S4096x1024x2_S4096x1024x2_S4096x1024x4_d2) : (⟨S4096x1024x2, .f32⟩ : BufTy).Contents (Elt F) → (⟨S4096x1024x2, .f32⟩ : BufTy).Contents (Elt F) → (⟨S4096x1024x4, .f32⟩ : BufTy).Contents (Elt F)),
    StableHlo.reshape main_v15 main_v16 rfl shapeCasts_S4096x1024x4_S4096x4096 ]

/-- Butterfly stage 2 (pairs at distance 4). -/
def chunk2 : List (HloOp τ sig (Elt F)) :=
  [ StableHlo.reshape main_v16 main_v17 rfl shapeCasts_S4096x4096_S4096x512x8,
    StableHlo.unary main_v17 main_v18 ((extractStridedSlice S4096x512x4 ![0, 0, 0] · slices_S4096x512x8_S4096x512x4_0_0_0) : (⟨S4096x512x8, .f32⟩ : BufTy).Contents (Elt F) → (⟨S4096x512x4, .f32⟩ : BufTy).Contents (Elt F)),
    StableHlo.unary main_v17 main_v19 ((extractStridedSlice S4096x512x4 ![0, 0, 4] · slices_S4096x512x8_S4096x512x4_0_0_4) : (⟨S4096x512x8, .f32⟩ : BufTy).Contents (Elt F) → (⟨S4096x512x4, .f32⟩ : BufTy).Contents (Elt F)),
    StableHlo.binary main_v18 main_v19 main_v20 (addf : (⟨S4096x512x4, .f32⟩ : BufTy).Contents (Elt F) → (⟨S4096x512x4, .f32⟩ : BufTy).Contents (Elt F) → (⟨S4096x512x4, .f32⟩ : BufTy).Contents (Elt F)),
    StableHlo.binary main_v18 main_v19 main_v21 (subf : (⟨S4096x512x4, .f32⟩ : BufTy).Contents (Elt F) → (⟨S4096x512x4, .f32⟩ : BufTy).Contents (Elt F) → (⟨S4096x512x4, .f32⟩ : BufTy).Contents (Elt F)),
    StableHlo.binary main_v20 main_v21 main_v22 ((fun a b => concatenate S4096x512x8 2 [⟨S4096x512x4, a⟩, ⟨S4096x512x4, b⟩] concatenates_S4096x512x4_S4096x512x4_S4096x512x8_d2) : (⟨S4096x512x4, .f32⟩ : BufTy).Contents (Elt F) → (⟨S4096x512x4, .f32⟩ : BufTy).Contents (Elt F) → (⟨S4096x512x8, .f32⟩ : BufTy).Contents (Elt F)),
    StableHlo.reshape main_v22 main_v23 rfl shapeCasts_S4096x512x8_S4096x4096 ]

/-- Butterfly stage 3 (pairs at distance 8). -/
def chunk3 : List (HloOp τ sig (Elt F)) :=
  [ StableHlo.reshape main_v23 main_v24 rfl shapeCasts_S4096x4096_S4096x256x16,
    StableHlo.unary main_v24 main_v25 ((extractStridedSlice S4096x256x8 ![0, 0, 0] · slices_S4096x256x16_S4096x256x8_0_0_0) : (⟨S4096x256x16, .f32⟩ : BufTy).Contents (Elt F) → (⟨S4096x256x8, .f32⟩ : BufTy).Contents (Elt F)),
    StableHlo.unary main_v24 main_v26 ((extractStridedSlice S4096x256x8 ![0, 0, 8] · slices_S4096x256x16_S4096x256x8_0_0_8) : (⟨S4096x256x16, .f32⟩ : BufTy).Contents (Elt F) → (⟨S4096x256x8, .f32⟩ : BufTy).Contents (Elt F)),
    StableHlo.binary main_v25 main_v26 main_v27 (addf : (⟨S4096x256x8, .f32⟩ : BufTy).Contents (Elt F) → (⟨S4096x256x8, .f32⟩ : BufTy).Contents (Elt F) → (⟨S4096x256x8, .f32⟩ : BufTy).Contents (Elt F)),
    StableHlo.binary main_v25 main_v26 main_v28 (subf : (⟨S4096x256x8, .f32⟩ : BufTy).Contents (Elt F) → (⟨S4096x256x8, .f32⟩ : BufTy).Contents (Elt F) → (⟨S4096x256x8, .f32⟩ : BufTy).Contents (Elt F)),
    StableHlo.binary main_v27 main_v28 main_v29 ((fun a b => concatenate S4096x256x16 2 [⟨S4096x256x8, a⟩, ⟨S4096x256x8, b⟩] concatenates_S4096x256x8_S4096x256x8_S4096x256x16_d2) : (⟨S4096x256x8, .f32⟩ : BufTy).Contents (Elt F) → (⟨S4096x256x8, .f32⟩ : BufTy).Contents (Elt F) → (⟨S4096x256x16, .f32⟩ : BufTy).Contents (Elt F)),
    StableHlo.reshape main_v29 main_v30 rfl shapeCasts_S4096x256x16_S4096x4096 ]

/-- Butterfly stage 4 (pairs at distance 16). -/
def chunk4 : List (HloOp τ sig (Elt F)) :=
  [ StableHlo.reshape main_v30 main_v31 rfl shapeCasts_S4096x4096_S4096x128x32,
    StableHlo.unary main_v31 main_v32 ((extractStridedSlice S4096x128x16 ![0, 0, 0] · slices_S4096x128x32_S4096x128x16_0_0_0) : (⟨S4096x128x32, .f32⟩ : BufTy).Contents (Elt F) → (⟨S4096x128x16, .f32⟩ : BufTy).Contents (Elt F)),
    StableHlo.unary main_v31 main_v33 ((extractStridedSlice S4096x128x16 ![0, 0, 16] · slices_S4096x128x32_S4096x128x16_0_0_16) : (⟨S4096x128x32, .f32⟩ : BufTy).Contents (Elt F) → (⟨S4096x128x16, .f32⟩ : BufTy).Contents (Elt F)),
    StableHlo.binary main_v32 main_v33 main_v34 (addf : (⟨S4096x128x16, .f32⟩ : BufTy).Contents (Elt F) → (⟨S4096x128x16, .f32⟩ : BufTy).Contents (Elt F) → (⟨S4096x128x16, .f32⟩ : BufTy).Contents (Elt F)),
    StableHlo.binary main_v32 main_v33 main_v35 (subf : (⟨S4096x128x16, .f32⟩ : BufTy).Contents (Elt F) → (⟨S4096x128x16, .f32⟩ : BufTy).Contents (Elt F) → (⟨S4096x128x16, .f32⟩ : BufTy).Contents (Elt F)),
    StableHlo.binary main_v34 main_v35 main_v36 ((fun a b => concatenate S4096x128x32 2 [⟨S4096x128x16, a⟩, ⟨S4096x128x16, b⟩] concatenates_S4096x128x16_S4096x128x16_S4096x128x32_d2) : (⟨S4096x128x16, .f32⟩ : BufTy).Contents (Elt F) → (⟨S4096x128x16, .f32⟩ : BufTy).Contents (Elt F) → (⟨S4096x128x32, .f32⟩ : BufTy).Contents (Elt F)),
    StableHlo.reshape main_v36 main_v37 rfl shapeCasts_S4096x128x32_S4096x4096 ]

/-- Butterfly stage 5 (pairs at distance 32). -/
def chunk5 : List (HloOp τ sig (Elt F)) :=
  [ StableHlo.reshape main_v37 main_v38 rfl shapeCasts_S4096x4096_S4096x64x64,
    StableHlo.unary main_v38 main_v39 ((extractStridedSlice S4096x64x32 ![0, 0, 0] · slices_S4096x64x64_S4096x64x32_0_0_0) : (⟨S4096x64x64, .f32⟩ : BufTy).Contents (Elt F) → (⟨S4096x64x32, .f32⟩ : BufTy).Contents (Elt F)),
    StableHlo.unary main_v38 main_v40 ((extractStridedSlice S4096x64x32 ![0, 0, 32] · slices_S4096x64x64_S4096x64x32_0_0_32) : (⟨S4096x64x64, .f32⟩ : BufTy).Contents (Elt F) → (⟨S4096x64x32, .f32⟩ : BufTy).Contents (Elt F)),
    StableHlo.binary main_v39 main_v40 main_v41 (addf : (⟨S4096x64x32, .f32⟩ : BufTy).Contents (Elt F) → (⟨S4096x64x32, .f32⟩ : BufTy).Contents (Elt F) → (⟨S4096x64x32, .f32⟩ : BufTy).Contents (Elt F)),
    StableHlo.binary main_v39 main_v40 main_v42 (subf : (⟨S4096x64x32, .f32⟩ : BufTy).Contents (Elt F) → (⟨S4096x64x32, .f32⟩ : BufTy).Contents (Elt F) → (⟨S4096x64x32, .f32⟩ : BufTy).Contents (Elt F)),
    StableHlo.binary main_v41 main_v42 main_v43 ((fun a b => concatenate S4096x64x64 2 [⟨S4096x64x32, a⟩, ⟨S4096x64x32, b⟩] concatenates_S4096x64x32_S4096x64x32_S4096x64x64_d2) : (⟨S4096x64x32, .f32⟩ : BufTy).Contents (Elt F) → (⟨S4096x64x32, .f32⟩ : BufTy).Contents (Elt F) → (⟨S4096x64x64, .f32⟩ : BufTy).Contents (Elt F)),
    StableHlo.reshape main_v43 main_v44 rfl shapeCasts_S4096x64x64_S4096x4096 ]

/-- Butterfly stage 6 (pairs at distance 64). -/
def chunk6 : List (HloOp τ sig (Elt F)) :=
  [ StableHlo.reshape main_v44 main_v45 rfl shapeCasts_S4096x4096_S4096x32x128,
    StableHlo.unary main_v45 main_v46 ((extractStridedSlice S4096x32x64 ![0, 0, 0] · slices_S4096x32x128_S4096x32x64_0_0_0) : (⟨S4096x32x128, .f32⟩ : BufTy).Contents (Elt F) → (⟨S4096x32x64, .f32⟩ : BufTy).Contents (Elt F)),
    StableHlo.unary main_v45 main_v47 ((extractStridedSlice S4096x32x64 ![0, 0, 64] · slices_S4096x32x128_S4096x32x64_0_0_64) : (⟨S4096x32x128, .f32⟩ : BufTy).Contents (Elt F) → (⟨S4096x32x64, .f32⟩ : BufTy).Contents (Elt F)),
    StableHlo.binary main_v46 main_v47 main_v48 (addf : (⟨S4096x32x64, .f32⟩ : BufTy).Contents (Elt F) → (⟨S4096x32x64, .f32⟩ : BufTy).Contents (Elt F) → (⟨S4096x32x64, .f32⟩ : BufTy).Contents (Elt F)),
    StableHlo.binary main_v46 main_v47 main_v49 (subf : (⟨S4096x32x64, .f32⟩ : BufTy).Contents (Elt F) → (⟨S4096x32x64, .f32⟩ : BufTy).Contents (Elt F) → (⟨S4096x32x64, .f32⟩ : BufTy).Contents (Elt F)),
    StableHlo.binary main_v48 main_v49 main_v50 ((fun a b => concatenate S4096x32x128 2 [⟨S4096x32x64, a⟩, ⟨S4096x32x64, b⟩] concatenates_S4096x32x64_S4096x32x64_S4096x32x128_d2) : (⟨S4096x32x64, .f32⟩ : BufTy).Contents (Elt F) → (⟨S4096x32x64, .f32⟩ : BufTy).Contents (Elt F) → (⟨S4096x32x128, .f32⟩ : BufTy).Contents (Elt F)),
    StableHlo.reshape main_v50 main_v51 rfl shapeCasts_S4096x32x128_S4096x4096 ]

/-- Butterfly stage 7 (pairs at distance 128). -/
def chunk7 : List (HloOp τ sig (Elt F)) :=
  [ StableHlo.reshape main_v51 main_v52 rfl shapeCasts_S4096x4096_S4096x16x256,
    StableHlo.unary main_v52 main_v53 ((extractStridedSlice S4096x16x128 ![0, 0, 0] · slices_S4096x16x256_S4096x16x128_0_0_0) : (⟨S4096x16x256, .f32⟩ : BufTy).Contents (Elt F) → (⟨S4096x16x128, .f32⟩ : BufTy).Contents (Elt F)),
    StableHlo.unary main_v52 main_v54 ((extractStridedSlice S4096x16x128 ![0, 0, 128] · slices_S4096x16x256_S4096x16x128_0_0_128) : (⟨S4096x16x256, .f32⟩ : BufTy).Contents (Elt F) → (⟨S4096x16x128, .f32⟩ : BufTy).Contents (Elt F)),
    StableHlo.binary main_v53 main_v54 main_v55 (addf : (⟨S4096x16x128, .f32⟩ : BufTy).Contents (Elt F) → (⟨S4096x16x128, .f32⟩ : BufTy).Contents (Elt F) → (⟨S4096x16x128, .f32⟩ : BufTy).Contents (Elt F)),
    StableHlo.binary main_v53 main_v54 main_v56 (subf : (⟨S4096x16x128, .f32⟩ : BufTy).Contents (Elt F) → (⟨S4096x16x128, .f32⟩ : BufTy).Contents (Elt F) → (⟨S4096x16x128, .f32⟩ : BufTy).Contents (Elt F)),
    StableHlo.binary main_v55 main_v56 main_v57 ((fun a b => concatenate S4096x16x256 2 [⟨S4096x16x128, a⟩, ⟨S4096x16x128, b⟩] concatenates_S4096x16x128_S4096x16x128_S4096x16x256_d2) : (⟨S4096x16x128, .f32⟩ : BufTy).Contents (Elt F) → (⟨S4096x16x128, .f32⟩ : BufTy).Contents (Elt F) → (⟨S4096x16x256, .f32⟩ : BufTy).Contents (Elt F)),
    StableHlo.reshape main_v57 main_v58 rfl shapeCasts_S4096x16x256_S4096x4096 ]

/-- Butterfly stage 8 (pairs at distance 256). -/
def chunk8 : List (HloOp τ sig (Elt F)) :=
  [ StableHlo.reshape main_v58 main_v59 rfl shapeCasts_S4096x4096_S4096x8x512,
    StableHlo.unary main_v59 main_v60 ((extractStridedSlice S4096x8x256 ![0, 0, 0] · slices_S4096x8x512_S4096x8x256_0_0_0) : (⟨S4096x8x512, .f32⟩ : BufTy).Contents (Elt F) → (⟨S4096x8x256, .f32⟩ : BufTy).Contents (Elt F)),
    StableHlo.unary main_v59 main_v61 ((extractStridedSlice S4096x8x256 ![0, 0, 256] · slices_S4096x8x512_S4096x8x256_0_0_256) : (⟨S4096x8x512, .f32⟩ : BufTy).Contents (Elt F) → (⟨S4096x8x256, .f32⟩ : BufTy).Contents (Elt F)),
    StableHlo.binary main_v60 main_v61 main_v62 (addf : (⟨S4096x8x256, .f32⟩ : BufTy).Contents (Elt F) → (⟨S4096x8x256, .f32⟩ : BufTy).Contents (Elt F) → (⟨S4096x8x256, .f32⟩ : BufTy).Contents (Elt F)),
    StableHlo.binary main_v60 main_v61 main_v63 (subf : (⟨S4096x8x256, .f32⟩ : BufTy).Contents (Elt F) → (⟨S4096x8x256, .f32⟩ : BufTy).Contents (Elt F) → (⟨S4096x8x256, .f32⟩ : BufTy).Contents (Elt F)),
    StableHlo.binary main_v62 main_v63 main_v64 ((fun a b => concatenate S4096x8x512 2 [⟨S4096x8x256, a⟩, ⟨S4096x8x256, b⟩] concatenates_S4096x8x256_S4096x8x256_S4096x8x512_d2) : (⟨S4096x8x256, .f32⟩ : BufTy).Contents (Elt F) → (⟨S4096x8x256, .f32⟩ : BufTy).Contents (Elt F) → (⟨S4096x8x512, .f32⟩ : BufTy).Contents (Elt F)),
    StableHlo.reshape main_v64 main_v65 rfl shapeCasts_S4096x8x512_S4096x4096 ]

/-- Butterfly stage 9 (pairs at distance 512). -/
def chunk9 : List (HloOp τ sig (Elt F)) :=
  [ StableHlo.reshape main_v65 main_v66 rfl shapeCasts_S4096x4096_S4096x4x1024,
    StableHlo.unary main_v66 main_v67 ((extractStridedSlice S4096x4x512 ![0, 0, 0] · slices_S4096x4x1024_S4096x4x512_0_0_0) : (⟨S4096x4x1024, .f32⟩ : BufTy).Contents (Elt F) → (⟨S4096x4x512, .f32⟩ : BufTy).Contents (Elt F)),
    StableHlo.unary main_v66 main_v68 ((extractStridedSlice S4096x4x512 ![0, 0, 512] · slices_S4096x4x1024_S4096x4x512_0_0_512) : (⟨S4096x4x1024, .f32⟩ : BufTy).Contents (Elt F) → (⟨S4096x4x512, .f32⟩ : BufTy).Contents (Elt F)),
    StableHlo.binary main_v67 main_v68 main_v69 (addf : (⟨S4096x4x512, .f32⟩ : BufTy).Contents (Elt F) → (⟨S4096x4x512, .f32⟩ : BufTy).Contents (Elt F) → (⟨S4096x4x512, .f32⟩ : BufTy).Contents (Elt F)),
    StableHlo.binary main_v67 main_v68 main_v70 (subf : (⟨S4096x4x512, .f32⟩ : BufTy).Contents (Elt F) → (⟨S4096x4x512, .f32⟩ : BufTy).Contents (Elt F) → (⟨S4096x4x512, .f32⟩ : BufTy).Contents (Elt F)),
    StableHlo.binary main_v69 main_v70 main_v71 ((fun a b => concatenate S4096x4x1024 2 [⟨S4096x4x512, a⟩, ⟨S4096x4x512, b⟩] concatenates_S4096x4x512_S4096x4x512_S4096x4x1024_d2) : (⟨S4096x4x512, .f32⟩ : BufTy).Contents (Elt F) → (⟨S4096x4x512, .f32⟩ : BufTy).Contents (Elt F) → (⟨S4096x4x1024, .f32⟩ : BufTy).Contents (Elt F)),
    StableHlo.reshape main_v71 main_v72 rfl shapeCasts_S4096x4x1024_S4096x4096 ]

/-- Butterfly stage 10 (pairs at distance 1024). -/
def chunk10 : List (HloOp τ sig (Elt F)) :=
  [ StableHlo.reshape main_v72 main_v73 rfl shapeCasts_S4096x4096_S4096x2x2048,
    StableHlo.unary main_v73 main_v74 ((extractStridedSlice S4096x2x1024 ![0, 0, 0] · slices_S4096x2x2048_S4096x2x1024_0_0_0) : (⟨S4096x2x2048, .f32⟩ : BufTy).Contents (Elt F) → (⟨S4096x2x1024, .f32⟩ : BufTy).Contents (Elt F)),
    StableHlo.unary main_v73 main_v75 ((extractStridedSlice S4096x2x1024 ![0, 0, 1024] · slices_S4096x2x2048_S4096x2x1024_0_0_1024) : (⟨S4096x2x2048, .f32⟩ : BufTy).Contents (Elt F) → (⟨S4096x2x1024, .f32⟩ : BufTy).Contents (Elt F)),
    StableHlo.binary main_v74 main_v75 main_v76 (addf : (⟨S4096x2x1024, .f32⟩ : BufTy).Contents (Elt F) → (⟨S4096x2x1024, .f32⟩ : BufTy).Contents (Elt F) → (⟨S4096x2x1024, .f32⟩ : BufTy).Contents (Elt F)),
    StableHlo.binary main_v74 main_v75 main_v77 (subf : (⟨S4096x2x1024, .f32⟩ : BufTy).Contents (Elt F) → (⟨S4096x2x1024, .f32⟩ : BufTy).Contents (Elt F) → (⟨S4096x2x1024, .f32⟩ : BufTy).Contents (Elt F)),
    StableHlo.binary main_v76 main_v77 main_v78 ((fun a b => concatenate S4096x2x2048 2 [⟨S4096x2x1024, a⟩, ⟨S4096x2x1024, b⟩] concatenates_S4096x2x1024_S4096x2x1024_S4096x2x2048_d2) : (⟨S4096x2x1024, .f32⟩ : BufTy).Contents (Elt F) → (⟨S4096x2x1024, .f32⟩ : BufTy).Contents (Elt F) → (⟨S4096x2x2048, .f32⟩ : BufTy).Contents (Elt F)),
    StableHlo.reshape main_v78 main_v79 rfl shapeCasts_S4096x2x2048_S4096x4096 ]

/-- Butterfly stage 11 (pairs at distance 2048). -/
def chunk11 : List (HloOp τ sig (Elt F)) :=
  [ StableHlo.reshape main_v79 main_v80 rfl shapeCasts_S4096x4096_S4096x1x4096,
    StableHlo.unary main_v80 main_v81 ((extractStridedSlice S4096x1x2048 ![0, 0, 0] · slices_S4096x1x4096_S4096x1x2048_0_0_0) : (⟨S4096x1x4096, .f32⟩ : BufTy).Contents (Elt F) → (⟨S4096x1x2048, .f32⟩ : BufTy).Contents (Elt F)),
    StableHlo.unary main_v80 main_v82 ((extractStridedSlice S4096x1x2048 ![0, 0, 2048] · slices_S4096x1x4096_S4096x1x2048_0_0_2048) : (⟨S4096x1x4096, .f32⟩ : BufTy).Contents (Elt F) → (⟨S4096x1x2048, .f32⟩ : BufTy).Contents (Elt F)),
    StableHlo.binary main_v81 main_v82 main_v83 (addf : (⟨S4096x1x2048, .f32⟩ : BufTy).Contents (Elt F) → (⟨S4096x1x2048, .f32⟩ : BufTy).Contents (Elt F) → (⟨S4096x1x2048, .f32⟩ : BufTy).Contents (Elt F)),
    StableHlo.binary main_v81 main_v82 main_v84 (subf : (⟨S4096x1x2048, .f32⟩ : BufTy).Contents (Elt F) → (⟨S4096x1x2048, .f32⟩ : BufTy).Contents (Elt F) → (⟨S4096x1x2048, .f32⟩ : BufTy).Contents (Elt F)),
    StableHlo.binary main_v83 main_v84 main_v85 ((fun a b => concatenate S4096x1x4096 2 [⟨S4096x1x2048, a⟩, ⟨S4096x1x2048, b⟩] concatenates_S4096x1x2048_S4096x1x2048_S4096x1x4096_d2) : (⟨S4096x1x2048, .f32⟩ : BufTy).Contents (Elt F) → (⟨S4096x1x2048, .f32⟩ : BufTy).Contents (Elt F) → (⟨S4096x1x4096, .f32⟩ : BufTy).Contents (Elt F)),
    StableHlo.reshape main_v85 main_v86 rfl shapeCasts_S4096x1x4096_S4096x4096 ]

/-- Divide by 64, change the formats of the weights and of x, lay the bias out as a row. -/
def post : List (HloOp τ sig (Elt F)) :=
  [ StableHlo.nullary main_cst (constant S_ .f32 0x42800000#32),
    StableHlo.unary main_cst main_v87 (broadcastInDim S4096x4096 ![] bcast_S_S4096x4096 : (⟨S_, .f32⟩ : BufTy).Contents (Elt F) → (⟨S4096x4096, .f32⟩ : BufTy).Contents (Elt F)),
    StableHlo.binary main_v86 main_v87 main_v88 (Host.divf : (⟨S4096x4096, .f32⟩ : BufTy).Contents (Elt F) → (⟨S4096x4096, .f32⟩ : BufTy).Contents (Elt F) → (⟨S4096x4096, .f32⟩ : BufTy).Contents (Elt F)),
    StableHlo.unary main_v88 main_v89 ((truncf .bf16 · bitsLt_bf16_f32) : (⟨S4096x4096, .f32⟩ : BufTy).Contents (Elt F) → (⟨S4096x4096, .bf16⟩ : BufTy).Contents (Elt F)),
    StableHlo.unary main_arg0 main_v90 ((truncf .bf16 · bitsLt_bf16_f32) : (⟨S8192x4096, .f32⟩ : BufTy).Contents (Elt F) → (⟨S8192x4096, .bf16⟩ : BufTy).Contents (Elt F)),
    StableHlo.reshape main_arg3 main_v91 rfl shapeCasts_S4096_S1x4096 ]

set_option maxHeartbeats 4000000 in
/-- The whole list is the lists one after the other. -/
theorem split : (hostOps0 : List (HloOp τ sig (Elt F))) = pre ++ chunk0 ++ chunk1 ++ chunk2 ++ chunk3 ++ chunk4 ++ chunk5 ++ chunk6 ++ chunk7 ++ chunk8 ++ chunk9 ++ chunk10 ++ chunk11 ++ post := rfl

/-- Stage 0's operations take the array in main_v2 to the stage's function of it, in main_v9. -/
theorem chunk0_eq (W : Valuation τ sig (Elt Ideal)) :
    after (chunk0 (F := Ideal)) W (Proc.devRef .tc main_v9) = Cert.KernelIdeal.Stages.st0 (W (Proc.devRef .tc main_v2)) := by
  unfold chunk0
  after_results_simp <;> rfl

/-- Stage 1's operations take the array in main_v9 to the stage's function of it, in main_v16. -/
theorem chunk1_eq (W : Valuation τ sig (Elt Ideal)) :
    after (chunk1 (F := Ideal)) W (Proc.devRef .tc main_v16) = Cert.KernelIdeal.Stages.st1 (W (Proc.devRef .tc main_v9)) := by
  unfold chunk1
  after_results_simp <;> rfl

/-- Stage 2's operations take the array in main_v16 to the stage's function of it, in main_v23. -/
theorem chunk2_eq (W : Valuation τ sig (Elt Ideal)) :
    after (chunk2 (F := Ideal)) W (Proc.devRef .tc main_v23) = Cert.KernelIdeal.Stages.st2 (W (Proc.devRef .tc main_v16)) := by
  unfold chunk2
  after_results_simp <;> rfl

/-- Stage 3's operations take the array in main_v23 to the stage's function of it, in main_v30. -/
theorem chunk3_eq (W : Valuation τ sig (Elt Ideal)) :
    after (chunk3 (F := Ideal)) W (Proc.devRef .tc main_v30) = Cert.KernelIdeal.Stages.st3 (W (Proc.devRef .tc main_v23)) := by
  unfold chunk3
  after_results_simp <;> rfl

/-- Stage 4's operations take the array in main_v30 to the stage's function of it, in main_v37. -/
theorem chunk4_eq (W : Valuation τ sig (Elt Ideal)) :
    after (chunk4 (F := Ideal)) W (Proc.devRef .tc main_v37) = Cert.KernelIdeal.Stages.st4 (W (Proc.devRef .tc main_v30)) := by
  unfold chunk4
  after_results_simp <;> rfl

/-- Stage 5's operations take the array in main_v37 to the stage's function of it, in main_v44. -/
theorem chunk5_eq (W : Valuation τ sig (Elt Ideal)) :
    after (chunk5 (F := Ideal)) W (Proc.devRef .tc main_v44) = Cert.KernelIdeal.Stages.st5 (W (Proc.devRef .tc main_v37)) := by
  unfold chunk5
  after_results_simp <;> rfl

/-- Stage 6's operations take the array in main_v44 to the stage's function of it, in main_v51. -/
theorem chunk6_eq (W : Valuation τ sig (Elt Ideal)) :
    after (chunk6 (F := Ideal)) W (Proc.devRef .tc main_v51) = Cert.KernelIdeal.Stages.st6 (W (Proc.devRef .tc main_v44)) := by
  unfold chunk6
  after_results_simp <;> rfl

/-- Stage 7's operations take the array in main_v51 to the stage's function of it, in main_v58. -/
theorem chunk7_eq (W : Valuation τ sig (Elt Ideal)) :
    after (chunk7 (F := Ideal)) W (Proc.devRef .tc main_v58) = Cert.KernelIdeal.Stages.st7 (W (Proc.devRef .tc main_v51)) := by
  unfold chunk7
  after_results_simp <;> rfl

/-- Stage 8's operations take the array in main_v58 to the stage's function of it, in main_v65. -/
theorem chunk8_eq (W : Valuation τ sig (Elt Ideal)) :
    after (chunk8 (F := Ideal)) W (Proc.devRef .tc main_v65) = Cert.KernelIdeal.Stages.st8 (W (Proc.devRef .tc main_v58)) := by
  unfold chunk8
  after_results_simp <;> rfl

/-- Stage 9's operations take the array in main_v65 to the stage's function of it, in main_v72. -/
theorem chunk9_eq (W : Valuation τ sig (Elt Ideal)) :
    after (chunk9 (F := Ideal)) W (Proc.devRef .tc main_v72) = Cert.KernelIdeal.Stages.st9 (W (Proc.devRef .tc main_v65)) := by
  unfold chunk9
  after_results_simp <;> rfl

/-- Stage 10's operations take the array in main_v72 to the stage's function of it, in main_v79. -/
theorem chunk10_eq (W : Valuation τ sig (Elt Ideal)) :
    after (chunk10 (F := Ideal)) W (Proc.devRef .tc main_v79) = Cert.KernelIdeal.Stages.st10 (W (Proc.devRef .tc main_v72)) := by
  unfold chunk10
  after_results_simp <;> rfl

/-- Stage 11's operations take the array in main_v79 to the stage's function of it, in main_v86. -/
theorem chunk11_eq (W : Valuation τ sig (Elt Ideal)) :
    after (chunk11 (F := Ideal)) W (Proc.devRef .tc main_v86) = Cert.KernelIdeal.Stages.st11 (W (Proc.devRef .tc main_v79)) := by
  unfold chunk11
  after_results_simp <;> rfl

end Cert.KernelIdeal.HostChunks

end
-- ==== Proof.KernelHost.lean ====
/-
  What the kernel's one region finds in its three operand arrays, as functions of the arguments.

  Before the region the program dequantises the weights (`W[o, k] = float(Q[o, k]) · s[o]`), runs the twelve butterfly
  stages along every row of `W`, divides by 64 = √4096 and changes the format; it changes the format of `x`; and it
  lays the bias out as one row. At the ideal values a change of format is the identity, so entry `(o, k)` of the second
  operand is the twelve-stage transform of row `o` of `W`, at `k`, over 64; the first operand is `x`; the third is
  the bias.
-/
import proofs.«123800_j88441966559314_2_alg».proof.Proof.Gen.KernelIdeal.Frame
import proofs.«123800_j88441966559314_2_alg».proof.Proof.StagesKernel
import proofs.«123800_j88441966559314_2_alg».proof.Proof.HostChunks
import Idealize.ShloMosaic.Lib.StableHlo.Run
import Idealize.ShloMosaic.Lib.ValueLayout
import Idealize.ShloMosaic.Lib.Pipeline.Value
import Idealize.ShloMosaic.Lib.ValueIdx

noncomputable section

namespace Cert.KernelIdeal.HostVals

open Cert.KernelIdeal Cert.KernelIdeal.Gen Cert.KernelIdeal.Stages
open Idealize.ShloMosaic Idealize.ShloMosaic.TcCoe Idealize.ShloMosaic.ValueIdx Idealize.ShloMosaic.StableHlo

/-- The dequantised weights: the integer entry times its row's scale. -/
def weights (a1 : IVec S4096x4096 32) (a2 : FVec Ideal S4096x1 .f32) : FVec Ideal S4096x4096 .f32 :=
  mulf (sitofp .f32 a1) (broadcastInDim S4096x4096 ![0, 1] bcast_S4096x1_S4096x4096_0_1 a2)

/-- The second operand: the rows of the weights transformed, over 64, in the narrower format. -/
def operand1 (a1 : IVec S4096x4096 32) (a2 : FVec Ideal S4096x1 .f32) : FVec Ideal S4096x4096 .bf16 :=
  truncf .bf16 (Host.divf (transform (weights a1 a2))
    (broadcastInDim S4096x4096 ![] bcast_S_S4096x4096 (constant (F := Ideal) S_ .f32 0x42800000#32))) bitsLt_bf16_f32

/-- An entry of the dequantised weights. -/
theorem weights_apply (a1 : IVec S4096x4096 32) (a2 : FVec Ideal S4096x1 .f32) (o k : Fin 4096) :
    weights a1 a2 (ix2 o k) = (((a1 (ix2 o k)).toInt : ℝ) : EReal) * a2 (ix2 o (0 : Fin 1)) := by
  unfold weights
  rw [mulf_apply]
  refine congrArg (_ * ·) ?_
  exact broadcastInDim_apply _ _ a2 (ix2 o k) (ix2 o (0 : Fin 1)) fun a =>
    match a with | ⟨0, _⟩ => rfl | ⟨1, _⟩ => rfl

/-- An entry of the second operand: the transform of the weights' row, over 64. -/
theorem operand1_apply (a1 : IVec S4096x4096 32) (a2 : FVec Ideal S4096x1 .f32) (o k : Fin 4096) :
    operand1 a1 a2 (ix2 o k)
      = Ideal.div (Walsh.ehad 12 (fun k => weights a1 a2 (ix2 o k)) k) (Ideal.ofBits .f32 0x42800000#32) := by
  have e : transform (weights a1 a2) (ix2 o k) = Walsh.ehad 12 (fun k => weights a1 a2 (ix2 o k)) k :=
    congrFun (transform_rows (weights a1 a2) o) k
  rw [← e]
  rfl

variable (m : (ℓ : Loc nD τ sig) → Buf (Elt Ideal) ℓ)

/-- The first operand is `x`, the format changed. -/
theorem found_x (c : Dev nD) :
    (V m c main_v90 : FVec Ideal S8192x4096 .bf16)
      = truncf .bf16 (show FVec Ideal S8192x4096 .f32 from m ((c : Thread nD τ).loc main_arg0)) bitsLt_bf16_f32 := by
  dsimp only [V, hostOps0]
  after_results_simp <;> rfl

/-- The third operand is the bias as one row. -/
theorem found_bias (c : Dev nD) :
    (V m c main_v91 : FVec Ideal S1x4096 .f32)
      = shapeCast S1x4096 (show FVec Ideal S4096 .f32 from m ((c : Thread nD τ).loc main_arg3)) shapeCasts_S4096_S1x4096 := by
  dsimp only [V, hostOps0]
  after_results_simp <;> rfl

/-- The first three operations leave the dequantised weights. -/
theorem pre_eq (W : Valuation τ sig (Elt Ideal)) :
    after (Cert.KernelIdeal.HostChunks.pre (F := Ideal)) W (Proc.devRef .tc main_v2)
      = weights (W (Proc.devRef .tc main_arg1)) (W (Proc.devRef .tc main_arg2)) := by
  unfold Cert.KernelIdeal.HostChunks.pre
  after_results_simp <;> rfl

/-- The last six operations leave, as the second operand, what the stages left over 64, in the narrower format. -/
theorem post_eq (W : Valuation τ sig (Elt Ideal)) :
    after (Cert.KernelIdeal.HostChunks.post (F := Ideal)) W (Proc.devRef .tc main_v89)
      = truncf .bf16 (Host.divf (W (Proc.devRef .tc main_v86))
          (broadcastInDim S4096x4096 ![] bcast_S_S4096x4096 (constant (F := Ideal) S_ .f32 0x42800000#32))) bitsLt_bf16_f32 := by
  unfold Cert.KernelIdeal.HostChunks.post
  after_results_simp <;> rfl

/-- The second operand is the transformed weights: the host operations one list after the other, each stage's list
    taking the previous stage's array to the next. -/
theorem found_w (c : Dev nD) :
    (V m c main_v89 : FVec Ideal S4096x4096 .bf16)
      = operand1 (show IVec S4096x4096 32 from m ((c : Thread nD τ).loc main_arg1))
          (show FVec Ideal S4096x1 .f32 from m ((c : Thread nD τ).loc main_arg2)) := by
  dsimp only [V]
  rw [Cert.KernelIdeal.HostChunks.split]
  simp only [StableHlo.after_append]
  rw [post_eq, Cert.KernelIdeal.HostChunks.chunk11_eq, Cert.KernelIdeal.HostChunks.chunk10_eq,
    Cert.KernelIdeal.HostChunks.chunk9_eq, Cert.KernelIdeal.HostChunks.chunk8_eq, Cert.KernelIdeal.HostChunks.chunk7_eq,
    Cert.KernelIdeal.HostChunks.chunk6_eq, Cert.KernelIdeal.HostChunks.chunk5_eq, Cert.KernelIdeal.HostChunks.chunk4_eq,
    Cert.KernelIdeal.HostChunks.chunk3_eq, Cert.KernelIdeal.HostChunks.chunk2_eq, Cert.KernelIdeal.HostChunks.chunk1_eq,
    Cert.KernelIdeal.HostChunks.chunk0_eq, pre_eq]
  rfl

end Cert.KernelIdeal.HostVals

end
-- ==== Proof.StagesRef.lean ====
/-
  The twelve butterfly stages of the fast Walsh–Hadamard transform as ReferenceIdeal prints them on its [8192, 4096] array:
  stage s reshapes to [8192, 4096 / 2^(s+1), 2^(s+1)], takes the two halves of the last axis, and lays their sum and their
  difference side by side. Each is named here as one function of its input, and read row by row as butterfly stage s of
  the row; the composition of the twelve is, row by row, the twelve-stage transform.
-/
import proofs.«123800_j88441966559314_2_alg».proof.Proof.Gen.ReferenceIdeal
import proofs.«123800_j88441966559314_2_alg».proof.Proof.LibButterfly

noncomputable section

namespace Cert.ReferenceIdeal.Stages

open Cert.ReferenceIdeal Cert.ReferenceIdeal.Facts₀ Idealize.ShloMosaic Idealize.ShloMosaic.ValueIdx

/-- Stage 0 (pairs at distance 1). -/
def st0 (Y : FVec Ideal S8192x4096 .f32) : FVec Ideal S8192x4096 .f32 :=
  Butterfly.stage 8192 2048 1 2 shapeCasts_S8192x4096_S8192x2048x2 slices_S8192x2048x2_S8192x2048x1_0_0_0
    slices_S8192x2048x2_S8192x2048x1_0_0_1 concatenates_S8192x2048x1_S8192x2048x1_S8192x2048x2_d2 shapeCasts_S8192x2048x2_S8192x4096 Y
theorem st0_rows (Y : FVec Ideal S8192x4096 .f32) (r : Fin 8192) :
    (fun k : Fin 4096 => st0 Y (ix2 r k)) = Walsh.ebf 0 (fun k => Y (ix2 r k)) :=
  Butterfly.stage_row 8192 2048 0 1 2 (by norm_num) (by norm_num) rfl (by norm_num) _ _ _ _ _ Y r

/-- Stage 1 (pairs at distance 2). -/
def st1 (Y : FVec Ideal S8192x4096 .f32) : FVec Ideal S8192x4096 .f32 :=
  Butterfly.stage 8192 1024 2 4 shapeCasts_S8192x4096_S8192x1024x4 slices_S8192x1024x4_S8192x1024x2_0_0_0
    slices_S8192x1024x4_S8192x1024x2_0_0_2 concatenates_S8192x1024x2_S8192x1024x2_S8192x1024x4_d2 shapeCasts_S8192x1024x4_S8192x4096 Y
theorem st1_rows (Y : FVec Ideal S8192x4096 .f32) (r : Fin 8192) :
    (fun k : Fin 4096 => st1 Y (ix2 r k)) = Walsh.ebf 1 (fun k => Y (ix2 r k)) :=
  Butterfly.stage_row 8192 1024 1 2 4 (by norm_num) (by norm_num) rfl (by norm_num) _ _ _ _ _ Y r

/-- Stage 2 (pairs at distance 4). -/
def st2 (Y : FVec Ideal S8192x4096 .f32) : FVec Ideal S8192x4096 .f32 :=
  Butterfly.stage 8192 512 4 8 shapeCasts_S8192x4096_S8192x512x8 slices_S8192x512x8_S8192x512x4_0_0_0
    slices_S8192x512x8_S8192x512x4_0_0_4 concatenates_S8192x512x4_S8192x512x4_S8192x512x8_d2 shapeCasts_S8192x512x8_S8192x4096 Y
theorem st2_rows (Y : FVec Ideal S8192x4096 .f32) (r : Fin 8192) :
    (fun k : Fin 4096 => st2 Y (ix2 r k)) = Walsh.ebf 2 (fun k => Y (ix2 r k)) :=
  Butterfly.stage_row 8192 512 2 4 8 (by norm_num) (by norm_num) rfl (by norm_num) _ _ _ _ _ Y r

/-- Stage 3 (pairs at distance 8). -/
def st3 (Y : FVec Ideal S8192x4096 .f32) : FVec Ideal S8192x4096 .f32 :=
  Butterfly.stage 8192 256 8 16 shapeCasts_S8192x4096_S8192x256x16 slices_S8192x256x16_S8192x256x8_0_0_0
    slices_S8192x256x16_S8192x256x8_0_0_8 concatenates_S8192x256x8_S8192x256x8_S8192x256x16_d2 shapeCasts_S8192x256x16_S8192x4096 Y
theorem st3_rows (Y : FVec Ideal S8192x4096 .f32) (r : Fin 8192) :
    (fun k : Fin 4096 => st3 Y (ix2 r k)) = Walsh.ebf 3 (fun k => Y (ix2 r k)) :=
  Butterfly.stage_row 8192 256 3 8 16 (by norm_num) (by norm_num) rfl (by norm_num) _ _ _ _ _ Y r

/-- Stage 4 (pairs at distance 16). -/
def st4 (Y : FVec Ideal S8192x4096 .f32) : FVec Ideal S8192x4096 .f32 :=
  Butterfly.stage 8192 128 16 32 shapeCasts_S8192x4096_S8192x128x32 slices_S8192x128x32_S8192x128x16_0_0_0
    slices_S8192x128x32_S8192x128x16_0_0_16 concatenates_S8192x128x16_S8192x128x16_S8192x128x32_d2 shapeCasts_S8192x128x32_S8192x4096 Y
theorem st4_rows (Y : FVec Ideal S8192x4096 .f32) (r : Fin 8192) :
    (fun k : Fin 4096 => st4 Y (ix2 r k)) = Walsh.ebf 4 (fun k => Y (ix2 r k)) :=
  Butterfly.stage_row 8192 128 4 16 32 (by norm_num) (by norm_num) rfl (by norm_num) _ _ _ _ _ Y r

/-- Stage 5 (pairs at distance 32). -/
def st5 (Y : FVec Ideal S8192x4096 .f32) : FVec Ideal S8192x4096 .f32 :=
  Butterfly.stage 8192 64 32 64 shapeCasts_S8192x4096_S8192x64x64 slices_S8192x64x64_S8192x64x32_0_0_0
    slices_S8192x64x64_S8192x64x32_0_0_32 concatenates_S8192x64x32_S8192x64x32_S8192x64x64_d2 shapeCasts_S8192x64x64_S8192x4096 Y
theorem st5_rows (Y : FVec Ideal S8192x4096 .f32) (r : Fin 8192) :
    (fun k : Fin 4096 => st5 Y (ix2 r k)) = Walsh.ebf 5 (fun k => Y (ix2 r k)) :=
  Butterfly.stage_row 8192 64 5 32 64 (by norm_num) (by norm_num) rfl (by norm_num) _ _ _ _ _ Y r

/-- Stage 6 (pairs at distance 64). -/
def st6 (Y : FVec Ideal S8192x4096 .f32) : FVec Ideal S8192x4096 .f32 :=
  Butterfly.stage 8192 32 64 128 shapeCasts_S8192x4096_S8192x32x128 slices_S8192x32x128_S8192x32x64_0_0_0
    slices_S8192x32x128_S8192x32x64_0_0_64 concatenates_S8192x32x64_S8192x32x64_S8192x32x128_d2 shapeCasts_S8192x32x128_S8192x4096 Y
theorem st6_rows (Y : FVec Ideal S8192x4096 .f32) (r : Fin 8192) :
    (fun k : Fin 4096 => st6 Y (ix2 r k)) = Walsh.ebf 6 (fun k => Y (ix2 r k)) :=
  Butterfly.stage_row 8192 32 6 64 128 (by norm_num) (by norm_num) rfl (by norm_num) _ _ _ _ _ Y r

/-- Stage 7 (pairs at distance 128). -/
def st7 (Y : FVec Ideal S8192x4096 .f32) : FVec Ideal S8192x4096 .f32 :=
  Butterfly.stage 8192 16 128 256 shapeCasts_S8192x4096_S8192x16x256 slices_S8192x16x256_S8192x16x128_0_0_0
    slices_S8192x16x256_S8192x16x128_0_0_128 concatenates_S8192x16x128_S8192x16x128_S8192x16x256_d2 shapeCasts_S8192x16x256_S8192x4096 Y
theorem st7_rows (Y : FVec Ideal S8192x4096 .f32) (r : Fin 8192) :
    (fun k : Fin 4096 => st7 Y (ix2 r k)) = Walsh.ebf 7 (fun k => Y (ix2 r k)) :=
  Butterfly.stage_row 8192 16 7 128 256 (by norm_num) (by norm_num) rfl (by norm_num) _ _ _ _ _ Y r

/-- Stage 8 (pairs at distance 256). -/
def st8 (Y : FVec Ideal S8192x4096 .f32) : FVec Ideal S8192x4096 .f32 :=
  Butterfly.stage 8192 8 256 512 shapeCasts_S8192x4096_S8192x8x512 slices_S8192x8x512_S8192x8x256_0_0_0
    slices_S8192x8x512_S8192x8x256_0_0_256 concatenates_S8192x8x256_S8192x8x256_S8192x8x512_d2 shapeCasts_S8192x8x512_S8192x4096 Y
theorem st8_rows (Y : FVec Ideal S8192x4096 .f32) (r : Fin 8192) :
    (fun k : Fin 4096 => st8 Y (ix2 r k)) = Walsh.ebf 8 (fun k => Y (ix2 r k)) :=
  Butterfly.stage_row 8192 8 8 256 512 (by norm_num) (by norm_num) rfl (by norm_num) _ _ _ _ _ Y r

/-- Stage 9 (pairs at distance 512). -/
def st9 (Y : FVec Ideal S8192x4096 .f32) : FVec Ideal S8192x4096 .f32 :=
  Butterfly.stage 8192 4 512 1024 shapeCasts_S8192x4096_S8192x4x1024 slices_S8192x4x1024_S8192x4x512_0_0_0
    slices_S8192x4x1024_S8192x4x512_0_0_512 concatenates_S8192x4x512_S8192x4x512_S8192x4x1024_d2 shapeCasts_S8192x4x1024_S8192x4096 Y
theorem st9_rows (Y : FVec Ideal S8192x4096 .f32) (r : Fin 8192) :
    (fun k : Fin 4096 => st9 Y (ix2 r k)) = Walsh.ebf 9 (fun k => Y (ix2 r k)) :=
  Butterfly.stage_row 8192 4 9 512 1024 (by norm_num) (by norm_num) rfl (by norm_num) _ _ _ _ _ Y r

/-- Stage 10 (pairs at distance 1024). -/
def st10 (Y : FVec Ideal S8192x4096 .f32) : FVec Ideal S8192x4096 .f32 :=
  Butterfly.stage 8192 2 1024 2048 shapeCasts_S8192x4096_S8192x2x2048 slices_S8192x2x2048_S8192x2x1024_0_0_0
    slices_S8192x2x2048_S8192x2x1024_0_0_1024 concatenates_S8192x2x1024_S8192x2x1024_S8192x2x2048_d2 shapeCasts_S8192x2x2048_S8192x4096 Y
theorem st10_rows (Y : FVec Ideal S8192x4096 .f32) (r : Fin 8192) :
    (fun k : Fin 4096 => st10 Y (ix2 r k)) = Walsh.ebf 10 (fun k => Y (ix2 r k)) :=
  Butterfly.stage_row 8192 2 10 1024 2048 (by norm_num) (by norm_num) rfl (by norm_num) _ _ _ _ _ Y r

/-- Stage 11 (pairs at distance 2048). -/
def st11 (Y : FVec Ideal S8192x4096 .f32) : FVec Ideal S8192x4096 .f32 :=
  Butterfly.stage 8192 1 2048 4096 shapeCasts_S8192x4096_S8192x1x4096 slices_S8192x1x4096_S8192x1x2048_0_0_0
    slices_S8192x1x4096_S8192x1x2048_0_0_2048 concatenates_S8192x1x2048_S8192x1x2048_S8192x1x4096_d2 shapeCasts_S8192x1x4096_S8192x4096 Y
theorem st11_rows (Y : FVec Ideal S8192x4096 .f32) (r : Fin 8192) :
    (fun k : Fin 4096 => st11 Y (ix2 r k)) = Walsh.ebf 11 (fun k => Y (ix2 r k)) :=
  Butterfly.stage_row 8192 1 11 2048 4096 (by norm_num) (by norm_num) rfl (by norm_num) _ _ _ _ _ Y r

/-- The twelve stages, stage 0 first: the unnormalised transform of every row. -/
def transform (Y : FVec Ideal S8192x4096 .f32) : FVec Ideal S8192x4096 .f32 :=
  st11 (st10 (st9 (st8 (st7 (st6 (st5 (st4 (st3 (st2 (st1 (st0 (Y))))))))))))

/-- Row by row it is the twelve-stage transform of the row. -/
theorem transform_rows (Y : FVec Ideal S8192x4096 .f32) (r : Fin 8192) :
    (fun k : Fin 4096 => transform Y (ix2 r k)) = Walsh.ehad 12 (fun k => Y (ix2 r k)) := by
  unfold transform
  rw [st11_rows, st10_rows, st9_rows, st8_rows, st7_rows, st6_rows, st5_rows, st4_rows, st3_rows, st2_rows, st1_rows, st0_rows]
  rfl

end Cert.ReferenceIdeal.Stages

end
-- ==== Proof.RefRun.lean ====
/-
  The reference program's host operations: the whole list, which @main runs in order; its cut into the seven operations
  of each butterfly stage (reshape, two slices, sum, difference, concatenation, reshape back) and the eleven that divide
  by 64, dequantise and transpose the weights, contract and add the bias. Each stage's list takes the array it reads to
  the stage's function of it, the stages leave the other arguments alone, and every weakly fair execution of @main ends
  with each buffer at the contents after the whole list.
-/
import proofs.«123800_j88441966559314_2_alg».proof.Proof.Gen.ReferenceIdeal
import proofs.«123800_j88441966559314_2_alg».proof.Proof.StagesRef
import Idealize.ShloMosaic.Lib.StableHlo.Run
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

-- the lists are stated for any float instance, as the printed program is; the stages' equations at the ideal one
variable {F : FTy → Type} [FloatOps F]

/-- @main's 95 operations, in order. -/
abbrev ops : List (HloOp τ sig (Elt F)) :=
  [ StableHlo.reshape main_arg0 main_v0 rfl shapeCasts_S8192x4096_S8192x2048x2,
    StableHlo.unary main_v0 main_v1 ((extractStridedSlice S8192x2048x1 ![0, 0, 0] · slices_S8192x2048x2_S8192x2048x1_0_0_0) : (⟨S8192x2048x2, .f32⟩ : BufTy).Contents (Elt F) → (⟨S8192x2048x1, .f32⟩ : BufTy).Contents (Elt F)),
    StableHlo.unary main_v0 main_v2 ((extractStridedSlice S8192x2048x1 ![0, 0, 1] · slices_S8192x2048x2_S8192x2048x1_0_0_1) : (⟨S8192x2048x2, .f32⟩ : BufTy).Contents (Elt F) → (⟨S8192x2048x1, .f32⟩ : BufTy).Contents (Elt F)),
    StableHlo.binary main_v1 main_v2 main_v3 (addf : (⟨S8192x2048x1, .f32⟩ : BufTy).Contents (Elt F) → (⟨S8192x2048x1, .f32⟩ : BufTy).Contents (Elt F) → (⟨S8192x2048x1, .f32⟩ : BufTy).Contents (Elt F)),
    StableHlo.binary main_v1 main_v2 main_v4 (subf : (⟨S8192x2048x1, .f32⟩ : BufTy).Contents (Elt F) → (⟨S8192x2048x1, .f32⟩ : BufTy).Contents (Elt F) → (⟨S8192x2048x1, .f32⟩ : BufTy).Contents (Elt F)),
    StableHlo.binary main_v3 main_v4 main_v5 ((fun a b => concatenate S8192x2048x2 2 [⟨S8192x2048x1, a⟩, ⟨S8192x2048x1, b⟩] concatenates_S8192x2048x1_S8192x2048x1_S8192x2048x2_d2) : (⟨S8192x2048x1, .f32⟩ : BufTy).Contents (Elt F) → (⟨S8192x2048x1, .f32⟩ : BufTy).Contents (Elt F) → (⟨S8192x2048x2, .f32⟩ : BufTy).Contents (Elt F)),
    StableHlo.reshape main_v5 main_v6 rfl shapeCasts_S8192x2048x2_S8192x4096,
    StableHlo.reshape main_v6 main_v7 rfl shapeCasts_S8192x4096_S8192x1024x4,
    StableHlo.unary main_v7 main_v8 ((extractStridedSlice S8192x1024x2 ![0, 0, 0] · slices_S8192x1024x4_S8192x1024x2_0_0_0) : (⟨S8192x1024x4, .f32⟩ : BufTy).Contents (Elt F) → (⟨S8192x1024x2, .f32⟩ : BufTy).Contents (Elt F)),
    StableHlo.unary main_v7 main_v9 ((extractStridedSlice S8192x1024x2 ![0, 0, 2] · slices_S8192x1024x4_S8192x1024x2_0_0_2) : (⟨S8192x1024x4, .f32⟩ : BufTy).Contents (Elt F) → (⟨S8192x1024x2, .f32⟩ : BufTy).Contents (Elt F)),
    StableHlo.binary main_v8 main_v9 main_v10 (addf : (⟨S8192x1024x2, .f32⟩ : BufTy).Contents (Elt F) → (⟨S8192x1024x2, .f32⟩ : BufTy).Contents (Elt F) → (⟨S8192x1024x2, .f32⟩ : BufTy).Contents (Elt F)),
    StableHlo.binary main_v8 main_v9 main_v11 (subf : (⟨S8192x1024x2, .f32⟩ : BufTy).Contents (Elt F) → (⟨S8192x1024x2, .f32⟩ : BufTy).Contents (Elt F) → (⟨S8192x1024x2, .f32⟩ : BufTy).Contents (Elt F)),
    StableHlo.binary main_v10 main_v11 main_v12 ((fun a b => concatenate S8192x1024x4 2 [⟨S8192x1024x2, a⟩, ⟨S8192x1024x2, b⟩] concatenates_S8192x1024x2_S8192x1024x2_S8192x1024x4_d2) : (⟨S8192x1024x2, .f32⟩ : BufTy).Contents (Elt F) → (⟨S8192x1024x2, .f32⟩ : BufTy).Contents (Elt F) → (⟨S8192x1024x4, .f32⟩ : BufTy).Contents (Elt F)),
    StableHlo.reshape main_v12 main_v13 rfl shapeCasts_S8192x1024x4_S8192x4096,
    StableHlo.reshape main_v13 main_v14 rfl shapeCasts_S8192x4096_S8192x512x8,
    StableHlo.unary main_v14 main_v15 ((extractStridedSlice S8192x512x4 ![0, 0, 0] · slices_S8192x512x8_S8192x512x4_0_0_0) : (⟨S8192x512x8, .f32⟩ : BufTy).Contents (Elt F) → (⟨S8192x512x4, .f32⟩ : BufTy).Contents (Elt F)),
    StableHlo.unary main_v14 main_v16 ((extractStridedSlice S8192x512x4 ![0, 0, 4] · slices_S8192x512x8_S8192x512x4_0_0_4) : (⟨S8192x512x8, .f32⟩ : BufTy).Contents (Elt F) → (⟨S8192x512x4, .f32⟩ : BufTy).Contents (Elt F)),
    StableHlo.binary main_v15 main_v16 main_v17 (addf : (⟨S8192x512x4, .f32⟩ : BufTy).Contents (Elt F) → (⟨S8192x512x4, .f32⟩ : BufTy).Contents (Elt F) → (⟨S8192x512x4, .f32⟩ : BufTy).Contents (Elt F)),
    StableHlo.binary main_v15 main_v16 main_v18 (subf : (⟨S8192x512x4, .f32⟩ : BufTy).Contents (Elt F) → (⟨S8192x512x4, .f32⟩ : BufTy).Contents (Elt F) → (⟨S8192x512x4, .f32⟩ : BufTy).Contents (Elt F)),
    StableHlo.binary main_v17 main_v18 main_v19 ((fun a b => concatenate S8192x512x8 2 [⟨S8192x512x4, a⟩, ⟨S8192x512x4, b⟩] concatenates_S8192x512x4_S8192x512x4_S8192x512x8_d2) : (⟨S8192x512x4, .f32⟩ : BufTy).Contents (Elt F) → (⟨S8192x512x4, .f32⟩ : BufTy).Contents (Elt F) → (⟨S8192x512x8, .f32⟩ : BufTy).Contents (Elt F)),
    StableHlo.reshape main_v19 main_v20 rfl shapeCasts_S8192x512x8_S8192x4096,
    StableHlo.reshape main_v20 main_v21 rfl shapeCasts_S8192x4096_S8192x256x16,
    StableHlo.unary main_v21 main_v22 ((extractStridedSlice S8192x256x8 ![0, 0, 0] · slices_S8192x256x16_S8192x256x8_0_0_0) : (⟨S8192x256x16, .f32⟩ : BufTy).Contents (Elt F) → (⟨S8192x256x8, .f32⟩ : BufTy).Contents (Elt F)),
    StableHlo.unary main_v21 main_v23 ((extractStridedSlice S8192x256x8 ![0, 0, 8] · slices_S8192x256x16_S8192x256x8_0_0_8) : (⟨S8192x256x16, .f32⟩ : BufTy).Contents (Elt F) → (⟨S8192x256x8, .f32⟩ : BufTy).Contents (Elt F)),
    StableHlo.binary main_v22 main_v23 main_v24 (addf : (⟨S8192x256x8, .f32⟩ : BufTy).Contents (Elt F) → (⟨S8192x256x8, .f32⟩ : BufTy).Contents (Elt F) → (⟨S8192x256x8, .f32⟩ : BufTy).Contents (Elt F)),
    StableHlo.binary main_v22 main_v23 main_v25 (subf : (⟨S8192x256x8, .f32⟩ : BufTy).Contents (Elt F) → (⟨S8192x256x8, .f32⟩ : BufTy).Contents (Elt F) → (⟨S8192x256x8, .f32⟩ : BufTy).Contents (Elt F)),
    StableHlo.binary main_v24 main_v25 main_v26 ((fun a b => concatenate S8192x256x16 2 [⟨S8192x256x8, a⟩, ⟨S8192x256x8, b⟩] concatenates_S8192x256x8_S8192x256x8_S8192x256x16_d2) : (⟨S8192x256x8, .f32⟩ : BufTy).Contents (Elt F) → (⟨S8192x256x8, .f32⟩ : BufTy).Contents (Elt F) → (⟨S8192x256x16, .f32⟩ : BufTy).Contents (Elt F)),
    StableHlo.reshape main_v26 main_v27 rfl shapeCasts_S8192x256x16_S8192x4096,
    StableHlo.reshape main_v27 main_v28 rfl shapeCasts_S8192x4096_S8192x128x32,
    StableHlo.unary main_v28 main_v29 ((extractStridedSlice S8192x128x16 ![0, 0, 0] · slices_S8192x128x32_S8192x128x16_0_0_0) : (⟨S8192x128x32, .f32⟩ : BufTy).Contents (Elt F) → (⟨S8192x128x16, .f32⟩ : BufTy).Contents (Elt F)),
    StableHlo.unary main_v28 main_v30 ((extractStridedSlice S8192x128x16 ![0, 0, 16] · slices_S8192x128x32_S8192x128x16_0_0_16) : (⟨S8192x128x32, .f32⟩ : BufTy).Contents (Elt F) → (⟨S8192x128x16, .f32⟩ : BufTy).Contents (Elt F)),
    StableHlo.binary main_v29 main_v30 main_v31 (addf : (⟨S8192x128x16, .f32⟩ : BufTy).Contents (Elt F) → (⟨S8192x128x16, .f32⟩ : BufTy).Contents (Elt F) → (⟨S8192x128x16, .f32⟩ : BufTy).Contents (Elt F)),
    StableHlo.binary main_v29 main_v30 main_v32 (subf : (⟨S8192x128x16, .f32⟩ : BufTy).Contents (Elt F) → (⟨S8192x128x16, .f32⟩ : BufTy).Contents (Elt F) → (⟨S8192x128x16, .f32⟩ : BufTy).Contents (Elt F)),
    StableHlo.binary main_v31 main_v32 main_v33 ((fun a b => concatenate S8192x128x32 2 [⟨S8192x128x16, a⟩, ⟨S8192x128x16, b⟩] concatenates_S8192x128x16_S8192x128x16_S8192x128x32_d2) : (⟨S8192x128x16, .f32⟩ : BufTy).Contents (Elt F) → (⟨S8192x128x16, .f32⟩ : BufTy).Contents (Elt F) → (⟨S8192x128x32, .f32⟩ : BufTy).Contents (Elt F)),
    StableHlo.reshape main_v33 main_v34 rfl shapeCasts_S8192x128x32_S8192x4096,
    StableHlo.reshape main_v34 main_v35 rfl shapeCasts_S8192x4096_S8192x64x64,
    StableHlo.unary main_v35 main_v36 ((extractStridedSlice S8192x64x32 ![0, 0, 0] · slices_S8192x64x64_S8192x64x32_0_0_0) : (⟨S8192x64x64, .f32⟩ : BufTy).Contents (Elt F) → (⟨S8192x64x32, .f32⟩ : BufTy).Contents (Elt F)),
    StableHlo.unary main_v35 main_v37 ((extractStridedSlice S8192x64x32 ![0, 0, 32] · slices_S8192x64x64_S8192x64x32_0_0_32) : (⟨S8192x64x64, .f32⟩ : BufTy).Contents (Elt F) → (⟨S8192x64x32, .f32⟩ : BufTy).Contents (Elt F)),
    StableHlo.binary main_v36 main_v37 main_v38 (addf : (⟨S8192x64x32, .f32⟩ : BufTy).Contents (Elt F) → (⟨S8192x64x32, .f32⟩ : BufTy).Contents (Elt F) → (⟨S8192x64x32, .f32⟩ : BufTy).Contents (Elt F)),
    StableHlo.binary main_v36 main_v37 main_v39 (subf : (⟨S8192x64x32, .f32⟩ : BufTy).Contents (Elt F) → (⟨S8192x64x32, .f32⟩ : BufTy).Contents (Elt F) → (⟨S8192x64x32, .f32⟩ : BufTy).Contents (Elt F)),
    StableHlo.binary main_v38 main_v39 main_v40 ((fun a b => concatenate S8192x64x64 2 [⟨S8192x64x32, a⟩, ⟨S8192x64x32, b⟩] concatenates_S8192x64x32_S8192x64x32_S8192x64x64_d2) : (⟨S8192x64x32, .f32⟩ : BufTy).Contents (Elt F) → (⟨S8192x64x32, .f32⟩ : BufTy).Contents (Elt F) → (⟨S8192x64x64, .f32⟩ : BufTy).Contents (Elt F)),
    StableHlo.reshape main_v40 main_v41 rfl shapeCasts_S8192x64x64_S8192x4096,
    StableHlo.reshape main_v41 main_v42 rfl shapeCasts_S8192x4096_S8192x32x128,
    StableHlo.unary main_v42 main_v43 ((extractStridedSlice S8192x32x64 ![0, 0, 0] · slices_S8192x32x128_S8192x32x64_0_0_0) : (⟨S8192x32x128, .f32⟩ : BufTy).Contents (Elt F) → (⟨S8192x32x64, .f32⟩ : BufTy).Contents (Elt F)),
    StableHlo.unary main_v42 main_v44 ((extractStridedSlice S8192x32x64 ![0, 0, 64] · slices_S8192x32x128_S8192x32x64_0_0_64) : (⟨S8192x32x128, .f32⟩ : BufTy).Contents (Elt F) → (⟨S8192x32x64, .f32⟩ : BufTy).Contents (Elt F)),
    StableHlo.binary main_v43 main_v44 main_v45 (addf : (⟨S8192x32x64, .f32⟩ : BufTy).Contents (Elt F) → (⟨S8192x32x64, .f32⟩ : BufTy).Contents (Elt F) → (⟨S8192x32x64, .f32⟩ : BufTy).Contents (Elt F)),
    StableHlo.binary main_v43 main_v44 main_v46 (subf : (⟨S8192x32x64, .f32⟩ : BufTy).Contents (Elt F) → (⟨S8192x32x64, .f32⟩ : BufTy).Contents (Elt F) → (⟨S8192x32x64, .f32⟩ : BufTy).Contents (Elt F)),
    StableHlo.binary main_v45 main_v46 main_v47 ((fun a b => concatenate S8192x32x128 2 [⟨S8192x32x64, a⟩, ⟨S8192x32x64, b⟩] concatenates_S8192x32x64_S8192x32x64_S8192x32x128_d2) : (⟨S8192x32x64, .f32⟩ : BufTy).Contents (Elt F) → (⟨S8192x32x64, .f32⟩ : BufTy).Contents (Elt F) → (⟨S8192x32x128, .f32⟩ : BufTy).Contents (Elt F)),
    StableHlo.reshape main_v47 main_v48 rfl shapeCasts_S8192x32x128_S8192x4096,
    StableHlo.reshape main_v48 main_v49 rfl shapeCasts_S8192x4096_S8192x16x256,
    StableHlo.unary main_v49 main_v50 ((extractStridedSlice S8192x16x128 ![0, 0, 0] · slices_S8192x16x256_S8192x16x128_0_0_0) : (⟨S8192x16x256, .f32⟩ : BufTy).Contents (Elt F) → (⟨S8192x16x128, .f32⟩ : BufTy).Contents (Elt F)),
    StableHlo.unary main_v49 main_v51 ((extractStridedSlice S8192x16x128 ![0, 0, 128] · slices_S8192x16x256_S8192x16x128_0_0_128) : (⟨S8192x16x256, .f32⟩ : BufTy).Contents (Elt F) → (⟨S8192x16x128, .f32⟩ : BufTy).Contents (Elt F)),
    StableHlo.binary main_v50 main_v51 main_v52 (addf : (⟨S8192x16x128, .f32⟩ : BufTy).Contents (Elt F) → (⟨S8192x16x128, .f32⟩ : BufTy).Contents (Elt F) → (⟨S8192x16x128, .f32⟩ : BufTy).Contents (Elt F)),
    StableHlo.binary main_v50 main_v51 main_v53 (subf : (⟨S8192x16x128, .f32⟩ : BufTy).Contents (Elt F) → (⟨S8192x16x128, .f32⟩ : BufTy).Contents (Elt F) → (⟨S8192x16x128, .f32⟩ : BufTy).Contents (Elt F)),
    StableHlo.binary main_v52 main_v53 main_v54 ((fun a b => concatenate S8192x16x256 2 [⟨S8192x16x128, a⟩, ⟨S8192x16x128, b⟩] concatenates_S8192x16x128_S8192x16x128_S8192x16x256_d2) : (⟨S8192x16x128, .f32⟩ : BufTy).Contents (Elt F) → (⟨S8192x16x128, .f32⟩ : BufTy).Contents (Elt F) → (⟨S8192x16x256, .f32⟩ : BufTy).Contents (Elt F)),
    StableHlo.reshape main_v54 main_v55 rfl shapeCasts_S8192x16x256_S8192x4096,
    StableHlo.reshape main_v55 main_v56 rfl shapeCasts_S8192x4096_S8192x8x512,
    StableHlo.unary main_v56 main_v57 ((extractStridedSlice S8192x8x256 ![0, 0, 0] · slices_S8192x8x512_S8192x8x256_0_0_0) : (⟨S8192x8x512, .f32⟩ : BufTy).Contents (Elt F) → (⟨S8192x8x256, .f32⟩ : BufTy).Contents (Elt F)),
    StableHlo.unary main_v56 main_v58 ((extractStridedSlice S8192x8x256 ![0, 0, 256] · slices_S8192x8x512_S8192x8x256_0_0_256) : (⟨S8192x8x512, .f32⟩ : BufTy).Contents (Elt F) → (⟨S8192x8x256, .f32⟩ : BufTy).Contents (Elt F)),
    StableHlo.binary main_v57 main_v58 main_v59 (addf : (⟨S8192x8x256, .f32⟩ : BufTy).Contents (Elt F) → (⟨S8192x8x256, .f32⟩ : BufTy).Contents (Elt F) → (⟨S8192x8x256, .f32⟩ : BufTy).Contents (Elt F)),
    StableHlo.binary main_v57 main_v58 main_v60 (subf : (⟨S8192x8x256, .f32⟩ : BufTy).Contents (Elt F) → (⟨S8192x8x256, .f32⟩ : BufTy).Contents (Elt F) → (⟨S8192x8x256, .f32⟩ : BufTy).Contents (Elt F)),
    StableHlo.binary main_v59 main_v60 main_v61 ((fun a b => concatenate S8192x8x512 2 [⟨S8192x8x256, a⟩, ⟨S8192x8x256, b⟩] concatenates_S8192x8x256_S8192x8x256_S8192x8x512_d2) : (⟨S8192x8x256, .f32⟩ : BufTy).Contents (Elt F) → (⟨S8192x8x256, .f32⟩ : BufTy).Contents (Elt F) → (⟨S8192x8x512, .f32⟩ : BufTy).Contents (Elt F)),
    StableHlo.reshape main_v61 main_v62 rfl shapeCasts_S8192x8x512_S8192x4096,
    StableHlo.reshape main_v62 main_v63 rfl shapeCasts_S8192x4096_S8192x4x1024,
    StableHlo.unary main_v63 main_v64 ((extractStridedSlice S8192x4x512 ![0, 0, 0] · slices_S8192x4x1024_S8192x4x512_0_0_0) : (⟨S8192x4x1024, .f32⟩ : BufTy).Contents (Elt F) → (⟨S8192x4x512, .f32⟩ : BufTy).Contents (Elt F)),
    StableHlo.unary main_v63 main_v65 ((extractStridedSlice S8192x4x512 ![0, 0, 512] · slices_S8192x4x1024_S8192x4x512_0_0_512) : (⟨S8192x4x1024, .f32⟩ : BufTy).Contents (Elt F) → (⟨S8192x4x512, .f32⟩ : BufTy).Contents (Elt F)),
    StableHlo.binary main_v64 main_v65 main_v66 (addf : (⟨S8192x4x512, .f32⟩ : BufTy).Contents (Elt F) → (⟨S8192x4x512, .f32⟩ : BufTy).Contents (Elt F) → (⟨S8192x4x512, .f32⟩ : BufTy).Contents (Elt F)),
    StableHlo.binary main_v64 main_v65 main_v67 (subf : (⟨S8192x4x512, .f32⟩ : BufTy).Contents (Elt F) → (⟨S8192x4x512, .f32⟩ : BufTy).Contents (Elt F) → (⟨S8192x4x512, .f32⟩ : BufTy).Contents (Elt F)),
    StableHlo.binary main_v66 main_v67 main_v68 ((fun a b => concatenate S8192x4x1024 2 [⟨S8192x4x512, a⟩, ⟨S8192x4x512, b⟩] concatenates_S8192x4x512_S8192x4x512_S8192x4x1024_d2) : (⟨S8192x4x512, .f32⟩ : BufTy).Contents (Elt F) → (⟨S8192x4x512, .f32⟩ : BufTy).Contents (Elt F) → (⟨S8192x4x1024, .f32⟩ : BufTy).Contents (Elt F)),
    StableHlo.reshape main_v68 main_v69 rfl shapeCasts_S8192x4x1024_S8192x4096,
    StableHlo.reshape main_v69 main_v70 rfl shapeCasts_S8192x4096_S8192x2x2048,
    StableHlo.unary main_v70 main_v71 ((extractStridedSlice S8192x2x1024 ![0, 0, 0] · slices_S8192x2x2048_S8192x2x1024_0_0_0) : (⟨S8192x2x2048, .f32⟩ : BufTy).Contents (Elt F) → (⟨S8192x2x1024, .f32⟩ : BufTy).Contents (Elt F)),
    StableHlo.unary main_v70 main_v72 ((extractStridedSlice S8192x2x1024 ![0, 0, 1024] · slices_S8192x2x2048_S8192x2x1024_0_0_1024) : (⟨S8192x2x2048, .f32⟩ : BufTy).Contents (Elt F) → (⟨S8192x2x1024, .f32⟩ : BufTy).Contents (Elt F)),
    StableHlo.binary main_v71 main_v72 main_v73 (addf : (⟨S8192x2x1024, .f32⟩ : BufTy).Contents (Elt F) → (⟨S8192x2x1024, .f32⟩ : BufTy).Contents (Elt F) → (⟨S8192x2x1024, .f32⟩ : BufTy).Contents (Elt F)),
    StableHlo.binary main_v71 main_v72 main_v74 (subf : (⟨S8192x2x1024, .f32⟩ : BufTy).Contents (Elt F) → (⟨S8192x2x1024, .f32⟩ : BufTy).Contents (Elt F) → (⟨S8192x2x1024, .f32⟩ : BufTy).Contents (Elt F)),
    StableHlo.binary main_v73 main_v74 main_v75 ((fun a b => concatenate S8192x2x2048 2 [⟨S8192x2x1024, a⟩, ⟨S8192x2x1024, b⟩] concatenates_S8192x2x1024_S8192x2x1024_S8192x2x2048_d2) : (⟨S8192x2x1024, .f32⟩ : BufTy).Contents (Elt F) → (⟨S8192x2x1024, .f32⟩ : BufTy).Contents (Elt F) → (⟨S8192x2x2048, .f32⟩ : BufTy).Contents (Elt F)),
    StableHlo.reshape main_v75 main_v76 rfl shapeCasts_S8192x2x2048_S8192x4096,
    StableHlo.reshape main_v76 main_v77 rfl shapeCasts_S8192x4096_S8192x1x4096,
    StableHlo.unary main_v77 main_v78 ((extractStridedSlice S8192x1x2048 ![0, 0, 0] · slices_S8192x1x4096_S8192x1x2048_0_0_0) : (⟨S8192x1x4096, .f32⟩ : BufTy).Contents (Elt F) → (⟨S8192x1x2048, .f32⟩ : BufTy).Contents (Elt F)),
    StableHlo.unary main_v77 main_v79 ((extractStridedSlice S8192x1x2048 ![0, 0, 2048] · slices_S8192x1x4096_S8192x1x2048_0_0_2048) : (⟨S8192x1x4096, .f32⟩ : BufTy).Contents (Elt F) → (⟨S8192x1x2048, .f32⟩ : BufTy).Contents (Elt F)),
    StableHlo.binary main_v78 main_v79 main_v80 (addf : (⟨S8192x1x2048, .f32⟩ : BufTy).Contents (Elt F) → (⟨S8192x1x2048, .f32⟩ : BufTy).Contents (Elt F) → (⟨S8192x1x2048, .f32⟩ : BufTy).Contents (Elt F)),
    StableHlo.binary main_v78 main_v79 main_v81 (subf : (⟨S8192x1x2048, .f32⟩ : BufTy).Contents (Elt F) → (⟨S8192x1x2048, .f32⟩ : BufTy).Contents (Elt F) → (⟨S8192x1x2048, .f32⟩ : BufTy).Contents (Elt F)),
    StableHlo.binary main_v80 main_v81 main_v82 ((fun a b => concatenate S8192x1x4096 2 [⟨S8192x1x2048, a⟩, ⟨S8192x1x2048, b⟩] concatenates_S8192x1x2048_S8192x1x2048_S8192x1x4096_d2) : (⟨S8192x1x2048, .f32⟩ : BufTy).Contents (Elt F) → (⟨S8192x1x2048, .f32⟩ : BufTy).Contents (Elt F) → (⟨S8192x1x4096, .f32⟩ : BufTy).Contents (Elt F)),
    StableHlo.reshape main_v82 main_v83 rfl shapeCasts_S8192x1x4096_S8192x4096,
    StableHlo.nullary main_cst (constant S_ .f32 0x42800000#32),
    StableHlo.unary main_cst main_v84 (broadcastInDim S8192x4096 ![] bcast_S_S8192x4096 : (⟨S_, .f32⟩ : BufTy).Contents (Elt F) → (⟨S8192x4096, .f32⟩ : BufTy).Contents (Elt F)),
    StableHlo.binary main_v83 main_v84 main_v85 (Host.divf : (⟨S8192x4096, .f32⟩ : BufTy).Contents (Elt F) → (⟨S8192x4096, .f32⟩ : BufTy).Contents (Elt F) → (⟨S8192x4096, .f32⟩ : BufTy).Contents (Elt F)),
    StableHlo.unary main_arg1 main_v86 (sitofp .f32 : (⟨S4096x4096, .i32⟩ : BufTy).Contents (Elt F) → (⟨S4096x4096, .f32⟩ : BufTy).Contents (Elt F)),
    StableHlo.unary main_arg2 main_v87 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v86 main_v87 main_v88 (mulf : (⟨S4096x4096, .f32⟩ : BufTy).Contents (Elt F) → (⟨S4096x4096, .f32⟩ : BufTy).Contents (Elt F) → (⟨S4096x4096, .f32⟩ : BufTy).Contents (Elt F)),
    StableHlo.unary main_v88 main_v89 ((transpose S4096x4096 [1, 0] · transposes_S4096x4096_S4096x4096_1_0) : (⟨S4096x4096, .f32⟩ : BufTy).Contents (Elt F) → (⟨S4096x4096, .f32⟩ : BufTy).Contents (Elt F)),
    StableHlo.binary main_v85 main_v89 main_v90 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg3 main_v91 (broadcastInDim S1x4096 ![1] bcast_S4096_S1x4096_1 : (⟨S4096, .f32⟩ : BufTy).Contents (Elt F) → (⟨S1x4096, .f32⟩ : BufTy).Contents (Elt F)),
    StableHlo.unary main_v91 main_v92 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v90 main_v92 main_v93 (addf : (⟨S8192x4096, .f32⟩ : BufTy).Contents (Elt F) → (⟨S8192x4096, .f32⟩ : BufTy).Contents (Elt F) → (⟨S8192x4096, .f32⟩ : BufTy).Contents (Elt F)) ]

/-- Butterfly stage 0 (pairs at distance 1). -/
def chunk0 : List (HloOp τ sig (Elt F)) :=
  [ StableHlo.reshape main_arg0 main_v0 rfl shapeCasts_S8192x4096_S8192x2048x2,
    StableHlo.unary main_v0 main_v1 ((extractStridedSlice S8192x2048x1 ![0, 0, 0] · slices_S8192x2048x2_S8192x2048x1_0_0_0) : (⟨S8192x2048x2, .f32⟩ : BufTy).Contents (Elt F) → (⟨S8192x2048x1, .f32⟩ : BufTy).Contents (Elt F)),
    StableHlo.unary main_v0 main_v2 ((extractStridedSlice S8192x2048x1 ![0, 0, 1] · slices_S8192x2048x2_S8192x2048x1_0_0_1) : (⟨S8192x2048x2, .f32⟩ : BufTy).Contents (Elt F) → (⟨S8192x2048x1, .f32⟩ : BufTy).Contents (Elt F)),
    StableHlo.binary main_v1 main_v2 main_v3 (addf : (⟨S8192x2048x1, .f32⟩ : BufTy).Contents (Elt F) → (⟨S8192x2048x1, .f32⟩ : BufTy).Contents (Elt F) → (⟨S8192x2048x1, .f32⟩ : BufTy).Contents (Elt F)),
    StableHlo.binary main_v1 main_v2 main_v4 (subf : (⟨S8192x2048x1, .f32⟩ : BufTy).Contents (Elt F) → (⟨S8192x2048x1, .f32⟩ : BufTy).Contents (Elt F) → (⟨S8192x2048x1, .f32⟩ : BufTy).Contents (Elt F)),
    StableHlo.binary main_v3 main_v4 main_v5 ((fun a b => concatenate S8192x2048x2 2 [⟨S8192x2048x1, a⟩, ⟨S8192x2048x1, b⟩] concatenates_S8192x2048x1_S8192x2048x1_S8192x2048x2_d2) : (⟨S8192x2048x1, .f32⟩ : BufTy).Contents (Elt F) → (⟨S8192x2048x1, .f32⟩ : BufTy).Contents (Elt F) → (⟨S8192x2048x2, .f32⟩ : BufTy).Contents (Elt F)),
    StableHlo.reshape main_v5 main_v6 rfl shapeCasts_S8192x2048x2_S8192x4096 ]

/-- Butterfly stage 1 (pairs at distance 2). -/
def chunk1 : List (HloOp τ sig (Elt F)) :=
  [ StableHlo.reshape main_v6 main_v7 rfl shapeCasts_S8192x4096_S8192x1024x4,
    StableHlo.unary main_v7 main_v8 ((extractStridedSlice S8192x1024x2 ![0, 0, 0] · slices_S8192x1024x4_S8192x1024x2_0_0_0) : (⟨S8192x1024x4, .f32⟩ : BufTy).Contents (Elt F) → (⟨S8192x1024x2, .f32⟩ : BufTy).Contents (Elt F)),
    StableHlo.unary main_v7 main_v9 ((extractStridedSlice S8192x1024x2 ![0, 0, 2] · slices_S8192x1024x4_S8192x1024x2_0_0_2) : (⟨S8192x1024x4, .f32⟩ : BufTy).Contents (Elt F) → (⟨S8192x1024x2, .f32⟩ : BufTy).Contents (Elt F)),
    StableHlo.binary main_v8 main_v9 main_v10 (addf : (⟨S8192x1024x2, .f32⟩ : BufTy).Contents (Elt F) → (⟨S8192x1024x2, .f32⟩ : BufTy).Contents (Elt F) → (⟨S8192x1024x2, .f32⟩ : BufTy).Contents (Elt F)),
    StableHlo.binary main_v8 main_v9 main_v11 (subf : (⟨S8192x1024x2, .f32⟩ : BufTy).Contents (Elt F) → (⟨S8192x1024x2, .f32⟩ : BufTy).Contents (Elt F) → (⟨S8192x1024x2, .f32⟩ : BufTy).Contents (Elt F)),
    StableHlo.binary main_v10 main_v11 main_v12 ((fun a b => concatenate S8192x1024x4 2 [⟨S8192x1024x2, a⟩, ⟨S8192x1024x2, b⟩] concatenates_S8192x1024x2_S8192x1024x2_S8192x1024x4_d2) : (⟨S8192x1024x2, .f32⟩ : BufTy).Contents (Elt F) → (⟨S8192x1024x2, .f32⟩ : BufTy).Contents (Elt F) → (⟨S8192x1024x4, .f32⟩ : BufTy).Contents (Elt F)),
    StableHlo.reshape main_v12 main_v13 rfl shapeCasts_S8192x1024x4_S8192x4096 ]

/-- Butterfly stage 2 (pairs at distance 4). -/
def chunk2 : List (HloOp τ sig (Elt F)) :=
  [ StableHlo.reshape main_v13 main_v14 rfl shapeCasts_S8192x4096_S8192x512x8,
    StableHlo.unary main_v14 main_v15 ((extractStridedSlice S8192x512x4 ![0, 0, 0] · slices_S8192x512x8_S8192x512x4_0_0_0) : (⟨S8192x512x8, .f32⟩ : BufTy).Contents (Elt F) → (⟨S8192x512x4, .f32⟩ : BufTy).Contents (Elt F)),
    StableHlo.unary main_v14 main_v16 ((extractStridedSlice S8192x512x4 ![0, 0, 4] · slices_S8192x512x8_S8192x512x4_0_0_4) : (⟨S8192x512x8, .f32⟩ : BufTy).Contents (Elt F) → (⟨S8192x512x4, .f32⟩ : BufTy).Contents (Elt F)),
    StableHlo.binary main_v15 main_v16 main_v17 (addf : (⟨S8192x512x4, .f32⟩ : BufTy).Contents (Elt F) → (⟨S8192x512x4, .f32⟩ : BufTy).Contents (Elt F) → (⟨S8192x512x4, .f32⟩ : BufTy).Contents (Elt F)),
    StableHlo.binary main_v15 main_v16 main_v18 (subf : (⟨S8192x512x4, .f32⟩ : BufTy).Contents (Elt F) → (⟨S8192x512x4, .f32⟩ : BufTy).Contents (Elt F) → (⟨S8192x512x4, .f32⟩ : BufTy).Contents (Elt F)),
    StableHlo.binary main_v17 main_v18 main_v19 ((fun a b => concatenate S8192x512x8 2 [⟨S8192x512x4, a⟩, ⟨S8192x512x4, b⟩] concatenates_S8192x512x4_S8192x512x4_S8192x512x8_d2) : (⟨S8192x512x4, .f32⟩ : BufTy).Contents (Elt F) → (⟨S8192x512x4, .f32⟩ : BufTy).Contents (Elt F) → (⟨S8192x512x8, .f32⟩ : BufTy).Contents (Elt F)),
    StableHlo.reshape main_v19 main_v20 rfl shapeCasts_S8192x512x8_S8192x4096 ]

/-- Butterfly stage 3 (pairs at distance 8). -/
def chunk3 : List (HloOp τ sig (Elt F)) :=
  [ StableHlo.reshape main_v20 main_v21 rfl shapeCasts_S8192x4096_S8192x256x16,
    StableHlo.unary main_v21 main_v22 ((extractStridedSlice S8192x256x8 ![0, 0, 0] · slices_S8192x256x16_S8192x256x8_0_0_0) : (⟨S8192x256x16, .f32⟩ : BufTy).Contents (Elt F) → (⟨S8192x256x8, .f32⟩ : BufTy).Contents (Elt F)),
    StableHlo.unary main_v21 main_v23 ((extractStridedSlice S8192x256x8 ![0, 0, 8] · slices_S8192x256x16_S8192x256x8_0_0_8) : (⟨S8192x256x16, .f32⟩ : BufTy).Contents (Elt F) → (⟨S8192x256x8, .f32⟩ : BufTy).Contents (Elt F)),
    StableHlo.binary main_v22 main_v23 main_v24 (addf : (⟨S8192x256x8, .f32⟩ : BufTy).Contents (Elt F) → (⟨S8192x256x8, .f32⟩ : BufTy).Contents (Elt F) → (⟨S8192x256x8, .f32⟩ : BufTy).Contents (Elt F)),
    StableHlo.binary main_v22 main_v23 main_v25 (subf : (⟨S8192x256x8, .f32⟩ : BufTy).Contents (Elt F) → (⟨S8192x256x8, .f32⟩ : BufTy).Contents (Elt F) → (⟨S8192x256x8, .f32⟩ : BufTy).Contents (Elt F)),
    StableHlo.binary main_v24 main_v25 main_v26 ((fun a b => concatenate S8192x256x16 2 [⟨S8192x256x8, a⟩, ⟨S8192x256x8, b⟩] concatenates_S8192x256x8_S8192x256x8_S8192x256x16_d2) : (⟨S8192x256x8, .f32⟩ : BufTy).Contents (Elt F) → (⟨S8192x256x8, .f32⟩ : BufTy).Contents (Elt F) → (⟨S8192x256x16, .f32⟩ : BufTy).Contents (Elt F)),
    StableHlo.reshape main_v26 main_v27 rfl shapeCasts_S8192x256x16_S8192x4096 ]

/-- Butterfly stage 4 (pairs at distance 16). -/
def chunk4 : List (HloOp τ sig (Elt F)) :=
  [ StableHlo.reshape main_v27 main_v28 rfl shapeCasts_S8192x4096_S8192x128x32,
    StableHlo.unary main_v28 main_v29 ((extractStridedSlice S8192x128x16 ![0, 0, 0] · slices_S8192x128x32_S8192x128x16_0_0_0) : (⟨S8192x128x32, .f32⟩ : BufTy).Contents (Elt F) → (⟨S8192x128x16, .f32⟩ : BufTy).Contents (Elt F)),
    StableHlo.unary main_v28 main_v30 ((extractStridedSlice S8192x128x16 ![0, 0, 16] · slices_S8192x128x32_S8192x128x16_0_0_16) : (⟨S8192x128x32, .f32⟩ : BufTy).Contents (Elt F) → (⟨S8192x128x16, .f32⟩ : BufTy).Contents (Elt F)),
    StableHlo.binary main_v29 main_v30 main_v31 (addf : (⟨S8192x128x16, .f32⟩ : BufTy).Contents (Elt F) → (⟨S8192x128x16, .f32⟩ : BufTy).Contents (Elt F) → (⟨S8192x128x16, .f32⟩ : BufTy).Contents (Elt F)),
    StableHlo.binary main_v29 main_v30 main_v32 (subf : (⟨S8192x128x16, .f32⟩ : BufTy).Contents (Elt F) → (⟨S8192x128x16, .f32⟩ : BufTy).Contents (Elt F) → (⟨S8192x128x16, .f32⟩ : BufTy).Contents (Elt F)),
    StableHlo.binary main_v31 main_v32 main_v33 ((fun a b => concatenate S8192x128x32 2 [⟨S8192x128x16, a⟩, ⟨S8192x128x16, b⟩] concatenates_S8192x128x16_S8192x128x16_S8192x128x32_d2) : (⟨S8192x128x16, .f32⟩ : BufTy).Contents (Elt F) → (⟨S8192x128x16, .f32⟩ : BufTy).Contents (Elt F) → (⟨S8192x128x32, .f32⟩ : BufTy).Contents (Elt F)),
    StableHlo.reshape main_v33 main_v34 rfl shapeCasts_S8192x128x32_S8192x4096 ]

/-- Butterfly stage 5 (pairs at distance 32). -/
def chunk5 : List (HloOp τ sig (Elt F)) :=
  [ StableHlo.reshape main_v34 main_v35 rfl shapeCasts_S8192x4096_S8192x64x64,
    StableHlo.unary main_v35 main_v36 ((extractStridedSlice S8192x64x32 ![0, 0, 0] · slices_S8192x64x64_S8192x64x32_0_0_0) : (⟨S8192x64x64, .f32⟩ : BufTy).Contents (Elt F) → (⟨S8192x64x32, .f32⟩ : BufTy).Contents (Elt F)),
    StableHlo.unary main_v35 main_v37 ((extractStridedSlice S8192x64x32 ![0, 0, 32] · slices_S8192x64x64_S8192x64x32_0_0_32) : (⟨S8192x64x64, .f32⟩ : BufTy).Contents (Elt F) → (⟨S8192x64x32, .f32⟩ : BufTy).Contents (Elt F)),
    StableHlo.binary main_v36 main_v37 main_v38 (addf : (⟨S8192x64x32, .f32⟩ : BufTy).Contents (Elt F) → (⟨S8192x64x32, .f32⟩ : BufTy).Contents (Elt F) → (⟨S8192x64x32, .f32⟩ : BufTy).Contents (Elt F)),
    StableHlo.binary main_v36 main_v37 main_v39 (subf : (⟨S8192x64x32, .f32⟩ : BufTy).Contents (Elt F) → (⟨S8192x64x32, .f32⟩ : BufTy).Contents (Elt F) → (⟨S8192x64x32, .f32⟩ : BufTy).Contents (Elt F)),
    StableHlo.binary main_v38 main_v39 main_v40 ((fun a b => concatenate S8192x64x64 2 [⟨S8192x64x32, a⟩, ⟨S8192x64x32, b⟩] concatenates_S8192x64x32_S8192x64x32_S8192x64x64_d2) : (⟨S8192x64x32, .f32⟩ : BufTy).Contents (Elt F) → (⟨S8192x64x32, .f32⟩ : BufTy).Contents (Elt F) → (⟨S8192x64x64, .f32⟩ : BufTy).Contents (Elt F)),
    StableHlo.reshape main_v40 main_v41 rfl shapeCasts_S8192x64x64_S8192x4096 ]

/-- Butterfly stage 6 (pairs at distance 64). -/
def chunk6 : List (HloOp τ sig (Elt F)) :=
  [ StableHlo.reshape main_v41 main_v42 rfl shapeCasts_S8192x4096_S8192x32x128,
    StableHlo.unary main_v42 main_v43 ((extractStridedSlice S8192x32x64 ![0, 0, 0] · slices_S8192x32x128_S8192x32x64_0_0_0) : (⟨S8192x32x128, .f32⟩ : BufTy).Contents (Elt F) → (⟨S8192x32x64, .f32⟩ : BufTy).Contents (Elt F)),
    StableHlo.unary main_v42 main_v44 ((extractStridedSlice S8192x32x64 ![0, 0, 64] · slices_S8192x32x128_S8192x32x64_0_0_64) : (⟨S8192x32x128, .f32⟩ : BufTy).Contents (Elt F) → (⟨S8192x32x64, .f32⟩ : BufTy).Contents (Elt F)),
    StableHlo.binary main_v43 main_v44 main_v45 (addf : (⟨S8192x32x64, .f32⟩ : BufTy).Contents (Elt F) → (⟨S8192x32x64, .f32⟩ : BufTy).Contents (Elt F) → (⟨S8192x32x64, .f32⟩ : BufTy).Contents (Elt F)),
    StableHlo.binary main_v43 main_v44 main_v46 (subf : (⟨S8192x32x64, .f32⟩ : BufTy).Contents (Elt F) → (⟨S8192x32x64, .f32⟩ : BufTy).Contents (Elt F) → (⟨S8192x32x64, .f32⟩ : BufTy).Contents (Elt F)),
    StableHlo.binary main_v45 main_v46 main_v47 ((fun a b => concatenate S8192x32x128 2 [⟨S8192x32x64, a⟩, ⟨S8192x32x64, b⟩] concatenates_S8192x32x64_S8192x32x64_S8192x32x128_d2) : (⟨S8192x32x64, .f32⟩ : BufTy).Contents (Elt F) → (⟨S8192x32x64, .f32⟩ : BufTy).Contents (Elt F) → (⟨S8192x32x128, .f32⟩ : BufTy).Contents (Elt F)),
    StableHlo.reshape main_v47 main_v48 rfl shapeCasts_S8192x32x128_S8192x4096 ]

/-- Butterfly stage 7 (pairs at distance 128). -/
def chunk7 : List (HloOp τ sig (Elt F)) :=
  [ StableHlo.reshape main_v48 main_v49 rfl shapeCasts_S8192x4096_S8192x16x256,
    StableHlo.unary main_v49 main_v50 ((extractStridedSlice S8192x16x128 ![0, 0, 0] · slices_S8192x16x256_S8192x16x128_0_0_0) : (⟨S8192x16x256, .f32⟩ : BufTy).Contents (Elt F) → (⟨S8192x16x128, .f32⟩ : BufTy).Contents (Elt F)),
    StableHlo.unary main_v49 main_v51 ((extractStridedSlice S8192x16x128 ![0, 0, 128] · slices_S8192x16x256_S8192x16x128_0_0_128) : (⟨S8192x16x256, .f32⟩ : BufTy).Contents (Elt F) → (⟨S8192x16x128, .f32⟩ : BufTy).Contents (Elt F)),
    StableHlo.binary main_v50 main_v51 main_v52 (addf : (⟨S8192x16x128, .f32⟩ : BufTy).Contents (Elt F) → (⟨S8192x16x128, .f32⟩ : BufTy).Contents (Elt F) → (⟨S8192x16x128, .f32⟩ : BufTy).Contents (Elt F)),
    StableHlo.binary main_v50 main_v51 main_v53 (subf : (⟨S8192x16x128, .f32⟩ : BufTy).Contents (Elt F) → (⟨S8192x16x128, .f32⟩ : BufTy).Contents (Elt F) → (⟨S8192x16x128, .f32⟩ : BufTy).Contents (Elt F)),
    StableHlo.binary main_v52 main_v53 main_v54 ((fun a b => concatenate S8192x16x256 2 [⟨S8192x16x128, a⟩, ⟨S8192x16x128, b⟩] concatenates_S8192x16x128_S8192x16x128_S8192x16x256_d2) : (⟨S8192x16x128, .f32⟩ : BufTy).Contents (Elt F) → (⟨S8192x16x128, .f32⟩ : BufTy).Contents (Elt F) → (⟨S8192x16x256, .f32⟩ : BufTy).Contents (Elt F)),
    StableHlo.reshape main_v54 main_v55 rfl shapeCasts_S8192x16x256_S8192x4096 ]

/-- Butterfly stage 8 (pairs at distance 256). -/
def chunk8 : List (HloOp τ sig (Elt F)) :=
  [ StableHlo.reshape main_v55 main_v56 rfl shapeCasts_S8192x4096_S8192x8x512,
    StableHlo.unary main_v56 main_v57 ((extractStridedSlice S8192x8x256 ![0, 0, 0] · slices_S8192x8x512_S8192x8x256_0_0_0) : (⟨S8192x8x512, .f32⟩ : BufTy).Contents (Elt F) → (⟨S8192x8x256, .f32⟩ : BufTy).Contents (Elt F)),
    StableHlo.unary main_v56 main_v58 ((extractStridedSlice S8192x8x256 ![0, 0, 256] · slices_S8192x8x512_S8192x8x256_0_0_256) : (⟨S8192x8x512, .f32⟩ : BufTy).Contents (Elt F) → (⟨S8192x8x256, .f32⟩ : BufTy).Contents (Elt F)),
    StableHlo.binary main_v57 main_v58 main_v59 (addf : (⟨S8192x8x256, .f32⟩ : BufTy).Contents (Elt F) → (⟨S8192x8x256, .f32⟩ : BufTy).Contents (Elt F) → (⟨S8192x8x256, .f32⟩ : BufTy).Contents (Elt F)),
    StableHlo.binary main_v57 main_v58 main_v60 (subf : (⟨S8192x8x256, .f32⟩ : BufTy).Contents (Elt F) → (⟨S8192x8x256, .f32⟩ : BufTy).Contents (Elt F) → (⟨S8192x8x256, .f32⟩ : BufTy).Contents (Elt F)),
    StableHlo.binary main_v59 main_v60 main_v61 ((fun a b => concatenate S8192x8x512 2 [⟨S8192x8x256, a⟩, ⟨S8192x8x256, b⟩] concatenates_S8192x8x256_S8192x8x256_S8192x8x512_d2) : (⟨S8192x8x256, .f32⟩ : BufTy).Contents (Elt F) → (⟨S8192x8x256, .f32⟩ : BufTy).Contents (Elt F) → (⟨S8192x8x512, .f32⟩ : BufTy).Contents (Elt F)),
    StableHlo.reshape main_v61 main_v62 rfl shapeCasts_S8192x8x512_S8192x4096 ]

/-- Butterfly stage 9 (pairs at distance 512). -/
def chunk9 : List (HloOp τ sig (Elt F)) :=
  [ StableHlo.reshape main_v62 main_v63 rfl shapeCasts_S8192x4096_S8192x4x1024,
    StableHlo.unary main_v63 main_v64 ((extractStridedSlice S8192x4x512 ![0, 0, 0] · slices_S8192x4x1024_S8192x4x512_0_0_0) : (⟨S8192x4x1024, .f32⟩ : BufTy).Contents (Elt F) → (⟨S8192x4x512, .f32⟩ : BufTy).Contents (Elt F)),
    StableHlo.unary main_v63 main_v65 ((extractStridedSlice S8192x4x512 ![0, 0, 512] · slices_S8192x4x1024_S8192x4x512_0_0_512) : (⟨S8192x4x1024, .f32⟩ : BufTy).Contents (Elt F) → (⟨S8192x4x512, .f32⟩ : BufTy).Contents (Elt F)),
    StableHlo.binary main_v64 main_v65 main_v66 (addf : (⟨S8192x4x512, .f32⟩ : BufTy).Contents (Elt F) → (⟨S8192x4x512, .f32⟩ : BufTy).Contents (Elt F) → (⟨S8192x4x512, .f32⟩ : BufTy).Contents (Elt F)),
    StableHlo.binary main_v64 main_v65 main_v67 (subf : (⟨S8192x4x512, .f32⟩ : BufTy).Contents (Elt F) → (⟨S8192x4x512, .f32⟩ : BufTy).Contents (Elt F) → (⟨S8192x4x512, .f32⟩ : BufTy).Contents (Elt F)),
    StableHlo.binary main_v66 main_v67 main_v68 ((fun a b => concatenate S8192x4x1024 2 [⟨S8192x4x512, a⟩, ⟨S8192x4x512, b⟩] concatenates_S8192x4x512_S8192x4x512_S8192x4x1024_d2) : (⟨S8192x4x512, .f32⟩ : BufTy).Contents (Elt F) → (⟨S8192x4x512, .f32⟩ : BufTy).Contents (Elt F) → (⟨S8192x4x1024, .f32⟩ : BufTy).Contents (Elt F)),
    StableHlo.reshape main_v68 main_v69 rfl shapeCasts_S8192x4x1024_S8192x4096 ]

/-- Butterfly stage 10 (pairs at distance 1024). -/
def chunk10 : List (HloOp τ sig (Elt F)) :=
  [ StableHlo.reshape main_v69 main_v70 rfl shapeCasts_S8192x4096_S8192x2x2048,
    StableHlo.unary main_v70 main_v71 ((extractStridedSlice S8192x2x1024 ![0, 0, 0] · slices_S8192x2x2048_S8192x2x1024_0_0_0) : (⟨S8192x2x2048, .f32⟩ : BufTy).Contents (Elt F) → (⟨S8192x2x1024, .f32⟩ : BufTy).Contents (Elt F)),
    StableHlo.unary main_v70 main_v72 ((extractStridedSlice S8192x2x1024 ![0, 0, 1024] · slices_S8192x2x2048_S8192x2x1024_0_0_1024) : (⟨S8192x2x2048, .f32⟩ : BufTy).Contents (Elt F) → (⟨S8192x2x1024, .f32⟩ : BufTy).Contents (Elt F)),
    StableHlo.binary main_v71 main_v72 main_v73 (addf : (⟨S8192x2x1024, .f32⟩ : BufTy).Contents (Elt F) → (⟨S8192x2x1024, .f32⟩ : BufTy).Contents (Elt F) → (⟨S8192x2x1024, .f32⟩ : BufTy).Contents (Elt F)),
    StableHlo.binary main_v71 main_v72 main_v74 (subf : (⟨S8192x2x1024, .f32⟩ : BufTy).Contents (Elt F) → (⟨S8192x2x1024, .f32⟩ : BufTy).Contents (Elt F) → (⟨S8192x2x1024, .f32⟩ : BufTy).Contents (Elt F)),
    StableHlo.binary main_v73 main_v74 main_v75 ((fun a b => concatenate S8192x2x2048 2 [⟨S8192x2x1024, a⟩, ⟨S8192x2x1024, b⟩] concatenates_S8192x2x1024_S8192x2x1024_S8192x2x2048_d2) : (⟨S8192x2x1024, .f32⟩ : BufTy).Contents (Elt F) → (⟨S8192x2x1024, .f32⟩ : BufTy).Contents (Elt F) → (⟨S8192x2x2048, .f32⟩ : BufTy).Contents (Elt F)),
    StableHlo.reshape main_v75 main_v76 rfl shapeCasts_S8192x2x2048_S8192x4096 ]

/-- Butterfly stage 11 (pairs at distance 2048). -/
def chunk11 : List (HloOp τ sig (Elt F)) :=
  [ StableHlo.reshape main_v76 main_v77 rfl shapeCasts_S8192x4096_S8192x1x4096,
    StableHlo.unary main_v77 main_v78 ((extractStridedSlice S8192x1x2048 ![0, 0, 0] · slices_S8192x1x4096_S8192x1x2048_0_0_0) : (⟨S8192x1x4096, .f32⟩ : BufTy).Contents (Elt F) → (⟨S8192x1x2048, .f32⟩ : BufTy).Contents (Elt F)),
    StableHlo.unary main_v77 main_v79 ((extractStridedSlice S8192x1x2048 ![0, 0, 2048] · slices_S8192x1x4096_S8192x1x2048_0_0_2048) : (⟨S8192x1x4096, .f32⟩ : BufTy).Contents (Elt F) → (⟨S8192x1x2048, .f32⟩ : BufTy).Contents (Elt F)),
    StableHlo.binary main_v78 main_v79 main_v80 (addf : (⟨S8192x1x2048, .f32⟩ : BufTy).Contents (Elt F) → (⟨S8192x1x2048, .f32⟩ : BufTy).Contents (Elt F) → (⟨S8192x1x2048, .f32⟩ : BufTy).Contents (Elt F)),
    StableHlo.binary main_v78 main_v79 main_v81 (subf : (⟨S8192x1x2048, .f32⟩ : BufTy).Contents (Elt F) → (⟨S8192x1x2048, .f32⟩ : BufTy).Contents (Elt F) → (⟨S8192x1x2048, .f32⟩ : BufTy).Contents (Elt F)),
    StableHlo.binary main_v80 main_v81 main_v82 ((fun a b => concatenate S8192x1x4096 2 [⟨S8192x1x2048, a⟩, ⟨S8192x1x2048, b⟩] concatenates_S8192x1x2048_S8192x1x2048_S8192x1x4096_d2) : (⟨S8192x1x2048, .f32⟩ : BufTy).Contents (Elt F) → (⟨S8192x1x2048, .f32⟩ : BufTy).Contents (Elt F) → (⟨S8192x1x4096, .f32⟩ : BufTy).Contents (Elt F)),
    StableHlo.reshape main_v82 main_v83 rfl shapeCasts_S8192x1x4096_S8192x4096 ]

/-- The twelve stages' 84 operations. -/
def stages : List (HloOp τ sig (Elt F)) :=
  [ StableHlo.reshape main_arg0 main_v0 rfl shapeCasts_S8192x4096_S8192x2048x2,
    StableHlo.unary main_v0 main_v1 ((extractStridedSlice S8192x2048x1 ![0, 0, 0] · slices_S8192x2048x2_S8192x2048x1_0_0_0) : (⟨S8192x2048x2, .f32⟩ : BufTy).Contents (Elt F) → (⟨S8192x2048x1, .f32⟩ : BufTy).Contents (Elt F)),
    StableHlo.unary main_v0 main_v2 ((extractStridedSlice S8192x2048x1 ![0, 0, 1] · slices_S8192x2048x2_S8192x2048x1_0_0_1) : (⟨S8192x2048x2, .f32⟩ : BufTy).Contents (Elt F) → (⟨S8192x2048x1, .f32⟩ : BufTy).Contents (Elt F)),
    StableHlo.binary main_v1 main_v2 main_v3 (addf : (⟨S8192x2048x1, .f32⟩ : BufTy).Contents (Elt F) → (⟨S8192x2048x1, .f32⟩ : BufTy).Contents (Elt F) → (⟨S8192x2048x1, .f32⟩ : BufTy).Contents (Elt F)),
    StableHlo.binary main_v1 main_v2 main_v4 (subf : (⟨S8192x2048x1, .f32⟩ : BufTy).Contents (Elt F) → (⟨S8192x2048x1, .f32⟩ : BufTy).Contents (Elt F) → (⟨S8192x2048x1, .f32⟩ : BufTy).Contents (Elt F)),
    StableHlo.binary main_v3 main_v4 main_v5 ((fun a b => concatenate S8192x2048x2 2 [⟨S8192x2048x1, a⟩, ⟨S8192x2048x1, b⟩] concatenates_S8192x2048x1_S8192x2048x1_S8192x2048x2_d2) : (⟨S8192x2048x1, .f32⟩ : BufTy).Contents (Elt F) → (⟨S8192x2048x1, .f32⟩ : BufTy).Contents (Elt F) → (⟨S8192x2048x2, .f32⟩ : BufTy).Contents (Elt F)),
    StableHlo.reshape main_v5 main_v6 rfl shapeCasts_S8192x2048x2_S8192x4096,
    StableHlo.reshape main_v6 main_v7 rfl shapeCasts_S8192x4096_S8192x1024x4,
    StableHlo.unary main_v7 main_v8 ((extractStridedSlice S8192x1024x2 ![0, 0, 0] · slices_S8192x1024x4_S8192x1024x2_0_0_0) : (⟨S8192x1024x4, .f32⟩ : BufTy).Contents (Elt F) → (⟨S8192x1024x2, .f32⟩ : BufTy).Contents (Elt F)),
    StableHlo.unary main_v7 main_v9 ((extractStridedSlice S8192x1024x2 ![0, 0, 2] · slices_S8192x1024x4_S8192x1024x2_0_0_2) : (⟨S8192x1024x4, .f32⟩ : BufTy).Contents (Elt F) → (⟨S8192x1024x2, .f32⟩ : BufTy).Contents (Elt F)),
    StableHlo.binary main_v8 main_v9 main_v10 (addf : (⟨S8192x1024x2, .f32⟩ : BufTy).Contents (Elt F) → (⟨S8192x1024x2, .f32⟩ : BufTy).Contents (Elt F) → (⟨S8192x1024x2, .f32⟩ : BufTy).Contents (Elt F)),
    StableHlo.binary main_v8 main_v9 main_v11 (subf : (⟨S8192x1024x2, .f32⟩ : BufTy).Contents (Elt F) → (⟨S8192x1024x2, .f32⟩ : BufTy).Contents (Elt F) → (⟨S8192x1024x2, .f32⟩ : BufTy).Contents (Elt F)),
    StableHlo.binary main_v10 main_v11 main_v12 ((fun a b => concatenate S8192x1024x4 2 [⟨S8192x1024x2, a⟩, ⟨S8192x1024x2, b⟩] concatenates_S8192x1024x2_S8192x1024x2_S8192x1024x4_d2) : (⟨S8192x1024x2, .f32⟩ : BufTy).Contents (Elt F) → (⟨S8192x1024x2, .f32⟩ : BufTy).Contents (Elt F) → (⟨S8192x1024x4, .f32⟩ : BufTy).Contents (Elt F)),
    StableHlo.reshape main_v12 main_v13 rfl shapeCasts_S8192x1024x4_S8192x4096,
    StableHlo.reshape main_v13 main_v14 rfl shapeCasts_S8192x4096_S8192x512x8,
    StableHlo.unary main_v14 main_v15 ((extractStridedSlice S8192x512x4 ![0, 0, 0] · slices_S8192x512x8_S8192x512x4_0_0_0) : (⟨S8192x512x8, .f32⟩ : BufTy).Contents (Elt F) → (⟨S8192x512x4, .f32⟩ : BufTy).Contents (Elt F)),
    StableHlo.unary main_v14 main_v16 ((extractStridedSlice S8192x512x4 ![0, 0, 4] · slices_S8192x512x8_S8192x512x4_0_0_4) : (⟨S8192x512x8, .f32⟩ : BufTy).Contents (Elt F) → (⟨S8192x512x4, .f32⟩ : BufTy).Contents (Elt F)),
    StableHlo.binary main_v15 main_v16 main_v17 (addf : (⟨S8192x512x4, .f32⟩ : BufTy).Contents (Elt F) → (⟨S8192x512x4, .f32⟩ : BufTy).Contents (Elt F) → (⟨S8192x512x4, .f32⟩ : BufTy).Contents (Elt F)),
    StableHlo.binary main_v15 main_v16 main_v18 (subf : (⟨S8192x512x4, .f32⟩ : BufTy).Contents (Elt F) → (⟨S8192x512x4, .f32⟩ : BufTy).Contents (Elt F) → (⟨S8192x512x4, .f32⟩ : BufTy).Contents (Elt F)),
    StableHlo.binary main_v17 main_v18 main_v19 ((fun a b => concatenate S8192x512x8 2 [⟨S8192x512x4, a⟩, ⟨S8192x512x4, b⟩] concatenates_S8192x512x4_S8192x512x4_S8192x512x8_d2) : (⟨S8192x512x4, .f32⟩ : BufTy).Contents (Elt F) → (⟨S8192x512x4, .f32⟩ : BufTy).Contents (Elt F) → (⟨S8192x512x8, .f32⟩ : BufTy).Contents (Elt F)),
    StableHlo.reshape main_v19 main_v20 rfl shapeCasts_S8192x512x8_S8192x4096,
    StableHlo.reshape main_v20 main_v21 rfl shapeCasts_S8192x4096_S8192x256x16,
    StableHlo.unary main_v21 main_v22 ((extractStridedSlice S8192x256x8 ![0, 0, 0] · slices_S8192x256x16_S8192x256x8_0_0_0) : (⟨S8192x256x16, .f32⟩ : BufTy).Contents (Elt F) → (⟨S8192x256x8, .f32⟩ : BufTy).Contents (Elt F)),
    StableHlo.unary main_v21 main_v23 ((extractStridedSlice S8192x256x8 ![0, 0, 8] · slices_S8192x256x16_S8192x256x8_0_0_8) : (⟨S8192x256x16, .f32⟩ : BufTy).Contents (Elt F) → (⟨S8192x256x8, .f32⟩ : BufTy).Contents (Elt F)),
    StableHlo.binary main_v22 main_v23 main_v24 (addf : (⟨S8192x256x8, .f32⟩ : BufTy).Contents (Elt F) → (⟨S8192x256x8, .f32⟩ : BufTy).Contents (Elt F) → (⟨S8192x256x8, .f32⟩ : BufTy).Contents (Elt F)),
    StableHlo.binary main_v22 main_v23 main_v25 (subf : (⟨S8192x256x8, .f32⟩ : BufTy).Contents (Elt F) → (⟨S8192x256x8, .f32⟩ : BufTy).Contents (Elt F) → (⟨S8192x256x8, .f32⟩ : BufTy).Contents (Elt F)),
    StableHlo.binary main_v24 main_v25 main_v26 ((fun a b => concatenate S8192x256x16 2 [⟨S8192x256x8, a⟩, ⟨S8192x256x8, b⟩] concatenates_S8192x256x8_S8192x256x8_S8192x256x16_d2) : (⟨S8192x256x8, .f32⟩ : BufTy).Contents (Elt F) → (⟨S8192x256x8, .f32⟩ : BufTy).Contents (Elt F) → (⟨S8192x256x16, .f32⟩ : BufTy).Contents (Elt F)),
    StableHlo.reshape main_v26 main_v27 rfl shapeCasts_S8192x256x16_S8192x4096,
    StableHlo.reshape main_v27 main_v28 rfl shapeCasts_S8192x4096_S8192x128x32,
    StableHlo.unary main_v28 main_v29 ((extractStridedSlice S8192x128x16 ![0, 0, 0] · slices_S8192x128x32_S8192x128x16_0_0_0) : (⟨S8192x128x32, .f32⟩ : BufTy).Contents (Elt F) → (⟨S8192x128x16, .f32⟩ : BufTy).Contents (Elt F)),
    StableHlo.unary main_v28 main_v30 ((extractStridedSlice S8192x128x16 ![0, 0, 16] · slices_S8192x128x32_S8192x128x16_0_0_16) : (⟨S8192x128x32, .f32⟩ : BufTy).Contents (Elt F) → (⟨S8192x128x16, .f32⟩ : BufTy).Contents (Elt F)),
    StableHlo.binary main_v29 main_v30 main_v31 (addf : (⟨S8192x128x16, .f32⟩ : BufTy).Contents (Elt F) → (⟨S8192x128x16, .f32⟩ : BufTy).Contents (Elt F) → (⟨S8192x128x16, .f32⟩ : BufTy).Contents (Elt F)),
    StableHlo.binary main_v29 main_v30 main_v32 (subf : (⟨S8192x128x16, .f32⟩ : BufTy).Contents (Elt F) → (⟨S8192x128x16, .f32⟩ : BufTy).Contents (Elt F) → (⟨S8192x128x16, .f32⟩ : BufTy).Contents (Elt F)),
    StableHlo.binary main_v31 main_v32 main_v33 ((fun a b => concatenate S8192x128x32 2 [⟨S8192x128x16, a⟩, ⟨S8192x128x16, b⟩] concatenates_S8192x128x16_S8192x128x16_S8192x128x32_d2) : (⟨S8192x128x16, .f32⟩ : BufTy).Contents (Elt F) → (⟨S8192x128x16, .f32⟩ : BufTy).Contents (Elt F) → (⟨S8192x128x32, .f32⟩ : BufTy).Contents (Elt F)),
    StableHlo.reshape main_v33 main_v34 rfl shapeCasts_S8192x128x32_S8192x4096,
    StableHlo.reshape main_v34 main_v35 rfl shapeCasts_S8192x4096_S8192x64x64,
    StableHlo.unary main_v35 main_v36 ((extractStridedSlice S8192x64x32 ![0, 0, 0] · slices_S8192x64x64_S8192x64x32_0_0_0) : (⟨S8192x64x64, .f32⟩ : BufTy).Contents (Elt F) → (⟨S8192x64x32, .f32⟩ : BufTy).Contents (Elt F)),
    StableHlo.unary main_v35 main_v37 ((extractStridedSlice S8192x64x32 ![0, 0, 32] · slices_S8192x64x64_S8192x64x32_0_0_32) : (⟨S8192x64x64, .f32⟩ : BufTy).Contents (Elt F) → (⟨S8192x64x32, .f32⟩ : BufTy).Contents (Elt F)),
    StableHlo.binary main_v36 main_v37 main_v38 (addf : (⟨S8192x64x32, .f32⟩ : BufTy).Contents (Elt F) → (⟨S8192x64x32, .f32⟩ : BufTy).Contents (Elt F) → (⟨S8192x64x32, .f32⟩ : BufTy).Contents (Elt F)),
    StableHlo.binary main_v36 main_v37 main_v39 (subf : (⟨S8192x64x32, .f32⟩ : BufTy).Contents (Elt F) → (⟨S8192x64x32, .f32⟩ : BufTy).Contents (Elt F) → (⟨S8192x64x32, .f32⟩ : BufTy).Contents (Elt F)),
    StableHlo.binary main_v38 main_v39 main_v40 ((fun a b => concatenate S8192x64x64 2 [⟨S8192x64x32, a⟩, ⟨S8192x64x32, b⟩] concatenates_S8192x64x32_S8192x64x32_S8192x64x64_d2) : (⟨S8192x64x32, .f32⟩ : BufTy).Contents (Elt F) → (⟨S8192x64x32, .f32⟩ : BufTy).Contents (Elt F) → (⟨S8192x64x64, .f32⟩ : BufTy).Contents (Elt F)),
    StableHlo.reshape main_v40 main_v41 rfl shapeCasts_S8192x64x64_S8192x4096,
    StableHlo.reshape main_v41 main_v42 rfl shapeCasts_S8192x4096_S8192x32x128,
    StableHlo.unary main_v42 main_v43 ((extractStridedSlice S8192x32x64 ![0, 0, 0] · slices_S8192x32x128_S8192x32x64_0_0_0) : (⟨S8192x32x128, .f32⟩ : BufTy).Contents (Elt F) → (⟨S8192x32x64, .f32⟩ : BufTy).Contents (Elt F)),
    StableHlo.unary main_v42 main_v44 ((extractStridedSlice S8192x32x64 ![0, 0, 64] · slices_S8192x32x128_S8192x32x64_0_0_64) : (⟨S8192x32x128, .f32⟩ : BufTy).Contents (Elt F) → (⟨S8192x32x64, .f32⟩ : BufTy).Contents (Elt F)),
    StableHlo.binary main_v43 main_v44 main_v45 (addf : (⟨S8192x32x64, .f32⟩ : BufTy).Contents (Elt F) → (⟨S8192x32x64, .f32⟩ : BufTy).Contents (Elt F) → (⟨S8192x32x64, .f32⟩ : BufTy).Contents (Elt F)),
    StableHlo.binary main_v43 main_v44 main_v46 (subf : (⟨S8192x32x64, .f32⟩ : BufTy).Contents (Elt F) → (⟨S8192x32x64, .f32⟩ : BufTy).Contents (Elt F) → (⟨S8192x32x64, .f32⟩ : BufTy).Contents (Elt F)),
    StableHlo.binary main_v45 main_v46 main_v47 ((fun a b => concatenate S8192x32x128 2 [⟨S8192x32x64, a⟩, ⟨S8192x32x64, b⟩] concatenates_S8192x32x64_S8192x32x64_S8192x32x128_d2) : (⟨S8192x32x64, .f32⟩ : BufTy).Contents (Elt F) → (⟨S8192x32x64, .f32⟩ : BufTy).Contents (Elt F) → (⟨S8192x32x128, .f32⟩ : BufTy).Contents (Elt F)),
    StableHlo.reshape main_v47 main_v48 rfl shapeCasts_S8192x32x128_S8192x4096,
    StableHlo.reshape main_v48 main_v49 rfl shapeCasts_S8192x4096_S8192x16x256,
    StableHlo.unary main_v49 main_v50 ((extractStridedSlice S8192x16x128 ![0, 0, 0] · slices_S8192x16x256_S8192x16x128_0_0_0) : (⟨S8192x16x256, .f32⟩ : BufTy).Contents (Elt F) → (⟨S8192x16x128, .f32⟩ : BufTy).Contents (Elt F)),
    StableHlo.unary main_v49 main_v51 ((extractStridedSlice S8192x16x128 ![0, 0, 128] · slices_S8192x16x256_S8192x16x128_0_0_128) : (⟨S8192x16x256, .f32⟩ : BufTy).Contents (Elt F) → (⟨S8192x16x128, .f32⟩ : BufTy).Contents (Elt F)),
    StableHlo.binary main_v50 main_v51 main_v52 (addf : (⟨S8192x16x128, .f32⟩ : BufTy).Contents (Elt F) → (⟨S8192x16x128, .f32⟩ : BufTy).Contents (Elt F) → (⟨S8192x16x128, .f32⟩ : BufTy).Contents (Elt F)),
    StableHlo.binary main_v50 main_v51 main_v53 (subf : (⟨S8192x16x128, .f32⟩ : BufTy).Contents (Elt F) → (⟨S8192x16x128, .f32⟩ : BufTy).Contents (Elt F) → (⟨S8192x16x128, .f32⟩ : BufTy).Contents (Elt F)),
    StableHlo.binary main_v52 main_v53 main_v54 ((fun a b => concatenate S8192x16x256 2 [⟨S8192x16x128, a⟩, ⟨S8192x16x128, b⟩] concatenates_S8192x16x128_S8192x16x128_S8192x16x256_d2) : (⟨S8192x16x128, .f32⟩ : BufTy).Contents (Elt F) → (⟨S8192x16x128, .f32⟩ : BufTy).Contents (Elt F) → (⟨S8192x16x256, .f32⟩ : BufTy).Contents (Elt F)),
    StableHlo.reshape main_v54 main_v55 rfl shapeCasts_S8192x16x256_S8192x4096,
    StableHlo.reshape main_v55 main_v56 rfl shapeCasts_S8192x4096_S8192x8x512,
    StableHlo.unary main_v56 main_v57 ((extractStridedSlice S8192x8x256 ![0, 0, 0] · slices_S8192x8x512_S8192x8x256_0_0_0) : (⟨S8192x8x512, .f32⟩ : BufTy).Contents (Elt F) → (⟨S8192x8x256, .f32⟩ : BufTy).Contents (Elt F)),
    StableHlo.unary main_v56 main_v58 ((extractStridedSlice S8192x8x256 ![0, 0, 256] · slices_S8192x8x512_S8192x8x256_0_0_256) : (⟨S8192x8x512, .f32⟩ : BufTy).Contents (Elt F) → (⟨S8192x8x256, .f32⟩ : BufTy).Contents (Elt F)),
    StableHlo.binary main_v57 main_v58 main_v59 (addf : (⟨S8192x8x256, .f32⟩ : BufTy).Contents (Elt F) → (⟨S8192x8x256, .f32⟩ : BufTy).Contents (Elt F) → (⟨S8192x8x256, .f32⟩ : BufTy).Contents (Elt F)),
    StableHlo.binary main_v57 main_v58 main_v60 (subf : (⟨S8192x8x256, .f32⟩ : BufTy).Contents (Elt F) → (⟨S8192x8x256, .f32⟩ : BufTy).Contents (Elt F) → (⟨S8192x8x256, .f32⟩ : BufTy).Contents (Elt F)),
    StableHlo.binary main_v59 main_v60 main_v61 ((fun a b => concatenate S8192x8x512 2 [⟨S8192x8x256, a⟩, ⟨S8192x8x256, b⟩] concatenates_S8192x8x256_S8192x8x256_S8192x8x512_d2) : (⟨S8192x8x256, .f32⟩ : BufTy).Contents (Elt F) → (⟨S8192x8x256, .f32⟩ : BufTy).Contents (Elt F) → (⟨S8192x8x512, .f32⟩ : BufTy).Contents (Elt F)),
    StableHlo.reshape main_v61 main_v62 rfl shapeCasts_S8192x8x512_S8192x4096,
    StableHlo.reshape main_v62 main_v63 rfl shapeCasts_S8192x4096_S8192x4x1024,
    StableHlo.unary main_v63 main_v64 ((extractStridedSlice S8192x4x512 ![0, 0, 0] · slices_S8192x4x1024_S8192x4x512_0_0_0) : (⟨S8192x4x1024, .f32⟩ : BufTy).Contents (Elt F) → (⟨S8192x4x512, .f32⟩ : BufTy).Contents (Elt F)),
    StableHlo.unary main_v63 main_v65 ((extractStridedSlice S8192x4x512 ![0, 0, 512] · slices_S8192x4x1024_S8192x4x512_0_0_512) : (⟨S8192x4x1024, .f32⟩ : BufTy).Contents (Elt F) → (⟨S8192x4x512, .f32⟩ : BufTy).Contents (Elt F)),
    StableHlo.binary main_v64 main_v65 main_v66 (addf : (⟨S8192x4x512, .f32⟩ : BufTy).Contents (Elt F) → (⟨S8192x4x512, .f32⟩ : BufTy).Contents (Elt F) → (⟨S8192x4x512, .f32⟩ : BufTy).Contents (Elt F)),
    StableHlo.binary main_v64 main_v65 main_v67 (subf : (⟨S8192x4x512, .f32⟩ : BufTy).Contents (Elt F) → (⟨S8192x4x512, .f32⟩ : BufTy).Contents (Elt F) → (⟨S8192x4x512, .f32⟩ : BufTy).Contents (Elt F)),
    StableHlo.binary main_v66 main_v67 main_v68 ((fun a b => concatenate S8192x4x1024 2 [⟨S8192x4x512, a⟩, ⟨S8192x4x512, b⟩] concatenates_S8192x4x512_S8192x4x512_S8192x4x1024_d2) : (⟨S8192x4x512, .f32⟩ : BufTy).Contents (Elt F) → (⟨S8192x4x512, .f32⟩ : BufTy).Contents (Elt F) → (⟨S8192x4x1024, .f32⟩ : BufTy).Contents (Elt F)),
    StableHlo.reshape main_v68 main_v69 rfl shapeCasts_S8192x4x1024_S8192x4096,
    StableHlo.reshape main_v69 main_v70 rfl shapeCasts_S8192x4096_S8192x2x2048,
    StableHlo.unary main_v70 main_v71 ((extractStridedSlice S8192x2x1024 ![0, 0, 0] · slices_S8192x2x2048_S8192x2x1024_0_0_0) : (⟨S8192x2x2048, .f32⟩ : BufTy).Contents (Elt F) → (⟨S8192x2x1024, .f32⟩ : BufTy).Contents (Elt F)),
    StableHlo.unary main_v70 main_v72 ((extractStridedSlice S8192x2x1024 ![0, 0, 1024] · slices_S8192x2x2048_S8192x2x1024_0_0_1024) : (⟨S8192x2x2048, .f32⟩ : BufTy).Contents (Elt F) → (⟨S8192x2x1024, .f32⟩ : BufTy).Contents (Elt F)),
    StableHlo.binary main_v71 main_v72 main_v73 (addf : (⟨S8192x2x1024, .f32⟩ : BufTy).Contents (Elt F) → (⟨S8192x2x1024, .f32⟩ : BufTy).Contents (Elt F) → (⟨S8192x2x1024, .f32⟩ : BufTy).Contents (Elt F)),
    StableHlo.binary main_v71 main_v72 main_v74 (subf : (⟨S8192x2x1024, .f32⟩ : BufTy).Contents (Elt F) → (⟨S8192x2x1024, .f32⟩ : BufTy).Contents (Elt F) → (⟨S8192x2x1024, .f32⟩ : BufTy).Contents (Elt F)),
    StableHlo.binary main_v73 main_v74 main_v75 ((fun a b => concatenate S8192x2x2048 2 [⟨S8192x2x1024, a⟩, ⟨S8192x2x1024, b⟩] concatenates_S8192x2x1024_S8192x2x1024_S8192x2x2048_d2) : (⟨S8192x2x1024, .f32⟩ : BufTy).Contents (Elt F) → (⟨S8192x2x1024, .f32⟩ : BufTy).Contents (Elt F) → (⟨S8192x2x2048, .f32⟩ : BufTy).Contents (Elt F)),
    StableHlo.reshape main_v75 main_v76 rfl shapeCasts_S8192x2x2048_S8192x4096,
    StableHlo.reshape main_v76 main_v77 rfl shapeCasts_S8192x4096_S8192x1x4096,
    StableHlo.unary main_v77 main_v78 ((extractStridedSlice S8192x1x2048 ![0, 0, 0] · slices_S8192x1x4096_S8192x1x2048_0_0_0) : (⟨S8192x1x4096, .f32⟩ : BufTy).Contents (Elt F) → (⟨S8192x1x2048, .f32⟩ : BufTy).Contents (Elt F)),
    StableHlo.unary main_v77 main_v79 ((extractStridedSlice S8192x1x2048 ![0, 0, 2048] · slices_S8192x1x4096_S8192x1x2048_0_0_2048) : (⟨S8192x1x4096, .f32⟩ : BufTy).Contents (Elt F) → (⟨S8192x1x2048, .f32⟩ : BufTy).Contents (Elt F)),
    StableHlo.binary main_v78 main_v79 main_v80 (addf : (⟨S8192x1x2048, .f32⟩ : BufTy).Contents (Elt F) → (⟨S8192x1x2048, .f32⟩ : BufTy).Contents (Elt F) → (⟨S8192x1x2048, .f32⟩ : BufTy).Contents (Elt F)),
    StableHlo.binary main_v78 main_v79 main_v81 (subf : (⟨S8192x1x2048, .f32⟩ : BufTy).Contents (Elt F) → (⟨S8192x1x2048, .f32⟩ : BufTy).Contents (Elt F) → (⟨S8192x1x2048, .f32⟩ : BufTy).Contents (Elt F)),
    StableHlo.binary main_v80 main_v81 main_v82 ((fun a b => concatenate S8192x1x4096 2 [⟨S8192x1x2048, a⟩, ⟨S8192x1x2048, b⟩] concatenates_S8192x1x2048_S8192x1x2048_S8192x1x4096_d2) : (⟨S8192x1x2048, .f32⟩ : BufTy).Contents (Elt F) → (⟨S8192x1x2048, .f32⟩ : BufTy).Contents (Elt F) → (⟨S8192x1x4096, .f32⟩ : BufTy).Contents (Elt F)),
    StableHlo.reshape main_v82 main_v83 rfl shapeCasts_S8192x1x4096_S8192x4096 ]

/-- Divide by 64; dequantise and transpose the weights; contract; add the bias. -/
def post : List (HloOp τ sig (Elt F)) :=
  [ StableHlo.nullary main_cst (constant S_ .f32 0x42800000#32),
    StableHlo.unary main_cst main_v84 (broadcastInDim S8192x4096 ![] bcast_S_S8192x4096 : (⟨S_, .f32⟩ : BufTy).Contents (Elt F) → (⟨S8192x4096, .f32⟩ : BufTy).Contents (Elt F)),
    StableHlo.binary main_v83 main_v84 main_v85 (Host.divf : (⟨S8192x4096, .f32⟩ : BufTy).Contents (Elt F) → (⟨S8192x4096, .f32⟩ : BufTy).Contents (Elt F) → (⟨S8192x4096, .f32⟩ : BufTy).Contents (Elt F)),
    StableHlo.unary main_arg1 main_v86 (sitofp .f32 : (⟨S4096x4096, .i32⟩ : BufTy).Contents (Elt F) → (⟨S4096x4096, .f32⟩ : BufTy).Contents (Elt F)),
    StableHlo.unary main_arg2 main_v87 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v86 main_v87 main_v88 (mulf : (⟨S4096x4096, .f32⟩ : BufTy).Contents (Elt F) → (⟨S4096x4096, .f32⟩ : BufTy).Contents (Elt F) → (⟨S4096x4096, .f32⟩ : BufTy).Contents (Elt F)),
    StableHlo.unary main_v88 main_v89 ((transpose S4096x4096 [1, 0] · transposes_S4096x4096_S4096x4096_1_0) : (⟨S4096x4096, .f32⟩ : BufTy).Contents (Elt F) → (⟨S4096x4096, .f32⟩ : BufTy).Contents (Elt F)),
    StableHlo.binary main_v85 main_v89 main_v90 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg3 main_v91 (broadcastInDim S1x4096 ![1] bcast_S4096_S1x4096_1 : (⟨S4096, .f32⟩ : BufTy).Contents (Elt F) → (⟨S1x4096, .f32⟩ : BufTy).Contents (Elt F)),
    StableHlo.unary main_v91 main_v92 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v90 main_v92 main_v93 (addf : (⟨S8192x4096, .f32⟩ : BufTy).Contents (Elt F) → (⟨S8192x4096, .f32⟩ : BufTy).Contents (Elt F) → (⟨S8192x4096, .f32⟩ : BufTy).Contents (Elt F)) ]

/-- The whole list is the stages then the rest. -/
theorem split : (ops : List (HloOp τ sig (Elt F))) = stages ++ post := rfl
/-- The stages' list is the stages one after the other. -/
theorem stages_split : (stages : List (HloOp τ sig (Elt F))) = chunk0 ++ chunk1 ++ chunk2 ++ chunk3 ++ chunk4 ++ chunk5 ++ chunk6 ++ chunk7 ++ chunk8 ++ chunk9 ++ chunk10 ++ chunk11 := rfl

set_option maxHeartbeats 4000000 in
/-- @main is the list run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/-- Every operation touches TensorCore buffers only. -/
theorem ops_sub : (ops : List (HloOp τ sig (Elt F))).Forall fun op => op.bufs ⊆ tcRefs τ sig :=
  ⟨reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub ..⟩

/-- Stage 0's operations take the array in main_arg0 to the stage's function of it, in main_v6. -/
theorem chunk0_eq (W : Valuation τ sig (Elt Ideal)) :
    after (chunk0 (F := Ideal)) W (Proc.devRef .tc main_v6) = Cert.ReferenceIdeal.Stages.st0 (W (Proc.devRef .tc main_arg0)) := by
  unfold chunk0
  after_results_simp <;> rfl

/-- Stage 1's operations take the array in main_v6 to the stage's function of it, in main_v13. -/
theorem chunk1_eq (W : Valuation τ sig (Elt Ideal)) :
    after (chunk1 (F := Ideal)) W (Proc.devRef .tc main_v13) = Cert.ReferenceIdeal.Stages.st1 (W (Proc.devRef .tc main_v6)) := by
  unfold chunk1
  after_results_simp <;> rfl

/-- Stage 2's operations take the array in main_v13 to the stage's function of it, in main_v20. -/
theorem chunk2_eq (W : Valuation τ sig (Elt Ideal)) :
    after (chunk2 (F := Ideal)) W (Proc.devRef .tc main_v20) = Cert.ReferenceIdeal.Stages.st2 (W (Proc.devRef .tc main_v13)) := by
  unfold chunk2
  after_results_simp <;> rfl

/-- Stage 3's operations take the array in main_v20 to the stage's function of it, in main_v27. -/
theorem chunk3_eq (W : Valuation τ sig (Elt Ideal)) :
    after (chunk3 (F := Ideal)) W (Proc.devRef .tc main_v27) = Cert.ReferenceIdeal.Stages.st3 (W (Proc.devRef .tc main_v20)) := by
  unfold chunk3
  after_results_simp <;> rfl

/-- Stage 4's operations take the array in main_v27 to the stage's function of it, in main_v34. -/
theorem chunk4_eq (W : Valuation τ sig (Elt Ideal)) :
    after (chunk4 (F := Ideal)) W (Proc.devRef .tc main_v34) = Cert.ReferenceIdeal.Stages.st4 (W (Proc.devRef .tc main_v27)) := by
  unfold chunk4
  after_results_simp <;> rfl

/-- Stage 5's operations take the array in main_v34 to the stage's function of it, in main_v41. -/
theorem chunk5_eq (W : Valuation τ sig (Elt Ideal)) :
    after (chunk5 (F := Ideal)) W (Proc.devRef .tc main_v41) = Cert.ReferenceIdeal.Stages.st5 (W (Proc.devRef .tc main_v34)) := by
  unfold chunk5
  after_results_simp <;> rfl

/-- Stage 6's operations take the array in main_v41 to the stage's function of it, in main_v48. -/
theorem chunk6_eq (W : Valuation τ sig (Elt Ideal)) :
    after (chunk6 (F := Ideal)) W (Proc.devRef .tc main_v48) = Cert.ReferenceIdeal.Stages.st6 (W (Proc.devRef .tc main_v41)) := by
  unfold chunk6
  after_results_simp <;> rfl

/-- Stage 7's operations take the array in main_v48 to the stage's function of it, in main_v55. -/
theorem chunk7_eq (W : Valuation τ sig (Elt Ideal)) :
    after (chunk7 (F := Ideal)) W (Proc.devRef .tc main_v55) = Cert.ReferenceIdeal.Stages.st7 (W (Proc.devRef .tc main_v48)) := by
  unfold chunk7
  after_results_simp <;> rfl

/-- Stage 8's operations take the array in main_v55 to the stage's function of it, in main_v62. -/
theorem chunk8_eq (W : Valuation τ sig (Elt Ideal)) :
    after (chunk8 (F := Ideal)) W (Proc.devRef .tc main_v62) = Cert.ReferenceIdeal.Stages.st8 (W (Proc.devRef .tc main_v55)) := by
  unfold chunk8
  after_results_simp <;> rfl

/-- Stage 9's operations take the array in main_v62 to the stage's function of it, in main_v69. -/
theorem chunk9_eq (W : Valuation τ sig (Elt Ideal)) :
    after (chunk9 (F := Ideal)) W (Proc.devRef .tc main_v69) = Cert.ReferenceIdeal.Stages.st9 (W (Proc.devRef .tc main_v62)) := by
  unfold chunk9
  after_results_simp <;> rfl

/-- Stage 10's operations take the array in main_v69 to the stage's function of it, in main_v76. -/
theorem chunk10_eq (W : Valuation τ sig (Elt Ideal)) :
    after (chunk10 (F := Ideal)) W (Proc.devRef .tc main_v76) = Cert.ReferenceIdeal.Stages.st10 (W (Proc.devRef .tc main_v69)) := by
  unfold chunk10
  after_results_simp <;> rfl

/-- Stage 11's operations take the array in main_v76 to the stage's function of it, in main_v83. -/
theorem chunk11_eq (W : Valuation τ sig (Elt Ideal)) :
    after (chunk11 (F := Ideal)) W (Proc.devRef .tc main_v83) = Cert.ReferenceIdeal.Stages.st11 (W (Proc.devRef .tc main_v76)) := by
  unfold chunk11
  after_results_simp <;> rfl

/-- The stages do not write main_arg1. -/
theorem stages_kept1 (W : Valuation τ sig (Elt Ideal)) : after (stages (F := Ideal)) W (Proc.devRef .tc main_arg1) = W (Proc.devRef .tc main_arg1) := by
  unfold stages
  after_results_simp <;> rfl

/-- The stages do not write main_arg2. -/
theorem stages_kept2 (W : Valuation τ sig (Elt Ideal)) : after (stages (F := Ideal)) W (Proc.devRef .tc main_arg2) = W (Proc.devRef .tc main_arg2) := by
  unfold stages
  after_results_simp <;> rfl

/-- The stages do not write main_arg3. -/
theorem stages_kept3 (W : Valuation τ sig (Elt Ideal)) : after (stages (F := Ideal)) W (Proc.devRef .tc main_arg3) = W (Proc.devRef .tc main_arg3) := by
  unfold stages
  after_results_simp <;> rfl

/-- Every weakly fair execution of @main terminates with each buffer at the contents after the whole list, from the
    launch contents. -/
theorem run_after (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after (ops (F := Ideal)) (launchContents m d) (Proc.devRef .tc b) :=
  run_seq scopedRefs_eq scopedSems_eq defs main (fun _ => ops) main_eq (fun _ => ops_sub) m ρ

end Cert.ReferenceIdeal.RefRun

end
-- ==== Proof.RefValue.lean ====
/-
  The reference's result as a function of its arguments, and that function read at an index.

  The reference runs the twelve butterfly stages along every row of `x`, divides by 64 = √4096, contracts the result with
  the dequantised weights `W[o, k] = float(Q[o, k]) · s[o]` (through their transpose) and adds the bias:
  entry `(t, o)` is the sum over `k` of (the twelve-stage transform of row `t` of `x`, at `k`, over 64) times
  `W[o, k]`, plus `bias[o]`.
-/
import proofs.«123800_j88441966559314_2_alg».proof.Proof.RefRun
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Facts₀ Cert.ReferenceIdeal.Stages
open Idealize.ShloMosaic Idealize.ShloMosaic.TcCoe Idealize.ShloMosaic.ValueIdx Idealize.ShloMosaic.StableHlo Idealize.SL.Sem

/-- The dequantised weights: the integer entry times its row's scale. -/
def weights (a1 : IVec S4096x4096 32) (a2 : FVec Ideal S4096x1 .f32) : FVec Ideal S4096x4096 .f32 :=
  mulf (sitofp .f32 a1) (broadcastInDim S4096x4096 ![0, 1] bcast_S4096x1_S4096x4096_0_1 a2)

/-- The rows of `x` transformed, over 64. -/
def xT (a0 : FVec Ideal S8192x4096 .f32) : FVec Ideal S8192x4096 .f32 :=
  Host.divf (transform a0) (broadcastInDim S8192x4096 ![] bcast_S_S8192x4096 (constant (F := Ideal) S_ .f32 0x42800000#32))

/-- What the closing operations make of an array `T` (the transformed rows of `x`) and the other three arguments:
    `T` over 64, contracted with the transposed dequantised weights, plus the bias on every row. -/
def contract (T : FVec Ideal S8192x4096 .f32) (a1 : IVec S4096x4096 32) (a2 : FVec Ideal S4096x1 .f32) (a3 : FVec Ideal S4096 .f32) :
    FVec Ideal S8192x4096 .f32 :=
  addf (Host.dotGeneral dot_S8192x4096_S4096x4096_S8192x4096_1_0_0_1_n_n none
      (Host.divf T (broadcastInDim S8192x4096 ![] bcast_S_S8192x4096 (constant (F := Ideal) S_ .f32 0x42800000#32)))
      (transpose S4096x4096 [1, 0] (weights a1 a2) transposes_S4096x4096_S4096x4096_1_0))
    (broadcastInDim S8192x4096 ![0, 1] bcast_S1x4096_S8192x4096_0_1 (broadcastInDim S1x4096 ![1] bcast_S4096_S1x4096_1 a3))

/-- The reference's result array as a function of its arguments. -/
def result (a0 : FVec Ideal S8192x4096 .f32) (a1 : IVec S4096x4096 32) (a2 : FVec Ideal S4096x1 .f32) (a3 : FVec Ideal S4096 .f32) :
    FVec Ideal S8192x4096 .f32 :=
  contract (transform a0) a1 a2 a3

/-! ## The contraction read at an index -/

theorem lhs_free (i : S8192x4096.Idx) (q : dot_S8192x4096_S4096x4096_S8192x4096_1_0_0_1_n_n.contr.Idx) :
    (dot_S8192x4096_S4096x4096_S8192x4096_1_0_0_1_n_n.lhsIdx i q 0).val = (i 0).val := by
  unfold DotDims.lhsIdx
  rw [dif_neg (show ¬(0 : Fin S8192x4096.rank) ∈ dot_S8192x4096_S4096x4096_S8192x4096_1_0_0_1_n_n.lhsBatch by decide),
    dif_pos (show (0 : Fin S8192x4096.rank) ∈ dot_S8192x4096_S4096x4096_S8192x4096_1_0_0_1_n_n.lhsNonContracting by decide)]
  rfl

theorem lhs_contr (i : S8192x4096.Idx) (q : dot_S8192x4096_S4096x4096_S8192x4096_1_0_0_1_n_n.contr.Idx) :
    (dot_S8192x4096_S4096x4096_S8192x4096_1_0_0_1_n_n.lhsIdx i q 1).val = (q ⟨0, by decide⟩).val :=
  dot_S8192x4096_S4096x4096_S8192x4096_1_0_0_1_n_n.lhsIdx_val_of_single rfl i q

theorem rhs_contr (i : S8192x4096.Idx) (q : dot_S8192x4096_S4096x4096_S8192x4096_1_0_0_1_n_n.contr.Idx) :
    (dot_S8192x4096_S4096x4096_S8192x4096_1_0_0_1_n_n.rhsIdx i q 0).val = (q ⟨0, by decide⟩).val :=
  dot_S8192x4096_S4096x4096_S8192x4096_1_0_0_1_n_n.rhsIdx_val_of_single rfl i q

theorem rhs_free (i : S8192x4096.Idx) (q : dot_S8192x4096_S4096x4096_S8192x4096_1_0_0_1_n_n.contr.Idx) :
    (dot_S8192x4096_S4096x4096_S8192x4096_1_0_0_1_n_n.rhsIdx i q 1).val = (i 1).val := by
  unfold DotDims.rhsIdx
  rw [dif_neg (show ¬(1 : Fin S4096x4096.rank) ∈ dot_S8192x4096_S4096x4096_S8192x4096_1_0_0_1_n_n.rhsBatch by decide),
    dif_pos (show (1 : Fin S4096x4096.rank) ∈ dot_S8192x4096_S4096x4096_S8192x4096_1_0_0_1_n_n.rhsNonContracting by decide)]
  rfl

/-- The host's contraction of `l` (rows `t`) with `r` (columns `o`) over their shared axis is the plain sum of products. -/
theorem contraction_apply (l : FVec Ideal S8192x4096 .f32) (r : FVec Ideal S4096x4096 .f32) (t : Fin 8192) (o : Fin 4096) :
    Host.dotGeneral dot_S8192x4096_S4096x4096_S8192x4096_1_0_0_1_n_n none l r (ix2 t o) = ∑ k : Fin 4096, l (ix2 t k) * r (ix2 k o) := by
  simp only [Host.dotGeneral]
  rw [Ideal.dotGeneral_apply, ← Equiv.sum_comp (ValueIdx.contrEquiv1 dot_S8192x4096_S4096x4096_S8192x4096_1_0_0_1_n_n 4096 rfl rfl).symm]
  refine Finset.sum_congr rfl fun k _ => ?_
  have hk := ValueIdx.contrEquiv1_symm_val dot_S8192x4096_S4096x4096_S8192x4096_1_0_0_1_n_n 4096 rfl rfl k
  have el : dot_S8192x4096_S4096x4096_S8192x4096_1_0_0_1_n_n.lhsIdx (ix2 t o)
      ((ValueIdx.contrEquiv1 dot_S8192x4096_S4096x4096_S8192x4096_1_0_0_1_n_n 4096 rfl rfl).symm k) = ix2 t k :=
    funext fun a => Fin.ext (by
      match a with
      | ⟨0, _⟩ => exact lhs_free _ _
      | ⟨1, _⟩ => exact (lhs_contr _ _).trans hk)
  have er : dot_S8192x4096_S4096x4096_S8192x4096_1_0_0_1_n_n.rhsIdx (ix2 t o)
      ((ValueIdx.contrEquiv1 dot_S8192x4096_S4096x4096_S8192x4096_1_0_0_1_n_n 4096 rfl rfl).symm k) = ix2 k o :=
    funext fun a => Fin.ext (by
      match a with
      | ⟨0, _⟩ => exact (rhs_contr _ _).trans hk
      | ⟨1, _⟩ => exact rhs_free _ _)
  rw [el, er]

/-! ## The factors and the bias at an index -/

/-- An entry of the dequantised weights. -/
theorem weights_apply (a1 : IVec S4096x4096 32) (a2 : FVec Ideal S4096x1 .f32) (o k : Fin 4096) :
    weights a1 a2 (ix2 o k) = (((a1 (ix2 o k)).toInt : ℝ) : EReal) * a2 (ix2 o (0 : Fin 1)) := by
  unfold weights
  rw [mulf_apply]
  refine congrArg (_ * ·) ?_
  exact broadcastInDim_apply _ _ a2 (ix2 o k) (ix2 o (0 : Fin 1)) fun a =>
    match a with | ⟨0, _⟩ => rfl | ⟨1, _⟩ => rfl

/-- An entry of the transformed `x`: the transform of its row, over 64. -/
theorem xT_apply (a0 : FVec Ideal S8192x4096 .f32) (t : Fin 8192) (k : Fin 4096) :
    xT a0 (ix2 t k) = Ideal.div (Walsh.ehad 12 (fun k => a0 (ix2 t k)) k) (Ideal.ofBits .f32 0x42800000#32) := by
  have e : transform a0 (ix2 t k) = Walsh.ehad 12 (fun k => a0 (ix2 t k)) k := congrFun (transform_rows a0 t) k
  rw [← e]
  rfl

/-- The bias, broadcast to a row and then to every row, at `(t, o)` is `bias[o]`. -/
theorem bias_apply (a3 : FVec Ideal S4096 .f32) (t : Fin 8192) (o : Fin 4096) :
    broadcastInDim S8192x4096 ![0, 1] bcast_S1x4096_S8192x4096_0_1 (broadcastInDim S1x4096 ![1] bcast_S4096_S1x4096_1 a3) (ix2 t o)
      = a3 (ix1 o) := by
  refine (broadcastInDim_apply _ _ _ (ix2 t o) (ix2 (0 : Fin 1) o) fun a =>
    match a with | ⟨0, _⟩ => rfl | ⟨1, _⟩ => rfl).trans ?_
  exact broadcastInDim_apply _ _ a3 (ix2 (0 : Fin 1) o) (ix1 o) fun a => match a with | ⟨0, _⟩ => rfl

/-- THE REFERENCE AT AN INDEX. -/
theorem result_apply (a0 : FVec Ideal S8192x4096 .f32) (a1 : IVec S4096x4096 32) (a2 : FVec Ideal S4096x1 .f32) (a3 : FVec Ideal S4096 .f32)
    (t : Fin 8192) (o : Fin 4096) :
    result a0 a1 a2 a3 (ix2 t o)
      = (∑ k : Fin 4096, Ideal.div (Walsh.ehad 12 (fun k => a0 (ix2 t k)) k) (Ideal.ofBits .f32 0x42800000#32)
            * ((((a1 (ix2 o k)).toInt : ℝ) : EReal) * a2 (ix2 o (0 : Fin 1))))
        + a3 (ix1 o) := by
  unfold result contract
  rw [addf_apply, contraction_apply, bias_apply]
  refine congrArg (· + _) (Finset.sum_congr rfl fun k _ => ?_)
  refine congrArg₂ (· * ·) (xT_apply a0 t k) ?_
  rw [transpose_ix2_apply, weights_apply]

/-! ## The run -/

/-- The eleven closing operations make `contract` of what the stages left and of the other three arguments. -/
theorem post_eq (W : Valuation τ sig (Elt Ideal)) :
    after (Cert.ReferenceIdeal.RefRun.post (F := Ideal)) W (Proc.devRef .tc main_v93)
      = contract (W (Proc.devRef .tc main_v83)) (W (Proc.devRef .tc main_arg1)) (W (Proc.devRef .tc main_arg2))
          (W (Proc.devRef .tc main_arg3)) := by
  unfold Cert.ReferenceIdeal.RefRun.post
  after_results_simp <;> rfl

/-- The contents of the result buffer after the whole list: the stages one after the other, then the closing operations. -/
theorem value_eq (V0 : Valuation τ sig (Elt Ideal)) :
    after (Cert.ReferenceIdeal.RefRun.ops (F := Ideal)) V0 (Proc.devRef .tc main_v93)
      = result (V0 (Proc.devRef .tc main_arg0)) (V0 (Proc.devRef .tc main_arg1)) (V0 (Proc.devRef .tc main_arg2))
          (V0 (Proc.devRef .tc main_arg3)) := by
  rw [Cert.ReferenceIdeal.RefRun.split, StableHlo.after_append, post_eq, Cert.ReferenceIdeal.RefRun.stages_kept1,
    Cert.ReferenceIdeal.RefRun.stages_kept2, Cert.ReferenceIdeal.RefRun.stages_kept3, Cert.ReferenceIdeal.RefRun.stages_split]
  simp only [StableHlo.after_append]
  rw [Cert.ReferenceIdeal.RefRun.chunk11_eq, Cert.ReferenceIdeal.RefRun.chunk10_eq, Cert.ReferenceIdeal.RefRun.chunk9_eq,
    Cert.ReferenceIdeal.RefRun.chunk8_eq, Cert.ReferenceIdeal.RefRun.chunk7_eq, Cert.ReferenceIdeal.RefRun.chunk6_eq,
    Cert.ReferenceIdeal.RefRun.chunk5_eq, Cert.ReferenceIdeal.RefRun.chunk4_eq, Cert.ReferenceIdeal.RefRun.chunk3_eq,
    Cert.ReferenceIdeal.RefRun.chunk2_eq, Cert.ReferenceIdeal.RefRun.chunk1_eq, Cert.ReferenceIdeal.RefRun.chunk0_eq]
  rfl

set_option maxRecDepth 8192 in
set_option maxHeartbeats 4000000 in
/-- Every weakly fair execution of the reference terminates with its result at `result` of the arguments as launched, and
    the arguments unchanged (no operation writes them). -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v93)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v93).trans (value_eq (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (Cert.ReferenceIdeal.RefRun.run_after m ρ)

end Cert.ReferenceIdeal.RefValue

end
-- ==== Proof.Bridge.lean ====
/-
  The two programs compute one function.

  At the ideal values the kernel's array holds, at `(t, o)`, the sum over `k` of `x[t, k]` times (the twelve-stage
  transform of row `o` of the weights, at `k`, over 64), plus `bias[o]`; the reference's holds the sum over `k` of (the
  transform of row `t` of `x`, at `k`, over 64) times `W[o, k]`, plus `bias[o]`. The transform is self-adjoint for
  the dot product of rows with real entries — and the entries are real: `x` and the scales by the precondition, the
  quantised weights because they are integers — so the two sums are equal.
-/
import proofs.«123800_j88441966559314_2_alg».proof.Proof.KernelBlocks
import proofs.«123800_j88441966559314_2_alg».proof.Proof.KernelHost
import proofs.«123800_j88441966559314_2_alg».proof.Proof.RefValue

noncomputable section

open scoped BigOperators

namespace Cert.Bridge

open Idealize.ShloMosaic Idealize.ShloMosaic.ValueIdx
open Cert.KernelIdeal Cert.KernelIdeal.Facts₀

/-- The divisor both programs spell, `64.0`, is the real 64. -/
theorem sixtyfour : Ideal.ofBits .f32 0x42800000#32 = ((64 : ℝ) : EReal) := by
  simp [Ideal.ofBits, Ideal.ieee, -EReal.coe_mul]; norm_num

/-- The product-plus-bias array depends only on its three operands. -/
theorem G_congr {x x' : S8192x4096.Idx → EReal} {w w' : S4096x4096.Idx → EReal} {b b' : S1x4096.Idx → EReal}
    (hx : x = x') (hw : w = w') (hb : b = b') : Cert.KernelIdeal.Blocks.G x w b = Cert.KernelIdeal.Blocks.G x' w' b' := by
  subst hx hw hb; rfl

/-- THE KERNEL AT AN INDEX, over the operands the region finds. -/
theorem kernel_apply (a0 : FVec Ideal S8192x4096 .f32) (a1 : IVec S4096x4096 32) (a2 : FVec Ideal S4096x1 .f32)
    (a3 : FVec Ideal S4096 .f32) (t : Fin 8192) (o : Fin 4096) :
    Cert.KernelIdeal.Blocks.G (truncf .bf16 a0 bitsLt_bf16_f32) (Cert.KernelIdeal.HostVals.operand1 a1 a2)
        (shapeCast S1x4096 a3 shapeCasts_S4096_S1x4096) (ix2 t o)
      = (∑ k : Fin 4096, a0 (ix2 t k)
            * Ideal.div (Walsh.ehad 12 (fun k => (((a1 (ix2 o k)).toInt : ℝ) : EReal) * a2 (ix2 o (0 : Fin 1))) k)
                (Ideal.ofBits .f32 0x42800000#32))
        + a3 (ix1 o) := by
  rw [Cert.KernelIdeal.Blocks.G_apply]
  unfold Cert.KernelIdeal.Blocks.entry
  rw [shapeCast_a_1a_apply]
  refine congrArg (· + _) (Finset.sum_congr rfl fun k _ => ?_)
  rw [Cert.KernelIdeal.HostVals.operand1_apply]
  exact congrArg (fun f => a0 (ix2 t k) * Ideal.div (Walsh.ehad 12 f k) (Ideal.ofBits .f32 0x42800000#32))
    (funext fun k => Cert.KernelIdeal.HostVals.weights_apply a1 a2 o k)

/-- THE BRIDGE: where `x` and the scales are real, the kernel's array is the reference's. -/
theorem values_eq (a0 : FVec Ideal S8192x4096 .f32) (a1 : IVec S4096x4096 32) (a2 : FVec Ideal S4096x1 .f32)
    (a3 : FVec Ideal S4096 .f32) (h0 : ∀ i, ∃ r : ℝ, a0 i = (r : EReal)) (h2 : ∀ i, ∃ r : ℝ, a2 i = (r : EReal)) :
    Cert.KernelIdeal.Blocks.G (truncf .bf16 a0 bitsLt_bf16_f32) (Cert.KernelIdeal.HostVals.operand1 a1 a2)
        (shapeCast S1x4096 a3 shapeCasts_S4096_S1x4096)
      = Cert.ReferenceIdeal.RefValue.result a0 a1 a2 a3 := by
  funext i
  obtain ⟨t, o, rfl⟩ : ∃ (t : Fin 8192) (o : Fin 4096), i = ix2 t o := ⟨i 0, i 1, eq_ix2 i⟩
  rw [kernel_apply, Cert.ReferenceIdeal.RefValue.result_apply]
  refine congrArg (· + _) ?_
  exact Walsh.law (fun k => a0 (ix2 t k)) (fun k => (((a1 (ix2 o k)).toInt : ℝ) : EReal) * a2 (ix2 o (0 : Fin 1)))
    _ sixtyfour (fun k => h0 _) (fun k => by
      obtain ⟨r, hr⟩ := h2 (ix2 o (0 : Fin 1))
      exact ⟨((a1 (ix2 o k)).toInt : ℝ) * r, by rw [hr, ← EReal.coe_mul]⟩)

end Cert.Bridge

end
-- ==== Proof.lean ====
/-
  The certificate of the Hadamard-rotated quantised linear layer: `y = hadamard(x) · (Q ⊙ s)ᵀ + bias`.

  The kernel moves the orthonormal Walsh–Hadamard rotation from the activations onto the dequantised weights (once, on the
  host) and then runs one blocked product with a bias add; the reference rotates the activations and contracts with the
  weights. Both apply the same twelve butterfly stages and the same division by 64, to different factors of the same
  contraction. At the ideal values the two results are equal because the twelve-stage transform is self-adjoint for the dot
  product of real rows (LibWalsh: the stages commute and each is its own adjoint), and the rows are real: `x` and the
  scales by the precondition, the quantised weights as integers.

  The kernel's two frames are the generated ones and the reference's is its run with the result dropped (RefRun: @main is its
  list of host operations run in order); the idealisation rewrote no operation, so `preserves` asks nothing; the value
  claim sets the kernel's run — its output array as one function of the operands the region finds (KernelBlocks), those
  operands as functions of the arguments (KernelHost) — beside the reference's run (RefValue) and joins them (Bridge).
-/
import proofs.«123800_j88441966559314_2_alg».proof.Defs
import proofs.«123800_j88441966559314_2_alg».proof.Proof.Gen.Kernel
import proofs.«123800_j88441966559314_2_alg».proof.Proof.Gen.Kernel.Skeleton
import proofs.«123800_j88441966559314_2_alg».proof.Proof.Gen.Kernel.Launch
import proofs.«123800_j88441966559314_2_alg».proof.Proof.Gen.Kernel.Points
import proofs.«123800_j88441966559314_2_alg».proof.Proof.Gen.Kernel.Frame
import proofs.«123800_j88441966559314_2_alg».proof.Proof.Gen.KernelIdeal
import proofs.«123800_j88441966559314_2_alg».proof.Proof.Gen.KernelIdeal.Skeleton
import proofs.«123800_j88441966559314_2_alg».proof.Proof.Gen.KernelIdeal.Launch
import proofs.«123800_j88441966559314_2_alg».proof.Proof.Gen.KernelIdeal.Points
import proofs.«123800_j88441966559314_2_alg».proof.Proof.Gen.KernelIdeal.Frame
import proofs.«123800_j88441966559314_2_alg».proof.Proof.Gen.ReferenceIdeal
import proofs.«123800_j88441966559314_2_alg».proof.Proof.Gen.Pre_finite_inputs
import proofs.«123800_j88441966559314_2_alg».proof.Proof.Gen.KernelIdeal.Value
import proofs.«123800_j88441966559314_2_alg».proof.Proof.FiniteInputs
import proofs.«123800_j88441966559314_2_alg».proof.Proof.Bridge
import Idealize.ShloMosaic.Adequacy
import Idealize.ShloMosaic.Init

noncomputable section

namespace Cert.Proof

open Idealize.ShloMosaic Idealize.ShloMosaic.TcCoe Idealize.SL.Sem

/-- The kernel's run and the reference's, from memories that agree on the arguments, end with the same array: the kernel's
    is the product-plus-bias of the operands its region finds, those are `x`, the transformed weights and the bias, and
    that is the reference's function of the arguments where the precondition makes `x` and the scales real. -/
theorem algebraic : Cert.algebraic_KernelIdeal_ReferenceIdeal := by
  intro m ρ m' ρ' hpre hagree
  refine ⟨fun c => Cert.KernelIdeal.Blocks.G (Cert.KernelIdeal.Gen.V m c Cert.KernelIdeal.main_v90)
    (Cert.KernelIdeal.Gen.V m c Cert.KernelIdeal.main_v89) (Cert.KernelIdeal.Gen.V m c Cert.KernelIdeal.main_v91),
    Cert.KernelIdeal.Blocks.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  obtain ⟨h0, h2, _⟩ := Cert.FiniteInputs.reals_of_pre _ _ _ _ (hpre c)
  exact ((Cert.Bridge.G_congr (Cert.KernelIdeal.HostVals.found_x m c) (Cert.KernelIdeal.HostVals.found_w m c)
    (Cert.KernelIdeal.HostVals.found_bias m c)).trans (Cert.Bridge.values_eq _ _ _ _ h0 h2)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefValue.run m ρ),
  trivial,
  algebraic⟩

end Cert.Proof

end
